-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x4 : Shape := ⟨3, ![40000, 32, 4]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S_ : Shape := ⟨0, ![]⟩

class Facts : Prop where
  bcast_S_S40000x32x4 : S_.BroadcastsInDim S40000x32x4 (![] : Fin 0 → Fin S40000x32x4.rank)
  reducesTo_S40000x32x4_S_d0_1_2 : S40000x32x4.ReducesTo [0, 1, 2] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S40000x32x4 .f32) (main_arg1 : IVec S40000 32) (main_arg2 : IVec S40000x4 32) (main_arg3 : FVec F S9x64 .f32) (main_arg4 : FVec F S64 .f32) (main_arg5 : FVec F S64 .f32) : IVec S_ 1 :=
  let main_v0 : FVec F S40000x32x4 .f32 := Host.absf main_arg0
  let main_cst : FVec F S_ .f32 := constant S_ .f32 0x7F800000#32
  let main_v1 : FVec F S40000x32x4 .f32 := broadcastInDim S40000x32x4 ![] bcast_S_S40000x32x4 main_cst
  let main_v2 : IVec S40000x32x4 1 := cmpf .olt main_v0 main_v1
  let main_c : IVec S_ 1 := constantI S_ 1 1#1
  let main_v3 : IVec S_ 1 := (fun x v => Host.reduce IntOp.andi x v reducesTo_S40000x32x4_S_d0_1_2 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S40000x32x4 : Shape := ⟨3, ![40000, 32, 4]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S40000x1 : Shape := ⟨2, ![40000, 1]⟩
abbrev S1x64 : Shape := ⟨2, ![1, 64]⟩
abbrev S800x32x4 : Shape := ⟨3, ![800, 32, 4]⟩
abbrev S800x1 : Shape := ⟨2, ![800, 1]⟩
abbrev S800x4 : Shape := ⟨2, ![800, 4]⟩
abbrev S800x1x1 : Shape := ⟨3, ![800, 1, 1]⟩
abbrev S800x32x3 : Shape := ⟨3, ![800, 32, 3]⟩
abbrev S800x1x3 : Shape := ⟨3, ![800, 1, 3]⟩
abbrev S800x3 : Shape := ⟨2, ![800, 3]⟩
abbrev S800x32x1 : Shape := ⟨3, ![800, 32, 1]⟩
abbrev S800x32 : Shape := ⟨2, ![800, 32]⟩
abbrev S800x32x2 : Shape := ⟨3, ![800, 32, 2]⟩
abbrev S800x32x9 : Shape := ⟨3, ![800, 32, 9]⟩
abbrev S25600x9 : Shape := ⟨2, ![25600, 9]⟩
abbrev S25600x64 : Shape := ⟨2, ![25600, 64]⟩
abbrev S_ : Shape := ⟨0, ![]⟩
abbrev S40000x64 : Shape := ⟨2, ![40000, 64]⟩
abbrev S800x64 : Shape := ⟨2, ![800, 64]⟩
abbrev S800x32x64 : Shape := ⟨3, ![800, 32, 64]⟩
abbrev S1x1x64 : Shape := ⟨3, ![1, 1, 64]⟩
abbrev S800x1x64 : Shape := ⟨3, ![800, 1, 64]⟩

abbrev nBuf : Space → Nat
  | .hbm => 20
  | .vmem => 22
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S40000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S40000x1, .i32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S40000x64, .f32⟩
  | .local _ .vmem, ⟨0, _⟩ => ⟨S800x32x4, .f32⟩
  | .local _ .vmem, ⟨1, _⟩ => ⟨S800x32x4, .f32⟩
  | .local _ .vmem, ⟨2, _⟩ => ⟨S800x1, .i32⟩
  | .local _ .vmem, ⟨3, _⟩ => ⟨S800x1, .i32⟩
  | .local _ .vmem, ⟨4, _⟩ => ⟨S800x4, .i32⟩
  | .local _ .vmem, ⟨5, _⟩ => ⟨S800x4, .i32⟩
  | .local _ .vmem, ⟨6, _⟩ => ⟨S9x64, .f32⟩
  | .local _ .vmem, ⟨7, _⟩ => ⟨S1x64, .f32⟩
  | .local _ .vmem, ⟨8, _⟩ => ⟨S1x64, .f32⟩
  | .local _ .vmem, ⟨9, _⟩ => ⟨S800x32x4, .f32⟩
  | .local _ .vmem, ⟨10, _⟩ => ⟨S800x32x4, .f32⟩
  | .local _ .vmem, ⟨11, _⟩ => ⟨S800x1, .i32⟩
  | .local _ .vmem, ⟨12, _⟩ => ⟨S800x1, .i32⟩
  | .local _ .vmem, ⟨13, _⟩ => ⟨S800x4, .i32⟩
  | .local _ .vmem, ⟨14, _⟩ => ⟨S800x4, .i32⟩
  | .local _ .vmem, ⟨15, _⟩ => ⟨S9x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S800x64, .f32⟩
  | .local _ .vmem, ⟨21, _⟩ => ⟨S800x64, .f32⟩
  | _, _ => ⟨S40000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S800x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S800x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S40000_S40000x1 : S40000.ShapeCasts S40000x1
  shapeCasts_S64_S1x64 : S64.ShapeCasts S1x64
  inb_S800x32x4_S800x32x4_0_0_0 : ∀ a, (![0, 0, 0] : Fin 3 → Nat) a + S800x32x4.size a ≤ S800x32x4.size a
  h_S800x32x4 : 0 < S800x32x4.numel
  inb_S800x1_S800x1_0_0 : ∀ a, (![0, 0] : Fin 2 → Nat) a + S800x1.size a ≤ S800x1.size a
  h_S800x1 : 0 < S800x1.numel
  shapeCasts_S800x1_S800x1 : S800x1.ShapeCasts S800x1
  inb_S800x4_S800x4_0_0 : ∀ a, (![0, 0] : Fin 2 → Nat) a + S800x4.size a ≤ S800x4.size a
  h_S800x4 : 0 < S800x4.numel
  shapeCasts_S800x1_S800x1x1 : S800x1.ShapeCasts S800x1x1
  slices_S800x32x4_o0_0_0_S800x32x3 : S800x32x4.Slices ![0, 0, 0] S800x32x3
  slices_S800x32x3_o0_0_0_S800x1x3 : S800x32x3.Slices ![0, 0, 0] S800x1x3
  shapeCasts_S800x1x3_S800x3 : S800x1x3.ShapeCasts S800x3
  slices_S800x32x3_o0_1_0_S800x1x3 : S800x32x3.Slices ![0, 1, 0] S800x1x3
  slices_S800x32x3_o0_2_0_S800x1x3 : S800x32x3.Slices ![0, 2, 0] S800x1x3
  slices_S800x32x3_o0_3_0_S800x1x3 : S800x32x3.Slices ![0, 3, 0] S800x1x3
  slices_S800x32x3_o0_4_0_S800x1x3 : S800x32x3.Slices ![0, 4, 0] S800x1x3
  slices_S800x32x3_o0_5_0_S800x1x3 : S800x32x3.Slices ![0, 5, 0] S800x1x3
  slices_S800x32x3_o0_6_0_S800x1x3 : S800x32x3.Slices ![0, 6, 0] S800x1x3
  slices_S800x32x3_o0_7_0_S800x1x3 : S800x32x3.Slices ![0, 7, 0] S800x1x3
  slices_S800x32x3_o0_8_0_S800x1x3 : S800x32x3.Slices ![0, 8, 0] S800x1x3
  slices_S800x32x3_o0_9_0_S800x1x3 : S800x32x3.Slices ![0, 9, 0] S800x1x3
  slices_S800x32x3_o0_10_0_S800x1x3 : S800x32x3.Slices ![0, 10, 0] S800x1x3
  slices_S800x32x3_o0_11_0_S800x1x3 : S800x32x3.Slices ![0, 11, 0] S800x1x3
  slices_S800x32x3_o0_12_0_S800x1x3 : S800x32x3.Slices ![0, 12, 0] S800x1x3
  slices_S800x32x3_o0_13_0_S800x1x3 : S800x32x3.Slices ![0, 13, 0] S800x1x3
  slices_S800x32x3_o0_14_0_S800x1x3 : S800x32x3.Slices ![0, 14, 0] S800x1x3
  slices_S800x32x3_o0_15_0_S800x1x3 : S800x32x3.Slices ![0, 15, 0] S800x1x3
  slices_S800x32x3_o0_16_0_S800x1x3 : S800x32x3.Slices ![0, 16, 0] S800x1x3
  slices_S800x32x3_o0_17_0_S800x1x3 : S800x32x3.Slices ![0, 17, 0] S800x1x3
  slices_S800x32x3_o0_18_0_S800x1x3 : S800x32x3.Slices ![0, 18, 0] S800x1x3
  slices_S800x32x3_o0_19_0_S800x1x3 : S800x32x3.Slices ![0, 19, 0] S800x1x3
  slices_S800x32x3_o0_20_0_S800x1x3 : S800x32x3.Slices ![0, 20, 0] S800x1x3
  slices_S800x32x3_o0_21_0_S800x1x3 : S800x32x3.Slices ![0, 21, 0] S800x1x3
  slices_S800x32x3_o0_22_0_S800x1x3 : S800x32x3.Slices ![0, 22, 0] S800x1x3
  slices_S800x32x3_o0_23_0_S800x1x3 : S800x32x3.Slices ![0, 23, 0] S800x1x3
  slices_S800x32x3_o0_24_0_S800x1x3 : S800x32x3.Slices ![0, 24, 0] S800x1x3
  slices_S800x32x3_o0_25_0_S800x1x3 : S800x32x3.Slices ![0, 25, 0] S800x1x3
  slices_S800x32x3_o0_26_0_S800x1x3 : S800x32x3.Slices ![0, 26, 0] S800x1x3
  slices_S800x32x3_o0_27_0_S800x1x3 : S800x32x3.Slices ![0, 27, 0] S800x1x3
  slices_S800x32x3_o0_28_0_S800x1x3 : S800x32x3.Slices ![0, 28, 0] S800x1x3
  slices_S800x32x3_o0_29_0_S800x1x3 : S800x32x3.Slices ![0, 29, 0] S800x1x3
  slices_S800x32x3_o0_30_0_S800x1x3 : S800x32x3.Slices ![0, 30, 0] S800x1x3
  slices_S800x32x3_o0_31_0_S800x1x3 : S800x32x3.Slices ![0, 31, 0] S800x1x3
  shapeCasts_S800x3_S800x1x3 : S800x3.ShapeCasts S800x1x3
  broadcasts_S800x1x1_S800x1x3 : S800x1x1.Broadcasts S800x1x3
  broadcasts_S800x1x3_S800x32x3 : S800x1x3.Broadcasts S800x32x3
  slices_S800x4_o0_3_S800x1 : S800x4.Slices ![0, 3] S800x1
  slices_S800x4_o0_2_S800x1 : S800x4.Slices ![0, 2] S800x1
  slices_S800x32x4_o0_0_0_S800x32x1 : S800x32x4.Slices ![0, 0, 0] S800x32x1
  shapeCasts_S800x32x1_S800x32 : S800x32x1.ShapeCasts S800x32
  broadcasts_S800x1_S800x32 : S800x1.Broadcasts S800x32
  slices_S800x32x4_o0_0_1_S800x32x1 : S800x32x4.Slices ![0, 0, 1] S800x32x1
  shapeCasts_S800x32_S800x32x1 : S800x32.ShapeCasts S800x32x1
  concatenates_S800x32x1_S800x32x1_S800x32x2_d2 : Shape.Concatenates [S800x32x1, S800x32x1] S800x32x2 2
  concatenates_S800x32x4_S800x32x3_S800x32x2_S800x32x9_d2 : Shape.Concatenates [S800x32x4, S800x32x3, S800x32x2] S800x32x9 2
  iota_S800x32_d1_w32 : S800x32.Iotas .tc 32 [1]
  natLt_1_32 : 1 < 32
  broadcasts_S800x32x1_S800x32x9 : S800x32x1.Broadcasts S800x32x9
  shapeCasts_S800x32x9_S25600x9 : S800x32x9.ShapeCasts S25600x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  reduces_S25600x64_S64 : S25600x64.Reduces [0] S64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bcast_S_S1x64 : S_.BroadcastsInDim S1x64 (![] : Fin 0 → Fin S1x64.rank)
  shapeCasts_S25600x64_S800x32x64 : S25600x64.ShapeCasts S800x32x64
  shapeCasts_S1x64_S1x1x64 : S1x64.ShapeCasts S1x1x64
  broadcasts_S1x1x64_S800x32x64 : S1x1x64.Broadcasts S800x32x64
  slices_S800x32x64_o0_0_0_S800x1x64 : S800x32x64.Slices ![0, 0, 0] S800x1x64
  shapeCasts_S800x1x64_S800x64 : S800x1x64.ShapeCasts S800x64
  slices_S800x32x64_o0_1_0_S800x1x64 : S800x32x64.Slices ![0, 1, 0] S800x1x64
  slices_S800x32x64_o0_2_0_S800x1x64 : S800x32x64.Slices ![0, 2, 0] S800x1x64
  slices_S800x32x64_o0_3_0_S800x1x64 : S800x32x64.Slices ![0, 3, 0] S800x1x64
  slices_S800x32x64_o0_4_0_S800x1x64 : S800x32x64.Slices ![0, 4, 0] S800x1x64
  slices_S800x32x64_o0_5_0_S800x1x64 : S800x32x64.Slices ![0, 5, 0] S800x1x64
  slices_S800x32x64_o0_6_0_S800x1x64 : S800x32x64.Slices ![0, 6, 0] S800x1x64
  slices_S800x32x64_o0_7_0_S800x1x64 : S800x32x64.Slices ![0, 7, 0] S800x1x64
  slices_S800x32x64_o0_8_0_S800x1x64 : S800x32x64.Slices ![0, 8, 0] S800x1x64
  slices_S800x32x64_o0_9_0_S800x1x64 : S800x32x64.Slices ![0, 9, 0] S800x1x64
  slices_S800x32x64_o0_10_0_S800x1x64 : S800x32x64.Slices ![0, 10, 0] S800x1x64
  slices_S800x32x64_o0_11_0_S800x1x64 : S800x32x64.Slices ![0, 11, 0] S800x1x64
  slices_S800x32x64_o0_12_0_S800x1x64 : S800x32x64.Slices ![0, 12, 0] S800x1x64
  slices_S800x32x64_o0_13_0_S800x1x64 : S800x32x64.Slices ![0, 13, 0] S800x1x64
  slices_S800x32x64_o0_14_0_S800x1x64 : S800x32x64.Slices ![0, 14, 0] S800x1x64
  slices_S800x32x64_o0_15_0_S800x1x64 : S800x32x64.Slices ![0, 15, 0] S800x1x64
  slices_S800x32x64_o0_16_0_S800x1x64 : S800x32x64.Slices ![0, 16, 0] S800x1x64
  slices_S800x32x64_o0_17_0_S800x1x64 : S800x32x64.Slices ![0, 17, 0] S800x1x64
  slices_S800x32x64_o0_18_0_S800x1x64 : S800x32x64.Slices ![0, 18, 0] S800x1x64
  slices_S800x32x64_o0_19_0_S800x1x64 : S800x32x64.Slices ![0, 19, 0] S800x1x64
  slices_S800x32x64_o0_20_0_S800x1x64 : S800x32x64.Slices ![0, 20, 0] S800x1x64
  slices_S800x32x64_o0_21_0_S800x1x64 : S800x32x64.Slices ![0, 21, 0] S800x1x64
  slices_S800x32x64_o0_22_0_S800x1x64 : S800x32x64.Slices ![0, 22, 0] S800x1x64
  slices_S800x32x64_o0_23_0_S800x1x64 : S800x32x64.Slices ![0, 23, 0] S800x1x64
  slices_S800x32x64_o0_24_0_S800x1x64 : S800x32x64.Slices ![0, 24, 0] S800x1x64
  slices_S800x32x64_o0_25_0_S800x1x64 : S800x32x64.Slices ![0, 25, 0] S800x1x64
  slices_S800x32x64_o0_26_0_S800x1x64 : S800x32x64.Slices ![0, 26, 0] S800x1x64
  slices_S800x32x64_o0_27_0_S800x1x64 : S800x32x64.Slices ![0, 27, 0] S800x1x64
  slices_S800x32x64_o0_28_0_S800x1x64 : S800x32x64.Slices ![0, 28, 0] S800x1x64
  slices_S800x32x64_o0_29_0_S800x1x64 : S800x32x64.Slices ![0, 29, 0] S800x1x64
  slices_S800x32x64_o0_30_0_S800x1x64 : S800x32x64.Slices ![0, 30, 0] S800x1x64
  slices_S800x32x64_o0_31_0_S800x1x64 : S800x32x64.Slices ![0, 31, 0] S800x1x64
  inb_S800x64_S800x64_0_0 : ∀ a, (![0, 0] : Fin 2 → Nat) a + S800x64.size a ≤ S800x64.size a
  h_S800x64 : 0 < S800x64.numel
  dot_S25600x9_S9x64_S25600x64_1_0_0_1_n_n_wf : DotDims.WF S25600x9 S9x64 S25600x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32x4.size a ≤ S40000x32x4.size a
  hwx0_0 : ∀ i : grid0.Coords, EltTy.bits .f32 = 32 ∨ (Rect.block (s := S40000x32x4) S800x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1.size a ≤ S40000x1.size a
  hwx0_1 : ∀ i : grid0.Coords, EltTy.bits .i32 = 32 ∨ (Rect.block (s := S40000x1) S800x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x4.size a ≤ S40000x4.size a
  hwx0_2 : ∀ i : grid0.Coords, EltTy.bits .i32 = 32 ∨ (Rect.block (s := S40000x4) S800x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x32x4.size a ≤ S40000x32x4.size a
  hwx1_0 : ∀ i : grid1.Coords, EltTy.bits .f32 = 32 ∨ (Rect.block (s := S40000x32x4) S800x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x1.size a ≤ S40000x1.size a
  hwx1_1 : ∀ i : grid1.Coords, EltTy.bits .i32 = 32 ∨ (Rect.block (s := S40000x1) S800x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x4.size a ≤ S40000x4.size a
  hwx1_2 : ∀ i : grid1.Coords, EltTy.bits .i32 = 32 ∨ (Rect.block (s := S40000x4) S800x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S800x64.size a ≤ S40000x64.size a
  hwx1_8 : ∀ i : grid1.Coords, EltTy.bits .f32 = 32 ∨ (Rect.block (s := S40000x64) S800x64.size (cc1_transform_8 i) (hinb1_8 i)).WholeWords (EltTy.packing .f32)

variable [Facts₀]

def dot_S25600x9_S9x64_S25600x64_1_0_0_1_n_n : DotDims S25600x9 S9x64 S25600x64 where
  lhsContracting := [1]
  rhsContracting := [0]
  lhsNonContracting := [0]
  rhsNonContracting := [1]
  lhsBatch := []
  rhsBatch := []
  wf := dot_S25600x9_S9x64_S25600x64_1_0_0_1_n_n_wf

abbrev win0_0 : Pipeline.Window sig grid0 :=
  Pipeline.Window.ofSpec (Memref.whole main_arg0) S800x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S800x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S800x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S800x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S800x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S40000x32x4 : Shape := ⟨3, ![40000, 32, 4]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S40000x1x1 : Shape := ⟨3, ![40000, 1, 1]⟩
abbrev S40000x32x3 : Shape := ⟨3, ![40000, 32, 3]⟩
abbrev S_ : Shape := ⟨0, ![]⟩
abbrev S40000x3 : Shape := ⟨2, ![40000, 3]⟩
abbrev S40000x1x3 : Shape := ⟨3, ![40000, 1, 3]⟩
abbrev S40000x32x1 : Shape := ⟨3, ![40000, 32, 1]⟩
abbrev S40000x32 : Shape := ⟨2, ![40000, 32]⟩
abbrev S40000x1 : Shape := ⟨2, ![40000, 1]⟩
abbrev S40000x32x2 : Shape := ⟨3, ![40000, 32, 2]⟩
abbrev S40000x32x9 : Shape := ⟨3, ![40000, 32, 9]⟩
abbrev S32 : Shape := ⟨1, ![32]⟩
abbrev S1x32 : Shape := ⟨2, ![1, 32]⟩
abbrev S40000x32x64 : Shape := ⟨3, ![40000, 32, 64]⟩
abbrev S1x1x64 : Shape := ⟨3, ![1, 1, 64]⟩
abbrev S40000x64 : Shape := ⟨2, ![40000, 64]⟩

abbrev nBuf : Space → Nat
  | .hbm => 95
  | .vmem => 0
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S40000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S40000, .f32⟩
  | .hbm, ⟨7, _⟩ => ⟨S40000x1x1, .f32⟩
  | .hbm, ⟨8, _⟩ => ⟨S40000x32x3, .f32⟩
  | .hbm, ⟨9, _⟩ => ⟨S_, .f32⟩
  | .hbm, ⟨10, _⟩ => ⟨S40000x3, .f32⟩
  | .hbm, ⟨11, _⟩ => ⟨S40000x1x3, .f32⟩
  | .hbm, ⟨12, _⟩ => ⟨S40000x1x3, .f32⟩
  | .hbm, ⟨13, _⟩ => ⟨S40000x1x3, .f32⟩
  | .hbm, ⟨14, _⟩ => ⟨S40000x32x3, .f32⟩
  | .hbm, ⟨15, _⟩ => ⟨S40000x32x3, .f32⟩
  | .hbm, ⟨16, _⟩ => ⟨S40000x32x3, .f32⟩
  | .hbm, ⟨17, _⟩ => ⟨S40000x32x1, .f32⟩
  | .hbm, ⟨18, _⟩ => ⟨S40000x32, .f32⟩
  | .hbm, ⟨19, _⟩ => ⟨S40000x1, .i32⟩
  | .hbm, ⟨20, _⟩ => ⟨S40000, .i32⟩
  | .hbm, ⟨21, _⟩ => ⟨S40000, .f32⟩
  | .hbm, ⟨22, _⟩ => ⟨S40000x1, .f32⟩
  | .hbm, ⟨23, _⟩ => ⟨S_, .f32⟩
  | .hbm, ⟨24, _⟩ => ⟨S40000x1, .f32⟩
  | .hbm, ⟨25, _⟩ => ⟨S40000x1, .f32⟩
  | .hbm, ⟨26, _⟩ => ⟨S_, .f32⟩
  | .hbm, ⟨27, _⟩ => ⟨S40000x1, .f32⟩
  | .hbm, ⟨28, _⟩ => ⟨S40000x1, .f32⟩
  | .hbm, ⟨29, _⟩ => ⟨S40000x32, .f32⟩
  | .hbm, ⟨30, _⟩ => ⟨S40000x32, .f32⟩
  | .hbm, ⟨31, _⟩ => ⟨S40000x32x1, .f32⟩
  | .hbm, ⟨32, _⟩ => ⟨S40000x32, .f32⟩
  | .hbm, ⟨33, _⟩ => ⟨S40000x1, .i32⟩
  | .hbm, ⟨34, _⟩ => ⟨S40000, .i32⟩
  | .hbm, ⟨35, _⟩ => ⟨S40000, .f32⟩
  | .hbm, ⟨36, _⟩ => ⟨S40000x1, .f32⟩
  | .hbm, ⟨37, _⟩ => ⟨S_, .f32⟩
  | .hbm, ⟨38, _⟩ => ⟨S40000x1, .f32⟩
  | .hbm, ⟨39, _⟩ => ⟨S40000x1, .f32⟩
  | .hbm, ⟨40, _⟩ => ⟨S_, .f32⟩
  | .hbm, ⟨41, _⟩ => ⟨S40000x1, .f32⟩
  | .hbm, ⟨42, _⟩ => ⟨S40000x1, .f32⟩
  | .hbm, ⟨43, _⟩ => ⟨S40000x32, .f32⟩
  | .hbm, ⟨44, _⟩ => ⟨S40000x32, .f32⟩
  | .hbm, ⟨45, _⟩ => ⟨S40000x32x1, .f32⟩
  | .hbm, ⟨46, _⟩ => ⟨S40000x32x1, .f32⟩
  | .hbm, ⟨47, _⟩ => ⟨S40000x32x2, .f32⟩
  | .hbm, ⟨48, _⟩ => ⟨S40000x32x9, .f32⟩
  | .hbm, ⟨49, _⟩ => ⟨S32, .i32⟩
  | .hbm, ⟨50, _⟩ => ⟨S1x32, .i32⟩
  | .hbm, ⟨51, _⟩ => ⟨S40000x1, .i32⟩
  | .hbm, ⟨52, _⟩ => ⟨S40000x32, .i32⟩
  | .hbm, ⟨53, _⟩ => ⟨S40000x32, .i32⟩
  | .hbm, ⟨54, _⟩ => ⟨S40000x32, .i1⟩
  | .hbm, ⟨55, _⟩ => ⟨S40000x32, .f32⟩
  | .hbm, ⟨56, _⟩ => ⟨S40000x32x1, .f32⟩
  | .hbm, ⟨57, _⟩ => ⟨S40000x32x9, .f32⟩
  | .hbm, ⟨58, _⟩ => ⟨S40000x32x9, .f32⟩
  | .hbm, ⟨59, _⟩ => ⟨S40000x32x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S40000x32x64, .f32⟩
  | .hbm, ⟨67, _⟩ => ⟨S40000x32x64, .f32⟩
  | .hbm, ⟨68, _⟩ => ⟨S40000x32x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S40000x32x64, .f32⟩
  | .hbm, ⟨76, _⟩ => ⟨S40000x32x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S40000x32x64, .f32⟩
  | .hbm, ⟨83, _⟩ => ⟨S40000x32x64, .f32⟩
  | .hbm, ⟨84, _⟩ => ⟨S1x1x64, .f32⟩
  | .hbm, ⟨85, _⟩ => ⟨S40000x32x64, .f32⟩
  | .hbm, ⟨86, _⟩ => ⟨S40000x32x64, .f32⟩
  | .hbm, ⟨87, _⟩ => ⟨S1x1x64, .f32⟩
  | .hbm, ⟨88, _⟩ => ⟨S40000x32x64, .f32⟩
  | .hbm, ⟨89, _⟩ => ⟨S40000x32x64, .f32⟩
  | .hbm, ⟨90, _⟩ => ⟨S_, .f32⟩
  | .hbm, ⟨91, _⟩ => ⟨S40000x32x64, .f32⟩
  | .hbm, ⟨92, _⟩ => ⟨S40000x32x64, .f32⟩
  | .hbm, ⟨93, _⟩ => ⟨S_, .f32⟩
  | .hbm, ⟨94, _⟩ => ⟨S40000x64, .f32⟩
  | _, _ => ⟨S40000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  bcast_S40000_S40000x1x1_0 : S40000.BroadcastsInDim S40000x1x1 (![0] : Fin 1 → Fin S40000x1x1.rank)
  slices_S40000x32x4_S40000x32x3_0_0_0 : S40000x32x4.Slices ![0, 0, 0] S40000x32x3
  reducesTo_S40000x32x3_S40000x3_d1 : S40000x32x3.ReducesTo [1] S40000x3
  h_S_ : 0 < S_.numel
  bcast_S40000x3_S40000x1x3_0_2 : S40000x3.BroadcastsInDim S40000x1x3 (![0, 2] : Fin 2 → Fin S40000x1x3.rank)
  bcast_S40000x1x1_S40000x1x3_0_1_2 : S40000x1x1.BroadcastsInDim S40000x1x3 (![0, 1, 2] : Fin 3 → Fin S40000x1x3.rank)
  bcast_S40000x1x3_S40000x32x3_0_1_2 : S40000x1x3.BroadcastsInDim S40000x32x3 (![0, 1, 2] : Fin 3 → Fin S40000x32x3.rank)
  slices_S40000x32x4_S40000x32x1_0_0_0 : S40000x32x4.Slices ![0, 0, 0] S40000x32x1
  shapeCasts_S40000x32x1_S40000x32 : S40000x32x1.ShapeCasts S40000x32
  slices_S40000x4_S40000x1_0_3 : S40000x4.Slices ![0, 3] S40000x1
  shapeCasts_S40000x1_S40000 : S40000x1.ShapeCasts S40000
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x32_0_1 : S40000x1.BroadcastsInDim S40000x32 (![0, 1] : Fin 2 → Fin S40000x32.rank)
  slices_S40000x32x4_S40000x32x1_0_0_1 : S40000x32x4.Slices ![0, 0, 1] S40000x32x1
  slices_S40000x4_S40000x1_0_2 : S40000x4.Slices ![0, 2] S40000x1
  bcast_S40000x32_S40000x32x1_0_1 : S40000x32.BroadcastsInDim S40000x32x1 (![0, 1] : Fin 2 → Fin S40000x32x1.rank)
  concatenates_S40000x32x1_S40000x32x1_S40000x32x2_d2 : Shape.Concatenates [S40000x32x1, S40000x32x1] S40000x32x2 2
  concatenates_S40000x32x4_S40000x32x3_S40000x32x2_S40000x32x9_d2 : Shape.Concatenates [S40000x32x4, S40000x32x3, S40000x32x2] S40000x32x9 2
  bcast_S32_S1x32_1 : S32.BroadcastsInDim S1x32 (![1] : Fin 1 → Fin S1x32.rank)
  bcast_S1x32_S40000x32_0_1 : S1x32.BroadcastsInDim S40000x32 (![0, 1] : Fin 2 → Fin S40000x32.rank)
  bcast_S40000x32x1_S40000x32x9_0_1_2 : S40000x32x1.BroadcastsInDim S40000x32x9 (![0, 1, 2] : Fin 3 → Fin S40000x32x9.rank)
  reducesTo_S40000x32x64_S64_d0_1 : S40000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S40000x32x64_0_1_2 : S1x1x64.BroadcastsInDim S40000x32x64 (![0, 1, 2] : Fin 3 → Fin S40000x32x64.rank)
  bcast_S_S40000x32x64 : S_.BroadcastsInDim S40000x32x64 (![] : Fin 0 → Fin S40000x32x64.rank)
  reducesTo_S40000x32x64_S40000x64_d1 : S40000x32x64.ReducesTo [1] S40000x64
  dot_S40000x32x9_S9x64_S40000x32x64_2_0_01_1_n_n_wf : DotDims.WF S40000x32x9 S9x64 S40000x32x64 [2] [0] [0, 1] [1] [] []

variable [Facts₀]

def dot_S40000x32x9_S9x64_S40000x32x64_2_0_01_1_n_n : DotDims S40000x32x9 S9x64 S40000x32x64 where
  lhsContracting := [2]
  rhsContracting := [0]
  lhsNonContracting := [0, 1]
  rhsNonContracting := [1]
  lhsBatch := []
  rhsBatch := []
  wf := dot_S40000x32x9_S9x64_S40000x32x64_2_0_01_1_n_n_wf

class Facts : Prop extends Facts₀ where

variable [Facts]
-- ==== Proof.Spec.lean ====
/-
  The pillar feature network as ONE function of the argument arrays, over the extended reals.

  A pillar is 32 points of 4 raw channels, a count word and two grid-coordinate words. Each point is
  decorated to 9 channels (the 4 raw ones, the offset of x, y, z from the pillar's mean point, the offset
  of x and y from the pillar's grid centre), points at or beyond the count are masked to zero, the 9
  channels go through a linear map to 64 units, every unit is normalised by its mean and variance over
  ALL pillars and points (batch normalisation with batch statistics), passed through the positive part,
  and the largest value over the pillar's 32 points is kept.

  The variance is written twice, as the mean of squares minus the squared mean (`varK`) and as the mean of
  squared deviations (`varR`); on finite entries they agree, which another module proves.
-/
import Idealize.ShloMosaic.PureOps.Ideal
import Idealize.ShloMosaic.Lib.ValueIdx

noncomputable section

open scoped BigOperators

namespace Cert.Pfn

open Idealize.ShloMosaic Idealize.ShloMosaic.ValueIdx

/-- The float words of the program, both programs carry the same ones: 0.2, 0.1, -39.9, 0.001, 1280000. -/
def cStep : EReal := Ideal.ofBits .f32 0x3E4CCCCD#32
def cOffX : EReal := Ideal.ofBits .f32 0x3DCCCCCD#32
def cOffY : EReal := Ideal.ofBits .f32 0xC21F999A#32
def cEps : EReal := Ideal.ofBits .f32 0x3A83126F#32
def cCount : EReal := Ideal.ofBits .f32 0x499C4000#32

/-- A signed 32-bit word as an extended real. -/
def ofInt (b : BitVec 32) : EReal := ((b.toInt : ℝ) : EReal)

/-- The mask of point `n` of a pillar with count word `nv`: 1 when `n < nv` as signed words, else 0. -/
def maskv (nv : BitVec 32) (n : Fin 32) : EReal :=
  (((IntOp.cmpi .slt (BitVec.ofNat 32 n.val) nv).toNat : ℝ) : EReal)

/-- The 9 decorated channels of point `n` of a pillar, before masking. -/
def raw (f : Fin 32 → Fin 4 → EReal) (nv cx cy : BitVec 32) (n : Fin 32) (c : Fin 9) : EReal :=
  if h : c.val < 4 then f n ⟨c.val, h⟩
  else if h' : c.val < 7 then
    f n ⟨c.val - 4, by omega⟩ - Ideal.div (∑ k : Fin 32, f k ⟨c.val - 4, by omega⟩) (ofInt nv)
  else if c.val = 7 then f n 0 - (ofInt cx * cStep + cOffX)
  else f n 1 - (ofInt cy * cStep + cOffY)

/-- The masked channels. -/
def feat (f : Fin 32 → Fin 4 → EReal) (nv cx cy : BitVec 32) (n : Fin 32) (c : Fin 9) : EReal :=
  raw f nv cx cy n c * maskv nv n

/-- The linear layer on one pillar: unit `u` of point `n`. -/
def pillarX (f : Fin 32 → Fin 4 → EReal) (nv cx cy : BitVec 32) (W : Fin 9 → Fin 64 → EReal)
    (n : Fin 32) (u : Fin 64) : EReal :=
  ∑ c : Fin 9, feat f nv cx cy n c * W c u

abbrev SFeat : Shape := ⟨3, ![40000, 32, 4]⟩
abbrev SCnt : Shape := ⟨1, ![40000]⟩
abbrev SCoor : Shape := ⟨2, ![40000, 4]⟩
abbrev SW : Shape := ⟨2, ![9, 64]⟩
abbrev SU : Shape := ⟨1, ![64]⟩
abbrev SOut : Shape := ⟨2, ![40000, 64]⟩

/-- The linear layer's output at pillar `p`, point `n`, unit `u`, from the argument arrays. -/
def X (A : SFeat.Idx → EReal) (nv : SCnt.Idx → BitVec 32) (co : SCoor.Idx → BitVec 32) (W : SW.Idx → EReal)
    (p : Fin 40000) (n : Fin 32) (u : Fin 64) : EReal :=
  pillarX (fun k c => A (ix3 p k c)) (nv (ix1 p)) (co (ix2 p 3)) (co (ix2 p 2)) (fun c v => W (ix2 c v)) n u

section Stats

-- Everything after the linear layer, over ANY family of linear-layer outputs `Xf`.
variable (Xf : Fin 40000 → Fin 32 → Fin 64 → EReal) (γ β : SU.Idx → EReal)

/-- Sum and sum of squares of a unit over all pillars and points. -/
def sum1 (u : Fin 64) : EReal := ∑ p : Fin 40000, ∑ n : Fin 32, Xf p n u
def sum2 (u : Fin 64) : EReal := ∑ p : Fin 40000, ∑ n : Fin 32, Xf p n u * Xf p n u

def mean (u : Fin 64) : EReal := Ideal.div (sum1 Xf u) cCount

/-- Mean of squares minus squared mean. -/
def varK (u : Fin 64) : EReal := Ideal.div (sum2 Xf u) cCount - mean Xf u * mean Xf u

/-- Mean of squared deviations. -/
def varR (u : Fin 64) : EReal :=
  Ideal.div (∑ p : Fin 40000, ∑ n : Fin 32, (Xf p n u - mean Xf u) * (Xf p n u - mean Xf u)) cCount

/-- Normalise with mean `μ` and variance `v`, scale, shift, positive part. -/
def act (μ v g b x : EReal) : EReal := max ((x - μ) * Ideal.rsqrt (v + cEps) * g + b) 0

/-- The result with a given variance: the largest activation over the pillar's points. -/
def outWith (var : Fin 64 → EReal) (p : Fin 40000) (u : Fin 64) : EReal :=
  Finset.univ.sup fun n : Fin 32 => act (mean Xf u) (var u) (γ (ix1 u)) (β (ix1 u)) (Xf p n u)

/-- The two whole-array results over `Xf`. -/
def outKX : SOut.Idx → EReal := fun i => outWith Xf γ β (varK Xf) (i 0) (i 1)
def outRX : SOut.Idx → EReal := fun i => outWith Xf γ β (varR Xf) (i 0) (i 1)

end Stats

/-- The two whole-array results as functions of the argument arrays. -/
def outK (A : SFeat.Idx → EReal) (nv : SCnt.Idx → BitVec 32) (co : SCoor.Idx → BitVec 32) (W : SW.Idx → EReal)
    (γ β : SU.Idx → EReal) : SOut.Idx → EReal := outKX (X A nv co W) γ β
def outR (A : SFeat.Idx → EReal) (nv : SCnt.Idx → BitVec 32) (co : SCoor.Idx → BitVec 32) (W : SW.Idx → EReal)
    (γ β : SU.Idx → EReal) : SOut.Idx → EReal := outRX (X A nv co W) γ β

end Cert.Pfn

end
-- ==== Proof.KernelRun.lean ====
/-
  The idealized kernel's run, with its result named.

  The program is two grid regions among three stretches of host operations. Every weakly fair execution
  terminates without a fault; the argument arrays end as launched, and the result array ends at what the
  last boundary of the run holds there: the second region's output window after all its write-backs.
-/
import proofs.«164892_j446676599108_2_alg».proof.Proof.Gen.KernelIdeal.Frame

set_option maxRecDepth 16384

noncomputable section

namespace Cert.Pfn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array holds the last boundary's
    contents and every argument array is as launched. -/
theorem run_value : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Pfn.KRun

end
-- ==== Proof.Boundary.lean ====
/-
  What each window's array holds when its region is entered.

  Before the first region the host only reshapes three arguments (the counts to a column, the scale and
  the shift to rows); between the regions it divides the two accumulated sums by the number of rows and
  forms mean and (mean of squares - mean squared). The first region's input arrays are therefore the
  arguments themselves or a reshape of one; the second region's are those again, and the mean and the
  variance computed from what the first region's two output windows hold after all their write-backs.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Pfn.Boundary

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

/-- The counts as a column. -/
theorem V1_v0 (c : Dev nD) : (V1 m ρ c main_v0 : S40000x1.Idx → BitVec 32)
    = shapeCast S40000x1 (m ((c : Thread nD τ).loc main_arg1)) shapeCasts_S40000_S40000x1 := by
  show StableHlo.after hostOps0 (W0 m ρ c) (Proc.devRef .tc main_v0) = _
  after_results
  rfl

theorem V1_v1 (c : Dev nD) : (V1 m ρ c main_v1 : S1x64.Idx → Elt F .f32)
    = shapeCast S1x64 (m ((c : Thread nD τ).loc main_arg4)) shapeCasts_S64_S1x64 := by
  show StableHlo.after hostOps0 (W0 m ρ c) (Proc.devRef .tc main_v1) = _
  after_results
  rfl

theorem V1_v2 (c : Dev nD) : (V1 m ρ c main_v2 : S1x64.Idx → Elt F .f32)
    = shapeCast S1x64 (m ((c : Thread nD τ).loc main_arg5)) shapeCasts_S64_S1x64 := by
  show StableHlo.after hostOps0 (W0 m ρ c) (Proc.devRef .tc main_v2) = _
  after_results
  rfl

/-! ## At the second region's entry -/

/-- An input array of the first region leaves it as it entered. -/
theorem W2_in (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem V3_arg0 (c : Dev nD) : V3 m ρ c main_arg0 = m ((c : Thread nD τ).loc main_arg0) := by
  show StableHlo.after hostOps1 (W2 m ρ c) (Proc.devRef .tc main_arg0) = _
  after_results
  exact (W2_in m ρ c 0 rfl).trans (V1_arg0 m ρ c)

theorem V3_arg2 (c : Dev nD) : V3 m ρ c main_arg2 = m ((c : Thread nD τ).loc main_arg2) := by
  show StableHlo.after hostOps1 (W2 m ρ c) (Proc.devRef .tc main_arg2) = _
  after_results
  exact (W2_in m ρ c 2 rfl).trans (V1_arg2 m ρ c)

theorem V3_arg3 (c : Dev nD) : V3 m ρ c main_arg3 = m ((c : Thread nD τ).loc main_arg3) := by
  show StableHlo.after hostOps1 (W2 m ρ c) (Proc.devRef .tc main_arg3) = _
  after_results
  exact (W2_in m ρ c 3 rfl).trans (V1_arg3 m ρ c)

theorem V3_v0 (c : Dev nD) : (V3 m ρ c main_v0 : S40000x1.Idx → BitVec 32)
    = shapeCast S40000x1 (m ((c : Thread nD τ).loc main_arg1)) shapeCasts_S40000_S40000x1 := by
  show StableHlo.after hostOps1 (W2 m ρ c) (Proc.devRef .tc main_v0) = _
  after_results
  exact (W2_in m ρ c 1 rfl).trans (V1_v0 m ρ c)

theorem V3_v1 (c : Dev nD) : (V3 m ρ c main_v1 : S1x64.Idx → Elt F .f32)
    = shapeCast S1x64 (m ((c : Thread nD τ).loc main_arg4)) shapeCasts_S64_S1x64 := by
  show StableHlo.after hostOps1 (W2 m ρ c) (Proc.devRef .tc main_v1) = _
  after_results
  exact (W2_of_ne m ρ c main_v1 (by decide)).trans (V1_v1 m ρ c)

theorem V3_v2 (c : Dev nD) : (V3 m ρ c main_v2 : S1x64.Idx → Elt F .f32)
    = shapeCast S1x64 (m ((c : Thread nD τ).loc main_arg5)) shapeCasts_S64_S1x64 := by
  show StableHlo.after hostOps1 (W2 m ρ c) (Proc.devRef .tc main_v2) = _
  after_results
  exact (W2_of_ne m ρ c main_v2 (by decide)).trans (V1_v2 m ρ c)

/-- The number of rows, as the host broadcasts it. -/
abbrev countRow : S1x64.Idx → Elt F .f32 :=
  broadcastInDim S1x64 ![] bcast_S_S1x64 (constant (F := F) S_ .f32 0x499C4000#32)

/-- The mean: the first output window's final contents over the number of rows. -/
theorem V3_v5 (c : Dev nD) : (V3 m ρ c main_v5 : S1x64.Idx → Elt F .f32)
    = Host.divf ((dat0 (V1 m ρ) c).arrAt 4 cfg0.N) (countRow (F := F)) := by
  show StableHlo.after hostOps1 (W2 m ρ c) (Proc.devRef .tc main_v5) = _
  after_results
  rw [show W2 m ρ c (Proc.devRef .tc main_v3_0) = (dat0 (V1 m ρ) c).arrAt 4 cfg0.N from W2_arr m ρ c 4]

/-- The variance: the second output window's final contents over the number of rows, minus the squared mean. -/
theorem V3_v9 (c : Dev nD) : (V3 m ρ c main_v9 : S1x64.Idx → Elt F .f32)
    = subf (Host.divf ((dat0 (V1 m ρ) c).arrAt 5 cfg0.N) (countRow (F := F)))
        (mulf (Host.divf ((dat0 (V1 m ρ) c).arrAt 4 cfg0.N) (countRow (F := F)))
              (Host.divf ((dat0 (V1 m ρ) c).arrAt 4 cfg0.N) (countRow (F := F)))) := by
  show StableHlo.after hostOps1 (W2 m ρ c) (Proc.devRef .tc main_v9) = _
  after_results
  rw [show W2 m ρ c (Proc.devRef .tc main_v3_0) = (dat0 (V1 m ρ) c).arrAt 4 cfg0.N from W2_arr m ρ c 4,
    show W2 m ρ c (Proc.devRef .tc main_v3_1) = (dat0 (V1 m ρ) c).arrAt 5 cfg0.N from W2_arr m ρ c 5]

end Cert.Pfn.Boundary

end
-- ==== Proof.StatsPieces.lean ====
/-
  The first region's body, case by case, as values.

  On a tile (800 pillars) the body computes the linear layer's 25600 x 64 output, sums it and its square
  down the rows, and adds the two row sums into the two accumulator blocks; at the first grid point it
  first clears the accumulators. So after the body the sum block holds (previous or zero) + tile sum, and
  the square-sum block (previous or zero) + tile sum of squares.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Pfn.Stats

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The linear layer's output on a tile, from the tile's three input blocks and the weights. -/
abbrev lin0 (x0 : Vec F S800x32x4 .f32) (x1 : Vec F S800x1 .i32) (x2 : Vec F S800x4 .i32) (x3 : Vec F S9x64 .f32) : FVec F S25600x64 .f32 :=
  k0_pay10 x0 (k0_pay2 x1) (k0_pay7 x0 (k0_pay3 x1) (k0_pay4 x0) (k0_pay5 x0) (k0_pay6 x0)) (k0_pay8 x2) (k0_pay9 x2) x3

/-- The sum block after the body: the block before, plus the tile's column sums. -/
abbrev accSum (x0 : Vec F S800x32x4 .f32) (x1 : Vec F S800x1 .i32) (x2 : Vec F S800x4 .i32) (x3 : Vec F S9x64 .f32) (acc : Vec F S1x64 .f32) : FVec F S1x64 .f32 :=
  k0_pay14 x0 (k0_pay2 x1) (k0_pay7 x0 (k0_pay3 x1) (k0_pay4 x0) (k0_pay5 x0) (k0_pay6 x0)) (k0_pay8 x2) (k0_pay9 x2) x3 acc

/-- The square-sum block after the body: the block before, plus the tile's column sums of squares. -/
abbrev accSq (x0 : Vec F S800x32x4 .f32) (x1 : Vec F S800x1 .i32) (x2 : Vec F S800x4 .i32) (x3 : Vec F S9x64 .f32) (acc : Vec F S1x64 .f32) : FVec F S1x64 .f32 :=
  k0_pay1 (k0_pay11 x0 (k0_pay2 x1) (k0_pay7 x0 (k0_pay3 x1) (k0_pay4 x0) (k0_pay5 x0) (k0_pay6 x0)) (k0_pay8 x2) (k0_pay9 x2) x3) acc

/-- Later points: the sum block is its contents before plus the tile's sums. -/
theorem out_B_4 (c : Dev nD) (i : grid0.Coords) (a1 : Memref sig .tc .vmem S800x32x4 .f32) (h1 : a1.IsWhole) (a2 : Memref sig .tc .vmem S800x1 .i32) (h2 : a2.IsWhole) (a3 : Memref sig .tc .vmem S800x4 .i32) (h3 : a3.IsWhole) (a4 : Memref sig .tc .vmem S9x64 .f32) (h4 : a4.IsWhole) (a5 : Memref sig .tc .vmem S1x64 .f32) (h5 : a5.IsWhole) (a6 : Memref sig .tc .vmem S1x64 .f32) (h6 : a6.IsWhole) (hc : ¬cond0_0 i) (x0 : Vec F S800x32x4 .f32) (x1 : Vec F S800x1 .i32) (x2 : Vec F S800x4 .i32) (x3 : Vec F S9x64 .f32) (xo4 xo5 : Vec F S1x64 .f32) :
    out0_B_4 c i a1 h1 a2 h2 a3 h3 a4 h4 a5 h5 a6 h6 hc x0 x1 x2 x3 xo4 xo5 = accSum x0 x1 x2 x3 xo4 := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S800x32x4) hz3, View.ld_unit_zero (S := S800x1) hz2, View.ld_unit_zero (S := S800x4) hz2,
    View.ld_unit_zero (S := S9x64) hz2, View.ld_unit_zero (S := S1x64) hz2]

/-- Later points: the square-sum block is its contents before plus the tile's sums of squares. -/
theorem out_B_5 (c : Dev nD) (i : grid0.Coords) (a1 : Memref sig .tc .vmem S800x32x4 .f32) (h1 : a1.IsWhole) (a2 : Memref sig .tc .vmem S800x1 .i32) (h2 : a2.IsWhole) (a3 : Memref sig .tc .vmem S800x4 .i32) (h3 : a3.IsWhole) (a4 : Memref sig .tc .vmem S9x64 .f32) (h4 : a4.IsWhole) (a5 : Memref sig .tc .vmem S1x64 .f32) (h5 : a5.IsWhole) (a6 : Memref sig .tc .vmem S1x64 .f32) (h6 : a6.IsWhole) (hc : ¬cond0_0 i) (x0 : Vec F S800x32x4 .f32) (x1 : Vec F S800x1 .i32) (x2 : Vec F S800x4 .i32) (x3 : Vec F S9x64 .f32) (xo4 xo5 : Vec F S1x64 .f32) :
    out0_B_5 c i a1 h1 a2 h2 a3 h3 a4 h4 a5 h5 a6 h6 hc x0 x1 x2 x3 xo4 xo5 = accSq x0 x1 x2 x3 xo5 := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  sl_unfold_words
  rw [View.canon_unit_zero hz2]
  simp only [View.readAt_eq_ld, h1.read_unread, h2.read_unread, h3.read_unread, h4.read_unread, h6.read_unread,
    View.ld_unit_zero (S := S800x32x4) hz3, View.ld_unit_zero (S := S800x1) hz2, View.ld_unit_zero (S := S800x4) hz2,
    View.ld_unit_zero (S := S9x64) hz2, View.ld_unit_zero (S := S1x64) hz2]

/-- First point: the sum block is cleared, then the tile's sums are added. -/
theorem out_A_4 (c : Dev nD) (i : grid0.Coords) (a1 : Memref sig .tc .vmem S800x32x4 .f32) (h1 : a1.IsWhole) (a2 : Memref sig .tc .vmem S800x1 .i32) (h2 : a2.IsWhole) (a3 : Memref sig .tc .vmem S800x4 .i32) (h3 : a3.IsWhole) (a4 : Memref sig .tc .vmem S9x64 .f32) (h4 : a4.IsWhole) (a5 : Memref sig .tc .vmem S1x64 .f32) (h5 : a5.IsWhole) (a6 : Memref sig .tc .vmem S1x64 .f32) (h6 : a6.IsWhole) (hc : cond0_0 i) (x0 : Vec F S800x32x4 .f32) (x1 : Vec F S800x1 .i32) (x2 : Vec F S800x4 .i32) (x3 : Vec F S9x64 .f32) :
    out0_A_4 c i a1 h1 a2 h2 a3 h3 a4 h4 a5 h5 a6 h6 hc x0 x1 x2 x3 = accSum x0 x1 x2 x3 k0_pay12 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S800x32x4) hz3, View.ld_unit_zero (S := S800x1) hz2, View.ld_unit_zero (S := S800x4) hz2,
    View.ld_unit_zero (S := S9x64) hz2, View.ld_unit_zero (S := S1x64) hz2]

/-- First point: the square-sum block is cleared, then the tile's sums of squares are added. -/
theorem out_A_5 (c : Dev nD) (i : grid0.Coords) (a1 : Memref sig .tc .vmem S800x32x4 .f32) (h1 : a1.IsWhole) (a2 : Memref sig .tc .vmem S800x1 .i32) (h2 : a2.IsWhole) (a3 : Memref sig .tc .vmem S800x4 .i32) (h3 : a3.IsWhole) (a4 : Memref sig .tc .vmem S9x64 .f32) (h4 : a4.IsWhole) (a5 : Memref sig .tc .vmem S1x64 .f32) (h5 : a5.IsWhole) (a6 : Memref sig .tc .vmem S1x64 .f32) (h6 : a6.IsWhole) (hc : cond0_0 i) (x0 : Vec F S800x32x4 .f32) (x1 : Vec F S800x1 .i32) (x2 : Vec F S800x4 .i32) (x3 : Vec F S9x64 .f32) :
    out0_A_5 c i a1 h1 a2 h2 a3 h3 a4 h4 a5 h5 a6 h6 hc x0 x1 x2 x3 = accSq x0 x1 x2 x3 k0_pay13 := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S800x32x4) hz3, View.ld_unit_zero (S := S800x1) hz2, View.ld_unit_zero (S := S800x4) hz2,
    View.ld_unit_zero (S := S9x64) hz2, View.ld_unit_zero (S := S1x64) hz2]

end Cert.Pfn.Stats

end
-- ==== Proof.StatsArray.lean ====
/-
  The first region's two result rows.

  The sum block's index never moves, so it is written back once, after the last of the 50 grid points, and
  what it then holds is the running sum: cleared at point 0, each point adding its tile's column sums. The
  same for the block of squares. Both result arrays are a single block, so after the region each array IS
  its block's last contents.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic
import proofs.«164892_j446676599108_2_alg».proof.Proof.StatsPieces
set_option maxRecDepth 16384

noncomputable section

namespace Cert.Pfn.Stats

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

section Regions
variable (V : (c : Dev nD) → (b : Ref sig .tc) → Buf (Elt F) ((c : Thread nD τ).loc b))

/-- The running pair (sums, sums of squares) after point `n`. -/
def running (c : Dev nD) : (n : ℕ) → n < cfg0.N → Vec F S1x64 .f32 × Vec F S1x64 .f32
  | 0, h => (accSum (iblk0 V c 0 ⟨0, h⟩) (iblk0 V c 1 ⟨0, h⟩) (iblk0 V c 2 ⟨0, h⟩) (iblk0 V c 3 ⟨0, h⟩) k0_pay12,
             accSq (iblk0 V c 0 ⟨0, h⟩) (iblk0 V c 1 ⟨0, h⟩) (iblk0 V c 2 ⟨0, h⟩) (iblk0 V c 3 ⟨0, h⟩) k0_pay13)
  | n + 1, h => (accSum (iblk0 V c 0 ⟨n + 1, h⟩) (iblk0 V c 1 ⟨n + 1, h⟩) (iblk0 V c 2 ⟨n + 1, h⟩) (iblk0 V c 3 ⟨n + 1, h⟩)
                   (running c n (Nat.lt_of_succ_lt h)).1,
                 accSq (iblk0 V c 0 ⟨n + 1, h⟩) (iblk0 V c 1 ⟨n + 1, h⟩) (iblk0 V c 2 ⟨n + 1, h⟩) (iblk0 V c 3 ⟨n + 1, h⟩)
                   (running c n (Nat.lt_of_succ_lt h)).2)

/-- What the two staging blocks hold after point `n` is the running pair: by induction on the point. -/
theorem outsAt_eq (c : Dev nD) : ∀ (n : ℕ) (h : n < cfg0.N), outsAt0 V c n h = running V c n h
  | 0, h => (outsAt0_A V c ⟨0, h⟩ rfl).trans (by rw [out_A_4, out_A_5]; rfl)
  | n + 1, h => by
    have hN : cfg0.N = 50 := N_0
    have hB : ¬(⟨n + 1, h⟩ : Fin cfg0.N).val % 50 = 0 := by dsimp only; omega
    rw [outsAt0_B V c ⟨n + 1, h⟩ hB, out_B_4, out_B_5]
    show (accSum _ _ _ _ (outsAt0 V c n _).1, accSq _ _ _ _ (outsAt0 V c n _).2) = _
    rw [outsAt_eq c n]
    rfl

/-- The last grid point. -/
abbrev tLast : Fin cfg0.N := ⟨49, by rw [show cfg0.N = 50 from N_0]; decide⟩

/-- The two results: the running pair after the last point. -/
abbrev total (c : Dev nD) : Vec F S1x64 .f32 × Vec F S1x64 .f32 := running V c 49 tLast.isLt

theorem flushed4_eq (c : Dev nD) (t : Fin cfg0.N) (hf : (cfg0.win 4).flush t = true) :
    (dat0 V c).flushed 4 t = ((cfg0.win 4).blk t).view.read (Elt F) (total V c).1 := by
  have hN : cfg0.N = 50 := N_0
  have h49 : t.val = 49 := by have := (flush0_4 t).mp hf; have := t.isLt; omega
  obtain rfl : t = tLast := Fin.ext h49
  show (cfg0.win 4).cut (grid0.coords tLast) ((dat0 V c).after 4 tLast) = _
  rw [after0_4, outsAt_eq]
  have hz' : (fun a => win0_4.index tLast a * main_v3_0.ty.shape.size a) = fun _ => 0 := funext fun a => by fin_cases a <;> decide
  exact (Memref.read_access_unit_zero (Elt F) main_v3_0 hz' (fun a => by rw [congrFun hz' a]; simp) (total V c).1).symm

theorem flushed5_eq (c : Dev nD) (t : Fin cfg0.N) (hf : (cfg0.win 5).flush t = true) :
    (dat0 V c).flushed 5 t = ((cfg0.win 5).blk t).view.read (Elt F) (total V c).2 := by
  have hN : cfg0.N = 50 := N_0
  have h49 : t.val = 49 := by have := (flush0_5 t).mp hf; have := t.isLt; omega
  obtain rfl : t = tLast := Fin.ext h49
  show (cfg0.win 5).cut (grid0.coords tLast) ((dat0 V c).after 5 tLast) = _
  rw [after0_5, outsAt_eq]
  have hz' : (fun a => win0_5.index tLast a * main_v3_1.ty.shape.size a) = fun _ => 0 := funext fun a => by fin_cases a <;> decide
  exact (Memref.read_access_unit_zero (Elt F) main_v3_1 hz' (fun a => by rw [congrFun hz' a]; simp) (total V c).2).symm

/-- The sum array after the region: the running sums after the last point. -/
theorem final4 (c : Dev nD) : (dat0 V c).arrAt 4 cfg0.N = (total V c).1 :=
  (dat0 V c).arrAt_eq_of_cover 4 (total V c).1 (flushed4_eq V c) fun i =>
    ⟨tLast, (flush0_4 tLast).mpr rfl, by
      show i ∈ ((View.whole main_v3_0).slice (win0_4.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 64 from by decide +kernel]; omega⟩

/-- The square-sum array after the region. -/
theorem final5 (c : Dev nD) : (dat0 V c).arrAt 5 cfg0.N = (total V c).2 :=
  (dat0 V c).arrAt_eq_of_cover 5 (total V c).2 (flushed5_eq V c) fun i =>
    ⟨tLast, (flush0_5 tLast).mpr rfl, by
      show i ∈ ((View.whole main_v3_1).slice (win0_5.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 64 from by decide +kernel]; omega⟩

end Regions

end Cert.Pfn.Stats

end
-- ==== Proof.BlockReads.lean ====
/-
  A tile's blocks, read at an index.

  Grid point t of either region works on pillars 800 t .. 800 t + 799: the feature, count and coordinate
  windows move along the pillar axis with the point, the weights and the four row parameters stay put. So
  entry (q, ..) of a moving window's block is entry (800 t + q, ..) of its array, and a block of a fixed
  window is its whole array.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Pfn.Blocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

section Regions
variable (V : (c : Dev nD) → (b : Ref sig .tc) → Buf (Elt F) ((c : Thread nD τ).loc b))

/-- Pillar `q` of tile `t`. -/
def row0 (t : Fin cfg0.N) (q : Fin 800) : Fin 40000 :=
  ⟨800 * t.val + q.val, by have h : t.val < 50 := lt_of_lt_of_eq t.isLt N_0; have := q.isLt; omega⟩
def row1 (t : Fin cfg1.N) (q : Fin 800) : Fin 40000 :=
  ⟨800 * t.val + q.val, by have h : t.val < 50 := lt_of_lt_of_eq t.isLt N_1; have := q.isLt; omega⟩

/-- The printed index maps of the first region, decided over its grid. -/
theorem idx0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The printed index maps of the second region, decided over its grid. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## First region -/

theorem iblk0_feat (c : Dev nD) (t : Fin cfg0.N) (q : Fin 800) (k : Fin 32) (ch : Fin 4) :
    iblk0 V c 0 t (ix3 q k ch) = V c main_arg0 (ix3 (row0 t q) k ch) := by
  obtain ⟨e0, e1, e2, -⟩ := idx0 t
  unfold iblk0
  rw [View.read_apply]
  show V c main_arg0 _ = V c main_arg0 _
  refine congrArg _ ?_
  funext a; apply Fin.ext
  match a with
  | ⟨0, _⟩ => show win0_0.index t (0 : Fin 3) * 800 + 1 * q.val = 800 * t.val + q.val; omega
  | ⟨1, _⟩ => show win0_0.index t (1 : Fin 3) * 32 + 1 * k.val = k.val; omega
  | ⟨2, _⟩ => show win0_0.index t (2 : Fin 3) * 4 + 1 * ch.val = ch.val; omega

theorem iblk0_cnt (c : Dev nD) (t : Fin cfg0.N) (q : Fin 800) :
    iblk0 V c 1 t (ix2 q 0) = V c main_v0 (ix2 (row0 t q) 0) := by
  obtain ⟨-, -, -, e0, e1, -⟩ := idx0 t
  unfold iblk0
  rw [View.read_apply]
  show V c main_v0 _ = V c main_v0 _
  refine congrArg _ ?_
  funext a; apply Fin.ext
  match a with
  | ⟨0, _⟩ => show win0_1.index t (0 : Fin 2) * 800 + 1 * q.val = 800 * t.val + q.val; omega
  | ⟨1, _⟩ => show win0_1.index t (1 : Fin 2) * 1 + 1 * 0 = 0; omega

theorem iblk0_coor (c : Dev nD) (t : Fin cfg0.N) (q : Fin 800) (j : Fin 4) :
    iblk0 V c 2 t (ix2 q j) = V c main_arg2 (ix2 (row0 t q) j) := by
  obtain ⟨-, -, -, -, -, e0, e1, -⟩ := idx0 t
  unfold iblk0
  rw [View.read_apply]
  show V c main_arg2 _ = V c main_arg2 _
  refine congrArg _ ?_
  funext a; apply Fin.ext
  match a with
  | ⟨0, _⟩ => show win0_2.index t (0 : Fin 2) * 800 + 1 * q.val = 800 * t.val + q.val; omega
  | ⟨1, _⟩ => show win0_2.index t (1 : Fin 2) * 4 + 1 * j.val = j.val; omega

theorem iblk0_w (c : Dev nD) (t : Fin cfg0.N) (k : Fin 9) (u : Fin 64) :
    iblk0 V c 3 t (ix2 k u) = V c main_arg3 (ix2 k u) := by
  obtain ⟨-, -, -, -, -, -, -, e0, e1⟩ := idx0 t
  unfold iblk0
  rw [View.read_apply]
  show V c main_arg3 _ = V c main_arg3 _
  refine congrArg _ ?_
  funext a; apply Fin.ext
  match a with
  | ⟨0, _⟩ => show win0_3.index t (0 : Fin 2) * 9 + 1 * k.val = k.val; omega
  | ⟨1, _⟩ => show win0_3.index t (1 : Fin 2) * 64 + 1 * u.val = u.val; omega

/-! ## Second region -/

theorem iblk1_feat (c : Dev nD) (t : Fin cfg1.N) (q : Fin 800) (k : Fin 32) (ch : Fin 4) :
    iblk1 V c 0 t (ix3 q k ch) = V c main_arg0 (ix3 (row1 t q) k ch) := by
  obtain ⟨e0, e1, e2, -⟩ := idx1 t
  unfold iblk1
  rw [View.read_apply]
  show V c main_arg0 _ = V c main_arg0 _
  refine congrArg _ ?_
  funext a; apply Fin.ext
  match a with
  | ⟨0, _⟩ => show win1_0.index t (0 : Fin 3) * 800 + 1 * q.val = 800 * t.val + q.val; omega
  | ⟨1, _⟩ => show win1_0.index t (1 : Fin 3) * 32 + 1 * k.val = k.val; omega
  | ⟨2, _⟩ => show win1_0.index t (2 : Fin 3) * 4 + 1 * ch.val = ch.val; omega

theorem iblk1_cnt (c : Dev nD) (t : Fin cfg1.N) (q : Fin 800) :
    iblk1 V c 1 t (ix2 q 0) = V c main_v0 (ix2 (row1 t q) 0) := by
  obtain ⟨-, -, -, e0, e1, -⟩ := idx1 t
  unfold iblk1
  rw [View.read_apply]
  show V c main_v0 _ = V c main_v0 _
  refine congrArg _ ?_
  funext a; apply Fin.ext
  match a with
  | ⟨0, _⟩ => show win1_1.index t (0 : Fin 2) * 800 + 1 * q.val = 800 * t.val + q.val; omega
  | ⟨1, _⟩ => show win1_1.index t (1 : Fin 2) * 1 + 1 * 0 = 0; omega

theorem iblk1_coor (c : Dev nD) (t : Fin cfg1.N) (q : Fin 800) (j : Fin 4) :
    iblk1 V c 2 t (ix2 q j) = V c main_arg2 (ix2 (row1 t q) j) := by
  obtain ⟨-, -, -, -, -, e0, e1, -⟩ := idx1 t
  unfold iblk1
  rw [View.read_apply]
  show V c main_arg2 _ = V c main_arg2 _
  refine congrArg _ ?_
  funext a; apply Fin.ext
  match a with
  | ⟨0, _⟩ => show win1_2.index t (0 : Fin 2) * 800 + 1 * q.val = 800 * t.val + q.val; omega
  | ⟨1, _⟩ => show win1_2.index t (1 : Fin 2) * 4 + 1 * j.val = j.val; omega

theorem iblk1_w (c : Dev nD) (t : Fin cfg1.N) (k : Fin 9) (u : Fin 64) :
    iblk1 V c 3 t (ix2 k u) = V c main_arg3 (ix2 k u) := by
  obtain ⟨-, -, -, -, -, -, -, e0, e1, -⟩ := idx1 t
  unfold iblk1
  rw [View.read_apply]
  show V c main_arg3 _ = V c main_arg3 _
  refine congrArg _ ?_
  funext a; apply Fin.ext
  match a with
  | ⟨0, _⟩ => show win1_3.index t (0 : Fin 2) * 9 + 1 * k.val = k.val; omega
  | ⟨1, _⟩ => show win1_3.index t (1 : Fin 2) * 64 + 1 * u.val = u.val; omega

theorem iblk1_mean (c : Dev nD) (t : Fin cfg1.N) (u : Fin 64) :
    iblk1 V c 4 t (ix2 0 u) = V c main_v5 (ix2 0 u) := by
  obtain ⟨-, -, -, -, -, -, -, -, -, e0, e1, -⟩ := idx1 t
  unfold iblk1
  rw [View.read_apply]
  show V c main_v5 _ = V c main_v5 _
  refine congrArg _ ?_
  funext a; apply Fin.ext
  match a with
  | ⟨0, _⟩ => show win1_4.index t (0 : Fin 2) * 1 + 1 * 0 = 0; omega
  | ⟨1, _⟩ => show win1_4.index t (1 : Fin 2) * 64 + 1 * u.val = u.val; omega

theorem iblk1_var (c : Dev nD) (t : Fin cfg1.N) (u : Fin 64) :
    iblk1 V c 5 t (ix2 0 u) = V c main_v9 (ix2 0 u) := by
  obtain ⟨-, -, -, -, -, -, -, -, -, -, -, e0, e1, -⟩ := idx1 t
  unfold iblk1
  rw [View.read_apply]
  show V c main_v9 _ = V c main_v9 _
  refine congrArg _ ?_
  funext a; apply Fin.ext
  match a with
  | ⟨0, _⟩ => show win1_5.index t (0 : Fin 2) * 1 + 1 * 0 = 0; omega
  | ⟨1, _⟩ => show win1_5.index t (1 : Fin 2) * 64 + 1 * u.val = u.val; omega

theorem iblk1_scale (c : Dev nD) (t : Fin cfg1.N) (u : Fin 64) :
    iblk1 V c 6 t (ix2 0 u) = V c main_v1 (ix2 0 u) := by
  obtain ⟨-, -, -, -, -, -, -, -, -, -, -, -, -, e0, e1, -⟩ := idx1 t
  unfold iblk1
  rw [View.read_apply]
  show V c main_v1 _ = V c main_v1 _
  refine congrArg _ ?_
  funext a; apply Fin.ext
  match a with
  | ⟨0, _⟩ => show win1_6.index t (0 : Fin 2) * 1 + 1 * 0 = 0; omega
  | ⟨1, _⟩ => show win1_6.index t (1 : Fin 2) * 64 + 1 * u.val = u.val; omega

theorem iblk1_shift (c : Dev nD) (t : Fin cfg1.N) (u : Fin 64) :
    iblk1 V c 7 t (ix2 0 u) = V c main_v2 (ix2 0 u) := by
  obtain ⟨-, -, -, -, -, -, -, -, -, -, -, -, -, -, -, e0, e1, -⟩ := idx1 t
  unfold iblk1
  rw [View.read_apply]
  show V c main_v2 _ = V c main_v2 _
  refine congrArg _ ?_
  funext a; apply Fin.ext
  match a with
  | ⟨0, _⟩ => show win1_7.index t (0 : Fin 2) * 1 + 1 * 0 = 0; omega
  | ⟨1, _⟩ => show win1_7.index t (1 : Fin 2) * 64 + 1 * u.val = u.val; omega

end Regions

end Cert.Pfn.Blocks

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.KernelSumTail.lean ====
/-
  The tails of the statistics pass on one tile.

  A tile's linear-layer outputs form a matrix of 25600 = 800 * 32 rows (pillar q, point n at row q * 32 + n) and 64
  columns. The pass adds, to the running row of sums, the column sums of that matrix, and to the running row of sums
  of squares, the column sums of the entrywise squares. Read at column u, at the extended reals: the old value plus
  the double sum over pillars and points. The two rows start from the zero word, which denotes 0.
-/
import proofs.«164892_j446676599108_2_alg».proof.Proof.Spec
import proofs.«164892_j446676599108_2_alg».proof.Proof.Gen.KernelIdeal.Skeleton
import proofs.«164892_j446676599108_2_alg».proof.Proof.LibColumnReads

noncomputable section

open scoped BigOperators

namespace Cert.Pfn.KernelFeat

open Cert.KernelIdeal Cert.KernelIdeal.Gen Idealize.ShloMosaic Idealize.ShloMosaic.ValueIdx

/-- Row q * 32 + n, for q below 800 and n below 32, runs once through the 25600 rows (division with remainder by
    32): a sum over the rows is the double sum over pillars and points. -/
theorem sum_rows {M : Type*} [AddCommMonoid M] (f : Fin 25600 → M) :
    ∑ k : Fin 25600, f k = ∑ q : Fin 800, ∑ n : Fin 32, f ⟨q.val * 32 + n.val, by omega⟩ := by
  rw [← Fintype.sum_prod_type' fun (q : Fin 800) (n : Fin 32) => f ⟨q.val * 32 + n.val, by omega⟩]
  refine (Fintype.sum_equiv (finProdFinEquiv (m := 800) (n := 32)) _ _ fun x => ?_).symm
  refine congrArg f (Fin.ext ?_)
  show x.1.val * 32 + x.2.val = x.2.val + 32 * x.1.val
  omega

/-- A sum over the rows of the tile's matrix from the zero word, at column t, is that column's sum. (The statement
    carries the accumulator's side condition in the form the payloads spell it.) -/
theorem colSum0 (v : FVec Ideal S25600x64 .f32) (hacc : (0x00000000#32 : BitVec 32) = 0x00000000#32) (t : Fin 64) :
    multiReduction (F := Ideal) .add [0] S64 v 0x00000000#32 reduces_S25600x64_S64 (.inl rfl) hacc (ix1 t)
      = ∑ k : Fin 25600, v (ix2 k t) :=
  Cert.LibColumnReads.colSum_apply v 0x00000000#32 reduces_S25600x64_S64 (.inl rfl) hacc t

section Tails

variable (v0 : Vec Ideal S800x32x4 .f32) (v2 : IVec S800x1 32) (v107 : FVec Ideal S800x32x3 .f32)
  (v109 v111 : FVec Ideal S800x1 .f32) (v142 : Vec Ideal S9x64 .f32)

/-- The running sums after the tile: the old row plus the column sums of the tile's matrix. -/
theorem sum_tail_apply (v153 : Vec Ideal S1x64 .f32) (u : Fin 64) :
    k0_pay14 (F := Ideal) v0 v2 v107 v109 v111 v142 v153 (ix2 0 u)
      = v153 (ix2 0 u) + ∑ q : Fin 800, ∑ n : Fin 32,
          k0_pay10 (F := Ideal) v0 v2 v107 v109 v111 v142 (ix2 ⟨q.val * 32 + n.val, by omega⟩ u) := by
  unfold k0_pay14
  show shapeCast S1x64 v153 shapeCasts_S1x64_S1x64 (ix2 0 u)
      + shapeCast S1x64 (multiReduction (F := Ideal) .add [0] S64 (k0_pay10 (F := Ideal) v0 v2 v107 v109 v111 v142)
          0x00000000#32 reduces_S25600x64_S64 (.inl rfl) rfl) shapeCasts_S64_S1x64 (ix2 0 u) = _
  rw [shapeCast_self, shapeCast_a_1a_apply]
  exact congrArg (v153 (ix2 0 u) + ·) ((colSum0 _ rfl u).trans
    (sum_rows fun k => k0_pay10 (F := Ideal) v0 v2 v107 v109 v111 v142 (ix2 k u)))

/-- The running sums of squares after the tile: the old row plus the column sums of the squares. -/
theorem sumsq_tail_apply (v157 : Vec Ideal S1x64 .f32) (u : Fin 64) :
    k0_pay1 (F := Ideal) (k0_pay11 v0 v2 v107 v109 v111 v142) v157 (ix2 0 u)
      = v157 (ix2 0 u) + ∑ q : Fin 800, ∑ n : Fin 32,
          k0_pay10 (F := Ideal) v0 v2 v107 v109 v111 v142 (ix2 ⟨q.val * 32 + n.val, by omega⟩ u)
            * k0_pay10 (F := Ideal) v0 v2 v107 v109 v111 v142 (ix2 ⟨q.val * 32 + n.val, by omega⟩ u) := by
  unfold k0_pay1 k0_pay11
  show shapeCast S1x64 v157 shapeCasts_S1x64_S1x64 (ix2 0 u)
      + shapeCast S1x64 (multiReduction (F := Ideal) .add [0] S64
          (mulf (k0_pay10 (F := Ideal) v0 v2 v107 v109 v111 v142) (k0_pay10 (F := Ideal) v0 v2 v107 v109 v111 v142))
          0x00000000#32 reduces_S25600x64_S64 (.inl rfl) rfl) shapeCasts_S64_S1x64 (ix2 0 u) = _
  rw [shapeCast_self, shapeCast_a_1a_apply]
  exact congrArg (v157 (ix2 0 u) + ·) ((colSum0 _ rfl u).trans
    (sum_rows fun k => k0_pay10 (F := Ideal) v0 v2 v107 v109 v111 v142 (ix2 k u)
      * k0_pay10 (F := Ideal) v0 v2 v107 v109 v111 v142 (ix2 k u)))

end Tails

/-- The rows of sums start from the zero word, which denotes 0. -/
theorem zero12_apply (j : S1x64.Idx) : k0_pay12 (F := Ideal) j = 0 := Ideal.ofBits_zero_f32

theorem zero13_apply (j : S1x64.Idx) : k0_pay13 (F := Ideal) j = 0 := Ideal.ofBits_zero_f32

end Cert.Pfn.KernelFeat

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelLinear.lean ====
/-
  The linear layer of the pillar feature network, read off the program's value at one index.

  The program builds, per pillar q and point n, nine channels: the four raw ones, the three offsets from the
  pillar's mean point (handed in as an array), and the offsets of x and y from the pillar's grid centre
  (coordinate word times the cell step plus the half-cell offset).  It multiplies every channel by the
  point's mask (1 when n is below the pillar's count word, else 0), lays the [800, 32, 9] array out as
  [25600, 9] rows and multiplies by the [9, 64] weights.  At row q * 32 + n and unit u the product is the sum
  over the nine channels of channel times mask times weight.
-/
import proofs.«164892_j446676599108_2_alg».proof.Proof.Spec
import proofs.«164892_j446676599108_2_alg».proof.Proof.Gen.KernelIdeal.Skeleton
import proofs.«164892_j446676599108_2_alg».proof.Proof.LibPlainDot
import proofs.«164892_j446676599108_2_alg».proof.Proof.LibColumnReads
import Idealize.ShloMosaic.Lib.Pipeline.Value

noncomputable section

open scoped BigOperators

namespace Cert.Pfn.KernelFeat

open Cert.KernelIdeal Cert.KernelIdeal.Gen Idealize.ShloMosaic Idealize.ShloMosaic.ValueIdx

/-! ## The nine channels before masking -/

/-- Channel c of point n of pillar q: raw channels 0 to 3, mean-point offsets 4 to 6 (from the array v107),
    grid-centre offsets 7 and 8 (from the coordinate columns v109, v111). -/
def chan (v0 : Vec Ideal S800x32x4 .f32) (v107 : FVec Ideal S800x32x3 .f32) (v109 v111 : FVec Ideal S800x1 .f32)
    (q : Fin 800) (n : Fin 32) (c : Fin 9) : EReal :=
  if h : c.val < 4 then v0 (ix3 q n ⟨c.val, h⟩)
  else if h' : c.val < 7 then v107 (ix3 q n ⟨c.val - 4, by omega⟩)
  else if c.val = 7 then v0 (ix3 q n 0) - (v109 (ix2 q 0) * Cert.Pfn.cStep + Cert.Pfn.cOffX)
  else v0 (ix3 q n 1) - (v111 (ix2 q 0) * Cert.Pfn.cStep + Cert.Pfn.cOffY)

/-! ## The mask -/

/-- A one-bit word widened to 32 bits and read signed is the bit. -/
theorem toInt_setWidth_bit (b : BitVec 1) : (b.setWidth 32).toInt = (b.toNat : ℤ) := by
  rcases BitVec.eq_zero_or_eq_one b with h | h <;> subst h <;> decide

/-- The mask array at (q, n): the comparison of the point number with the pillar's count word, as 0 or 1. -/
theorem mask_apply (v2 : IVec S800x1 32) (h1 : S800x32.Iotas .tc 32 [1]) (h2 : S800x1.Broadcasts S800x32) (h3 : 1 < 32)
    (q : Fin 800) (n : Fin 32) :
    (sitofp .f32 (extui 32 (cmpi .slt (iota .tc S800x32 32 [1] h1) (broadcastTo S800x32 v2 h2)) h3) : FVec Ideal S800x32 .f32)
        (ix2 q n) = Cert.Pfn.maskv (v2 (ix2 q 0)) n := by
  have e1 : iota .tc S800x32 32 [1] h1 (ix2 q n) = BitVec.ofNat 32 n.val := iota_single_apply .tc S800x32 32 1 h1 (ix2 q n)
  have e2 : broadcastTo S800x32 v2 h2 (ix2 q n) = v2 (ix2 q 0) := Cert.LibColumnReads.broadcastTo_a1_ab_apply v2 h2 q n
  show ((((IntOp.cmpi .slt (iota .tc S800x32 32 [1] h1 (ix2 q n)) (broadcastTo S800x32 v2 h2 (ix2 q n))).setWidth 32).toInt : ℝ) : EReal) = _
  rw [e1, e2, toInt_setWidth_bit, Int.cast_natCast]
  rfl

/-- An array times a per-point factor broadcast along the channels, at (q, n, c). -/
theorem masked_apply (X : FVec Ideal S800x32x9 .f32) (m : FVec Ideal S800x32 .f32) (h1 : S800x32.ShapeCasts S800x32x1)
    (h2 : S800x32x1.Broadcasts S800x32x9) (q : Fin 800) (n : Fin 32) (c : Fin 9) :
    mulf X (broadcastTo S800x32x9 (shapeCast S800x32x1 m h1) h2) (ix3 q n c) = X (ix3 q n c) * m (ix2 q n) := by
  have e1 : broadcastTo S800x32x9 (shapeCast S800x32x1 m h1) h2 (ix3 q n c) = shapeCast S800x32x1 m h1 (ix3 q n (0 : Fin 1)) :=
    broadcastTo_apply _ h2 (ix3 q n c) (ix3 q n (0 : Fin 1)) fun a => by
      match a with
      | ⟨0, _⟩ => rfl
      | ⟨1, _⟩ => rfl
      | ⟨2, _⟩ => rfl
  have e2 : shapeCast S800x32x1 m h1 (ix3 q n (0 : Fin 1)) = m (ix2 q n) :=
    shapeCast_apply m h1 _ _ (by
      rw [Shape.rowMajor_val_two, Shape.rowMajor_val_three]
      show q.val * 32 + n.val = (q.val * 32 + n.val) * 1 + 0
      omega)
  rw [mulf_apply, e1, e2]

/-! ## The grid-centre offsets -/

/-- Raw channel o (sliced out, with its unit axis dropped) minus a per-pillar column broadcast along the points,
    with the unit axis put back: at (q, n, 0) it is the channel at (q, n) minus the column at q. -/
theorem centre_apply (v0 : Vec Ideal S800x32x4 .f32) (o : Nat) (ho : o < 4) (hs : S800x32x4.Slices ![0, 0, o] S800x32x1)
    (h1 : S800x32x1.ShapeCasts S800x32) (h2 : S800x1.Broadcasts S800x32) (h3 : S800x32.ShapeCasts S800x32x1)
    (ctr : FVec Ideal S800x1 .f32) (q : Fin 800) (n : Fin 32) :
    shapeCast S800x32x1 (subf (shapeCast S800x32 (extractStridedSlice S800x32x1 ![0, 0, o] v0 hs) h1)
        (broadcastTo S800x32 ctr h2)) h3 (ix3 q n (0 : Fin 1))
      = v0 (ix3 q n ⟨o, ho⟩) - ctr (ix2 q 0) := by
  refine (shapeCast_apply _ h3 (ix3 q n (0 : Fin 1)) (ix2 q n) ?_).trans ?_
  · rw [Shape.rowMajor_val_two, Shape.rowMajor_val_three]
    show q.val * 32 + n.val = (q.val * 32 + n.val) * 1 + 0
    omega
  have e1 : shapeCast S800x32 (extractStridedSlice S800x32x1 ![0, 0, o] v0 hs) h1 (ix2 q n) = v0 (ix3 q n ⟨o, ho⟩) := by
    refine (shapeCast_apply _ h1 (ix2 q n) (ix3 q n (0 : Fin 1)) ?_).trans ?_
    · rw [Shape.rowMajor_val_two, Shape.rowMajor_val_three]
      show (q.val * 32 + n.val) * 1 + 0 = q.val * 32 + n.val
      omega
    refine extractStridedSlice_apply _ v0 hs _ (ix3 q n ⟨o, ho⟩) fun ax => ?_
    match ax with
    | ⟨0, _⟩ => show q.val = 0 + q.val; omega
    | ⟨1, _⟩ => show n.val = 0 + n.val; omega
    | ⟨2, _⟩ => show o = o + 0; rfl
  have e2 : broadcastTo S800x32 ctr h2 (ix2 q n) = ctr (ix2 q 0) := Cert.LibColumnReads.broadcastTo_a1_ab_apply ctr h2 q n
  rw [subf_apply, e1, e2]

/-! ## The concatenation of the nine channels -/

section Cat
variable (v0 : Vec Ideal S800x32x4 .f32) (v107 : FVec Ideal S800x32x3 .f32) (x : FVec Ideal S800x32x2 .f32)
  (h : Shape.Concatenates [S800x32x4, S800x32x3, S800x32x2] S800x32x9 2) (q : Fin 800) (n : Fin 32) (c : Fin 9)

/-- Channels 0 to 3 are the raw array's. -/
theorem cat9_lo (hc : c.val < 4) :
    (concatenate S800x32x9 2 [⟨S800x32x4, v0⟩, ⟨S800x32x3, v107⟩, ⟨S800x32x2, x⟩] h : FVec Ideal S800x32x9 .f32) (ix3 q n c)
      = v0 (ix3 q n ⟨c.val, hc⟩) :=
  concatenate_apply_piece (t := S800x32x9) 2 [⟨S800x32x4, v0⟩, ⟨S800x32x3, v107⟩, ⟨S800x32x2, x⟩] h (ix3 q n c) 0 (show 0 < 3 by omega) S800x32x4 v0 rfl rfl 0 rfl (ix3 q n ⟨c.val, hc⟩)
    (fun b hb => match b, hb with
      | ⟨0, _⟩, _ => rfl
      | ⟨1, _⟩, _ => rfl
      | ⟨2, _⟩, hb => absurd rfl hb)
    (by show 0 + c.val = c.val; omega)

/-- Channels 4 to 6 are the second array's. -/
theorem cat9_mid (hc : ¬c.val < 4) (hc' : c.val < 7) :
    (concatenate S800x32x9 2 [⟨S800x32x4, v0⟩, ⟨S800x32x3, v107⟩, ⟨S800x32x2, x⟩] h : FVec Ideal S800x32x9 .f32) (ix3 q n c)
      = v107 (ix3 q n ⟨c.val - 4, by omega⟩) :=
  concatenate_apply_piece (t := S800x32x9) 2 [⟨S800x32x4, v0⟩, ⟨S800x32x3, v107⟩, ⟨S800x32x2, x⟩] h (ix3 q n c) 1 (show 1 < 3 by omega) S800x32x3 v107 rfl rfl 4 rfl (ix3 q n ⟨c.val - 4, by omega⟩)
    (fun b hb => match b, hb with
      | ⟨0, _⟩, _ => rfl
      | ⟨1, _⟩, _ => rfl
      | ⟨2, _⟩, hb => absurd rfl hb)
    (by show 4 + (c.val - 4) = c.val; omega)

/-- Channels 7 and 8 are the third array's. -/
theorem cat9_hi (hc : ¬c.val < 7) :
    (concatenate S800x32x9 2 [⟨S800x32x4, v0⟩, ⟨S800x32x3, v107⟩, ⟨S800x32x2, x⟩] h : FVec Ideal S800x32x9 .f32) (ix3 q n c)
      = x (ix3 q n ⟨c.val - 7, by omega⟩) :=
  concatenate_apply_piece (t := S800x32x9) 2 [⟨S800x32x4, v0⟩, ⟨S800x32x3, v107⟩, ⟨S800x32x2, x⟩] h (ix3 q n c) 2 (show 2 < 3 by omega) S800x32x2 x rfl rfl 7 rfl (ix3 q n ⟨c.val - 7, by omega⟩)
    (fun b hb => match b, hb with
      | ⟨0, _⟩, _ => rfl
      | ⟨1, _⟩, _ => rfl
      | ⟨2, _⟩, hb => absurd rfl hb)
    (by show 7 + (c.val - 7) = c.val; omega)

end Cat

section Pair
variable (x7 x8 : FVec Ideal S800x32x1 .f32) (h : Shape.Concatenates [S800x32x1, S800x32x1] S800x32x2 2)
  (q : Fin 800) (n : Fin 32) (d : Fin 2)

/-- Two one-channel arrays side by side: channel 0 is the first. -/
theorem pair_zero (hd : d.val = 0) :
    (concatenate S800x32x2 2 [⟨S800x32x1, x7⟩, ⟨S800x32x1, x8⟩] h : FVec Ideal S800x32x2 .f32) (ix3 q n d)
      = x7 (ix3 q n (0 : Fin 1)) :=
  concatenate_apply_piece (t := S800x32x2) 2 [⟨S800x32x1, x7⟩, ⟨S800x32x1, x8⟩] h (ix3 q n d) 0 (show 0 < 2 by omega) S800x32x1 x7 rfl rfl 0 rfl (ix3 q n (0 : Fin 1))
    (fun b hb => match b, hb with
      | ⟨0, _⟩, _ => rfl
      | ⟨1, _⟩, _ => rfl
      | ⟨2, _⟩, hb => absurd rfl hb)
    (by show 0 + 0 = d.val; omega)

/-- Channel 1 is the second. -/
theorem pair_one (hd : d.val = 1) :
    (concatenate S800x32x2 2 [⟨S800x32x1, x7⟩, ⟨S800x32x1, x8⟩] h : FVec Ideal S800x32x2 .f32) (ix3 q n d)
      = x8 (ix3 q n (0 : Fin 1)) :=
  concatenate_apply_piece (t := S800x32x2) 2 [⟨S800x32x1, x7⟩, ⟨S800x32x1, x8⟩] h (ix3 q n d) 1 (show 1 < 2 by omega) S800x32x1 x8 rfl rfl 1 rfl (ix3 q n (0 : Fin 1))
    (fun b hb => match b, hb with
      | ⟨0, _⟩, _ => rfl
      | ⟨1, _⟩, _ => rfl
      | ⟨2, _⟩, hb => absurd rfl hb)
    (by show 1 + 0 = d.val; omega)

end Pair

/-! ## The product -/

/-- The [800, 32, 9] array laid out as [25600, 9] rows times the [9, 64] weights, into a zero accumulator: at row
    q * 32 + n and unit u, the sum over the nine channels. -/
theorem matmul_rows (A : FVec Ideal S800x32x9 .f32) (W : Vec Ideal S9x64 .f32) (h1 : S800x32x9.ShapeCasts S25600x9)
    (h2 : FTy.bits .bf16 < FTy.bits .f32) (q : Fin 800) (n : Fin 32) (u : Fin 64) :
    FloatOps.matmul dot_S25600x9_S9x64_S25600x64_1_0_0_1_n_n none (truncf .bf16 (shapeCast S25600x9 A h1) h2) (truncf .bf16 W h2)
        (constant (F := Ideal) S25600x64 .f32 0x00000000#32) (ix2 ⟨q.val * 32 + n.val, by omega⟩ u)
      = ∑ c : Fin 9, A (ix3 q n c) * W (ix2 c u) := by
  refine (Cert.Lib.PlainDot.matmul_zero_apply 25600 9 64 none _ _ _).trans ?_
  refine Finset.sum_congr rfl fun c _ => ?_
  have e : shapeCast S25600x9 A h1 (ix2 (⟨q.val * 32 + n.val, by omega⟩ : Fin 25600) c) = A (ix3 q n c) :=
    shapeCast_apply A h1 _ (ix3 q n c) (by
      rw [Shape.rowMajor_val_two, Shape.rowMajor_val_three]
      show (q.val * 32 + n.val) * 9 + c.val = (q.val * 32 + n.val) * 9 + c.val
      rfl)
  exact congrArg (· * W (ix2 c u)) e

/-! ## The payload at an index -/

/-- The linear layer's value at row q * 32 + n and unit u: the sum over the nine masked channels times the weights. -/
theorem pay10_apply (v0 : Vec Ideal S800x32x4 .f32) (v2 : IVec S800x1 32) (v107 : FVec Ideal S800x32x3 .f32)
    (v109 v111 : FVec Ideal S800x1 .f32) (v142 : Vec Ideal S9x64 .f32) (q : Fin 800) (n : Fin 32) (u : Fin 64) :
    k0_pay10 (F := Ideal) v0 v2 v107 v109 v111 v142 (ix2 ⟨q.val * 32 + n.val, by omega⟩ u)
      = ∑ c : Fin 9, (chan v0 v107 v109 v111 q n c * Cert.Pfn.maskv (v2 (ix2 q 0)) n) * v142 (ix2 c u) := by
  unfold k0_pay10
  refine (matmul_rows _ v142 _ _ q n u).trans ?_
  refine Finset.sum_congr rfl fun c _ => congrArg (· * v142 (ix2 c u)) ?_
  refine (masked_apply _ _ _ _ q n c).trans ?_
  rw [mask_apply]
  refine congrArg (· * Cert.Pfn.maskv (v2 (ix2 q 0)) n) ?_
  unfold chan
  by_cases h4 : c.val < 4
  · rw [dif_pos h4]; exact cat9_lo v0 v107 _ _ q n c h4
  · rw [dif_neg h4]
    by_cases h7 : c.val < 7
    · rw [dif_pos h7]; exact cat9_mid v0 v107 _ _ q n c h4 h7
    · rw [dif_neg h7]
      refine (cat9_hi v0 v107 _ _ q n c h7).trans ?_
      by_cases h : c.val = 7
      · rw [if_pos h]
        refine (pair_zero _ _ _ q n _ (by show c.val - 7 = 0; omega)).trans ?_
        exact centre_apply v0 0 (by omega) _ _ _ _ _ q n
      · rw [if_neg h]
        refine (pair_one _ _ _ q n _ (by show c.val - 7 = 1; omega)).trans ?_
        exact centre_apply v0 1 (by omega) _ _ _ _ _ q n

/-- The same value in the second pass, where the product is laid back out as [800, 32, 64]. -/
theorem pay10_1_apply (v0 : Vec Ideal S800x32x4 .f32) (v2 : IVec S800x1 32) (v107 : FVec Ideal S800x32x3 .f32)
    (v109 v111 : FVec Ideal S800x1 .f32) (v142 : Vec Ideal S9x64 .f32) (q : Fin 800) (n : Fin 32) (u : Fin 64) :
    k1_pay10 (F := Ideal) v0 v2 v107 v109 v111 v142 (ix3 q n u)
      = ∑ c : Fin 9, (chan v0 v107 v109 v111 q n c * Cert.Pfn.maskv (v2 (ix2 q 0)) n) * v142 (ix2 c u) := by
  have e : k1_pay10 (F := Ideal) v0 v2 v107 v109 v111 v142
      = shapeCast S800x32x64 (k0_pay10 (F := Ideal) v0 v2 v107 v109 v111 v142) shapeCasts_S25600x64_S800x32x64 := rfl
  rw [e]
  refine (shapeCast_apply _ _ (ix3 q n u) (ix2 (⟨q.val * 32 + n.val, by omega⟩ : Fin 25600) u) ?_).trans ?_
  · rw [Shape.rowMajor_val_two, Shape.rowMajor_val_three]
    show (q.val * 32 + n.val) * 64 + u.val = (q.val * 32 + n.val) * 64 + u.val
    rfl
  exact pay10_apply v0 v2 v107 v109 v111 v142 q n u

/-! ## The small reads -/

/-- A column of the coordinate words, converted: at pillar q the word of that column as a number. -/
theorem coord_apply (v3 : Vec Ideal S800x4 .i32) (o : Nat) (ho : o < 4) (hs : S800x4.Slices ![0, o] S800x1) (q : Fin 800) :
    (sitofp .f32 (extractStridedSlice S800x1 ![0, o] v3 hs) : FVec Ideal S800x1 .f32) (ix2 q (0 : Fin 1))
      = Cert.Pfn.ofInt (v3 (ix2 q ⟨o, ho⟩)) := by
  have e : extractStridedSlice S800x1 ![0, o] v3 hs (ix2 q (0 : Fin 1)) = v3 (ix2 q (⟨o, ho⟩ : Fin 4)) :=
    extractStridedSlice_apply _ v3 hs _ (ix2 q (⟨o, ho⟩ : Fin 4)) fun ax => by
      match ax with
      | ⟨0, _⟩ => show q.val = 0 + q.val; omega
      | ⟨1, _⟩ => show o = o + 0; rfl
  exact congrArg (fun b : BitVec 32 => ((b.toInt : ℝ) : EReal)) e

theorem pay8_apply (v3 : Vec Ideal S800x4 .i32) (q : Fin 800) :
    k0_pay8 (F := Ideal) v3 (ix2 q 0) = Cert.Pfn.ofInt (v3 (ix2 q 3)) :=
  coord_apply v3 3 (by omega) _ q

theorem pay9_apply (v3 : Vec Ideal S800x4 .i32) (q : Fin 800) :
    k0_pay9 (F := Ideal) v3 (ix2 q 0) = Cert.Pfn.ofInt (v3 (ix2 q 2)) :=
  coord_apply v3 2 (by omega) _ q

theorem pay2_apply (v1 : Vec Ideal S800x1 .i32) (q : Fin 800) :
    k0_pay2 (F := Ideal) v1 (ix2 q 0) = v1 (ix2 q 0) :=
  congrFun (shapeCast_self v1 _) (ix2 q 0)

theorem pay8_1_apply (v3 : Vec Ideal S800x4 .i32) (q : Fin 800) :
    k1_pay8 (F := Ideal) v3 (ix2 q 0) = Cert.Pfn.ofInt (v3 (ix2 q 3)) :=
  coord_apply v3 3 (by omega) _ q

theorem pay9_1_apply (v3 : Vec Ideal S800x4 .i32) (q : Fin 800) :
    k1_pay9 (F := Ideal) v3 (ix2 q 0) = Cert.Pfn.ofInt (v3 (ix2 q 2)) :=
  coord_apply v3 2 (by omega) _ q

theorem pay2_1_apply (v1 : Vec Ideal S800x1 .i32) (q : Fin 800) :
    k1_pay2 (F := Ideal) v1 (ix2 q 0) = v1 (ix2 q 0) :=
  congrFun (shapeCast_self v1 _) (ix2 q 0)

end Cert.Pfn.KernelFeat

end
-- ==== Proof.ClusterOffset.lean ====
/-
  The offset of a point from its pillar's mean point, read entry by entry.

  On a tile of 800 pillars of 32 points with 4 channels, and a column of 800 count words, the kernel forms
  for the first three channels the sum over the pillar's 32 points (written out as 31 additions, nested to
  the left), divides it by the count word read as a signed integer, and subtracts the quotient from every
  point of the pillar.  Entry (q, n, c) of the result is therefore

      tile (q, n, c) - (∑ k, tile (q, k, c)) / count q.

  The sum of 32 terms nested to the left is the sum over `Fin 32`: peeling the last index off a sum over
  `Fin (m + 1)` leaves the sum over `Fin m` plus the last term, which is exactly one level of the nesting.
  Addition of extended reals is only used in the order in which it is written, so nothing has to be finite.
-/
import proofs.«164892_j446676599108_2_alg».proof.Proof.Spec
import proofs.«164892_j446676599108_2_alg».proof.Proof.Gen.KernelIdeal.Skeleton
import Idealize.ShloMosaic.Lib.ValueIdx
import Idealize.ShloMosaic.Lib.Pipeline.Value

noncomputable section

open scoped BigOperators

namespace Cert.Pfn.KernelFeat

open Idealize.ShloMosaic Idealize.ShloMosaic.ValueIdx Cert.KernelIdeal Cert.KernelIdeal.Gen

/-! ## Rank-3 layout operations read at coordinates -/

section Layout
variable {α : Type}

/-- A box cut from a rank-3 array reads, at `(a, b, c)`, the array at the coordinates shifted by the offsets. -/
theorem slice3_apply {n0 n1 n2 m0 m1 m2 : Nat} (o0 o1 o2 : Nat)
    (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (a' : Fin n0) (b' : Fin n1) (c' : Fin n2)
    (ha : a'.val = o0 + a.val) (hb : b'.val = o1 + b.val) (hc : c'.val = o2 + c.val) :
    extractStridedSlice ⟨3, ![m0, m1, m2]⟩ ![o0, o1, o2] X h (ix3 a b c) = X (ix3 a' b' c') :=
  extractStridedSlice_apply _ X h _ _ (fun ax => by
    match ax with
    | ⟨0, _⟩ => exact ha
    | ⟨1, _⟩ => exact hb
    | ⟨2, _⟩ => exact hc)

/-- An `[a, 1, c]` array viewed as `[a, c]` keeps its entries. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (r : Fin c) :
    shapeCast ⟨2, ![a, c]⟩ x h (ix2 p r) = x (ix3 p (0 : Fin 1) r) :=
  shapeCast_apply x h _ _ (by
    rw [Shape.rowMajor_val_three, Shape.rowMajor_val_two]
    show (p.val * 1 + 0) * c + r.val = p.val * c + r.val
    rw [Nat.mul_one, Nat.add_zero])

/-- An `[a, c]` array viewed as `[a, 1, c]` keeps its entries. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A column `[a, 1]` viewed as `[a, 1, 1]` keeps its entries. -/
theorem shapeCast_a1_a11_apply {a : ℕ} (x : (⟨2, ![a, 1]⟩ : Shape).Idx → α)
    (h : (⟨2, ![a, 1]⟩ : Shape).ShapeCasts ⟨3, ![a, 1, 1]⟩) (p : Fin a) (u u' : Fin 1) :
    shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_three, Shape.rowMajor_val_two]
    show p.val * 1 + 0 = (p.val * 1 + u.val) * 1 + u'.val
    omega)

/-- An `[a, 1, 1]` array spread to `[a, 1, c]` reads, at `(p, u, r)`, the entry of row `p`. -/
theorem broadcastTo_a11_a1c_apply {a c : ℕ} (v : (⟨3, ![a, 1, 1]⟩ : Shape).Idx → α)
    (h : (⟨3, ![a, 1, 1]⟩ : Shape).Broadcasts ⟨3, ![a, 1, c]⟩) (p : Fin a) (u : Fin 1) (r : Fin c) :
    broadcastTo ⟨3, ![a, 1, c]⟩ v h (ix3 p u r) = v (ix3 p (0 : Fin 1) (0 : Fin 1)) := by
  refine broadcastTo_apply v h (ix3 p u r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- An `[a, 1, c]` array spread to `[a, b, c]` reads, at `(p, q, r)`, the entry at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

/-! ## The pieces of the tile -/

/-- The box of the first three channels reads the tile's own entries. -/
theorem chan_read (v0 : FVec Ideal S800x32x4 .f32) (h : S800x32x4.Slices ![0, 0, 0] S800x32x3)
    (q : Fin 800) (k : Fin 32) (c : Fin 3) :
    extractStridedSlice S800x32x3 ![0, 0, 0] v0 h (ix3 q k c) = v0 (ix3 q k ⟨c.val, by omega⟩) :=
  slice3_apply 0 0 0 v0 h q k c q k ⟨c.val, by omega⟩
    (Nat.zero_add _).symm (Nat.zero_add _).symm (Nat.zero_add _).symm

/-- The first three channels of the tile are the tile's. -/
theorem pay4_apply (v0 : Vec Ideal S800x32x4 .f32) (q : Fin 800) (k : Fin 32) (c : Fin 3) :
    k0_pay4 (F := Ideal) v0 (ix3 q k c) = v0 (ix3 q k ⟨c.val, by omega⟩) := by
  unfold k0_pay4
  exact chan_read v0 _ q k c

/-- A one-point slab can only be cut at a point of the pillar. -/
theorem point_lt {o : Nat} (h : S800x32x3.Slices ![0, o, 0] S800x1x3) : o < 32 := by
  have h1 := h.2 ⟨1, (by decide : 1 < 3)⟩
  exact h1

/-- The slab of point `o`, viewed as a matrix of pillars by channels, reads point `o`. -/
theorem point_read (X : FVec Ideal S800x32x3 .f32) (o : Nat) (h : S800x32x3.Slices ![0, o, 0] S800x1x3)
    (h' : S800x1x3.ShapeCasts S800x3) (q : Fin 800) (c : Fin 3) :
    shapeCast S800x3 (extractStridedSlice S800x1x3 ![0, o, 0] X h) h' (ix2 q c) = X (ix3 q ⟨o, point_lt h⟩ c) :=
  (shapeCast_a1c_ac_apply _ h' q c).trans
    (slice3_apply 0 o 0 X h q 0 c q ⟨o, point_lt h⟩ c (Nat.zero_add _).symm rfl (Nat.zero_add _).symm)

/-- The count column as floats, one per pillar: the count word read as a signed integer. -/
theorem pay3_apply (v1 : Vec Ideal S800x1 .i32) (q : Fin 800) (u u' : Fin 1) :
    k0_pay3 (F := Ideal) v1 (ix3 q u u') = Cert.Pfn.ofInt (v1 (ix2 q 0)) := by
  unfold k0_pay3 k0_pay2
  refine (shapeCast_a1_a11_apply _ _ q u u').trans ?_
  show Cert.Pfn.ofInt (shapeCast S800x1 v1 _ (ix2 q 0)) = _
  rw [shapeCast_self]

/-! ## The sum over the pillar's points -/

/-- The first fifteen points, added from the left. -/
theorem pay5_apply (v0 : Vec Ideal S800x32x4 .f32) (q : Fin 800) (c : Fin 3) :
    k0_pay5 (F := Ideal) v0 (ix2 q c)
      = ∑ k : Fin 15, v0 (ix3 q (⟨k.val, by omega⟩ : Fin 32) (⟨c.val, by omega⟩ : Fin 4)) := by
  unfold k0_pay5
  simp only [addf_apply, point_read, pay4_apply, Fin.sum_univ_castSucc, Fin.sum_univ_zero, zero_add]
  rfl

/-- THE OFFSET FROM THE MEAN POINT: entry `(q, n, c)` is the tile's entry minus the sum of channel `c` over the
    pillar's 32 points divided by the pillar's count.  The remaining seventeen points are added to the first
    fifteen, still from the left; peeling the sum over `Fin 32` from its last index gives the same nesting. -/
theorem pay7_apply (v0 : Vec Ideal S800x32x4 .f32) (v1 : Vec Ideal S800x1 .i32) (q : Fin 800) (n : Fin 32) (c : Fin 3) :
    k0_pay7 (F := Ideal) v0 (k0_pay3 (F := Ideal) v1) (k0_pay4 (F := Ideal) v0) (k0_pay5 (F := Ideal) v0)
        (k0_pay6 (F := Ideal) v0) (ix3 q n c)
      = v0 (ix3 q n ⟨c.val, by omega⟩)
        - Ideal.div (∑ k : Fin 32, v0 (ix3 q k ⟨c.val, by omega⟩)) (Cert.Pfn.ofInt (v1 (ix2 q 0))) := by
  unfold k0_pay7 k0_pay6
  simp only [subf_apply, divf_apply, addf_apply, broadcastTo_a1c_abc_apply, broadcastTo_a11_a1c_apply,
    shapeCast_ac_a1c_apply, point_read, chan_read, pay3_apply, pay4_apply, pay5_apply,
    Fin.sum_univ_castSucc, Fin.sum_univ_zero, zero_add]
  rfl

/-! ## The second pass computes the same pieces -/

theorem pay3_1_eq : k1_pay3 (F := Ideal) = k0_pay3 (F := Ideal) := rfl
theorem pay4_1_eq : k1_pay4 (F := Ideal) = k0_pay4 (F := Ideal) := rfl
theorem pay5_1_eq : k1_pay5 (F := Ideal) = k0_pay5 (F := Ideal) := rfl
theorem pay6_1_eq : k1_pay6 (F := Ideal) = k0_pay6 (F := Ideal) := rfl
theorem pay7_1_eq : k1_pay7 (F := Ideal) = k0_pay7 (F := Ideal) := rfl

/-- The offset from the mean point, as the second pass computes it. -/
theorem pay7_1_apply (v0 : Vec Ideal S800x32x4 .f32) (v1 : Vec Ideal S800x1 .i32) (q : Fin 800) (n : Fin 32) (c : Fin 3) :
    k1_pay7 (F := Ideal) v0 (k1_pay3 (F := Ideal) v1) (k1_pay4 (F := Ideal) v0) (k1_pay5 (F := Ideal) v0)
        (k1_pay6 (F := Ideal) v0) (ix3 q n c)
      = v0 (ix3 q n ⟨c.val, by omega⟩)
        - Ideal.div (∑ k : Fin 32, v0 (ix3 q k ⟨c.val, by omega⟩)) (Cert.Pfn.ofInt (v1 (ix2 q 0))) := by
  rw [pay3_1_eq, pay4_1_eq, pay5_1_eq, pay6_1_eq, pay7_1_eq]
  exact pay7_apply v0 v1 q n c

end Cert.Pfn.KernelFeat

end
-- ==== Proof.KernelX.lean ====
/-
  The program's linear layer on one pillar is the specification's.

  With the tile's own pieces put in for the arrays the product reads — the count column, the offsets from the
  pillar's mean point, the two coordinate columns converted to numbers — the nine channels of a point are the
  specification's decorated channels, so the product at row q * 32 + n and unit u is the specification's
  linear layer on pillar q at point n and unit u.
-/
import proofs.«164892_j446676599108_2_alg».proof.Proof.Spec
import proofs.«164892_j446676599108_2_alg».proof.Proof.Gen.KernelIdeal.Skeleton
import proofs.«164892_j446676599108_2_alg».proof.Proof.KernelLinear
import proofs.«164892_j446676599108_2_alg».proof.Proof.ClusterOffset

noncomputable section

open scoped BigOperators

namespace Cert.Pfn.KernelFeat

open Cert.KernelIdeal Cert.KernelIdeal.Gen Idealize.ShloMosaic Idealize.ShloMosaic.ValueIdx

/-! ## The channels of a point are the specification's -/

/-- First pass: with the tile's pieces put in, channel c of point n of pillar q is the specification's. -/
theorem chan_eq_raw (v0 : Vec Ideal S800x32x4 .f32) (v1 : Vec Ideal S800x1 .i32) (v3 : Vec Ideal S800x4 .i32)
    (q : Fin 800) (n : Fin 32) (c : Fin 9) :
    chan v0 (k0_pay7 (F := Ideal) v0 (k0_pay3 (F := Ideal) v1) (k0_pay4 (F := Ideal) v0) (k0_pay5 (F := Ideal) v0)
        (k0_pay6 (F := Ideal) v0)) (k0_pay8 (F := Ideal) v3) (k0_pay9 (F := Ideal) v3) q n c
      = Cert.Pfn.raw (fun k c => v0 (ix3 q k c)) (v1 (ix2 q 0)) (v3 (ix2 q 3)) (v3 (ix2 q 2)) n c := by
  unfold chan Cert.Pfn.raw
  by_cases h4 : c.val < 4
  · rw [dif_pos h4, dif_pos h4]
  · rw [dif_neg h4, dif_neg h4]
    by_cases h7 : c.val < 7
    · rw [dif_pos h7, dif_pos h7]
      exact pay7_apply v0 v1 q n ⟨c.val - 4, by omega⟩
    · rw [dif_neg h7, dif_neg h7, pay8_apply, pay9_apply]

/-- Second pass: the same. -/
theorem chan_eq_raw_1 (v0 : Vec Ideal S800x32x4 .f32) (v1 : Vec Ideal S800x1 .i32) (v3 : Vec Ideal S800x4 .i32)
    (q : Fin 800) (n : Fin 32) (c : Fin 9) :
    chan v0 (k1_pay7 (F := Ideal) v0 (k1_pay3 (F := Ideal) v1) (k1_pay4 (F := Ideal) v0) (k1_pay5 (F := Ideal) v0)
        (k1_pay6 (F := Ideal) v0)) (k1_pay8 (F := Ideal) v3) (k1_pay9 (F := Ideal) v3) q n c
      = Cert.Pfn.raw (fun k c => v0 (ix3 q k c)) (v1 (ix2 q 0)) (v3 (ix2 q 3)) (v3 (ix2 q 2)) n c := by
  unfold chan Cert.Pfn.raw
  by_cases h4 : c.val < 4
  · rw [dif_pos h4, dif_pos h4]
  · rw [dif_neg h4, dif_neg h4]
    by_cases h7 : c.val < 7
    · rw [dif_pos h7, dif_pos h7]
      exact pay7_1_apply v0 v1 q n ⟨c.val - 4, by omega⟩
    · rw [dif_neg h7, dif_neg h7, pay8_1_apply, pay9_1_apply]

/-! ## The linear layer -/

/-- First pass: the product at row q * 32 + n and unit u is the specification's linear layer on pillar q. -/
theorem lin0_apply (v0 : Vec Ideal S800x32x4 .f32) (v1 : Vec Ideal S800x1 .i32) (v3 : Vec Ideal S800x4 .i32)
    (v142 : Vec Ideal S9x64 .f32) (q : Fin 800) (n : Fin 32) (u : Fin 64) :
    k0_pay10 (F := Ideal) v0 (k0_pay2 (F := Ideal) v1)
        (k0_pay7 (F := Ideal) v0 (k0_pay3 (F := Ideal) v1) (k0_pay4 (F := Ideal) v0) (k0_pay5 (F := Ideal) v0)
          (k0_pay6 (F := Ideal) v0))
        (k0_pay8 (F := Ideal) v3) (k0_pay9 (F := Ideal) v3) v142 (ix2 ⟨q.val * 32 + n.val, by omega⟩ u)
      = Cert.Pfn.pillarX (fun k c => v0 (ix3 q k c)) (v1 (ix2 q 0)) (v3 (ix2 q 3)) (v3 (ix2 q 2))
          (fun c v => v142 (ix2 c v)) n u := by
  rw [pay10_apply, pay2_apply]
  unfold Cert.Pfn.pillarX Cert.Pfn.feat
  refine Finset.sum_congr rfl fun c _ => ?_
  rw [chan_eq_raw]

/-- Second pass: the product at (q, n, u) is the specification's linear layer on pillar q. -/
theorem lin1_apply (v0 : Vec Ideal S800x32x4 .f32) (v1 : Vec Ideal S800x1 .i32) (v3 : Vec Ideal S800x4 .i32)
    (v142 : Vec Ideal S9x64 .f32) (q : Fin 800) (n : Fin 32) (u : Fin 64) :
    k1_pay10 (F := Ideal) v0 (k1_pay2 (F := Ideal) v1)
        (k1_pay7 (F := Ideal) v0 (k1_pay3 (F := Ideal) v1) (k1_pay4 (F := Ideal) v0) (k1_pay5 (F := Ideal) v0)
          (k1_pay6 (F := Ideal) v0))
        (k1_pay8 (F := Ideal) v3) (k1_pay9 (F := Ideal) v3) v142 (ix3 q n u)
      = Cert.Pfn.pillarX (fun k c => v0 (ix3 q k c)) (v1 (ix2 q 0)) (v3 (ix2 q 3)) (v3 (ix2 q 2))
          (fun c v => v142 (ix2 c v)) n u := by
  rw [pay10_1_apply, pay2_1_apply]
  unfold Cert.Pfn.pillarX Cert.Pfn.feat
  refine Finset.sum_congr rfl fun c _ => ?_
  rw [chan_eq_raw_1]

end Cert.Pfn.KernelFeat

end
-- ==== Proof.TileSums.lean ====
/-
  The 40000 pillars as 50 tiles of 800, and a running sum.

  Position 800 * t + q, for t below 50 and q below 800, runs once through the positions below 40000 (division
  with remainder by 800). So a sum over all pillars is the sum over the tiles of the tiles' sums. A sequence that
  starts at 0 + T 0 and adds T (n + 1) at step n + 1 is the sequence of partial sums of T.
-/
import Mathlib.Algebra.BigOperators.Fin
import Mathlib.Data.Fintype.BigOperators
import Mathlib.Logic.Equiv.Fin.Basic

open scoped BigOperators

namespace Cert.Pfn

/-- The sum over 40000 pillars, tile by tile. -/
theorem sum_tiles {M : Type*} [AddCommMonoid M] (g : Fin 40000 → M) (T : ℕ → M)
    (hT : ∀ (t : ℕ) (h : t < 50), T t = ∑ q : Fin 800, g ⟨800 * t + q.val, by have := q.isLt; omega⟩) :
    ∑ t ∈ Finset.range 50, T t = ∑ p : Fin 40000, g p := by
  rw [Finset.sum_range]
  have e : ∀ t : Fin 50, T t.val
      = ∑ q : Fin 800, g ⟨800 * t.val + q.val, by have := q.isLt; have := t.isLt; omega⟩ :=
    fun t => hT t.val t.isLt
  rw [Finset.sum_congr rfl fun t _ => e t,
    ← Fintype.sum_prod_type' fun (t : Fin 50) (q : Fin 800) =>
      g ⟨800 * t.val + q.val, by have := q.isLt; have := t.isLt; omega⟩]
  refine Fintype.sum_equiv (finProdFinEquiv (m := 50) (n := 800)) _ _ fun x => ?_
  refine congrArg g (Fin.ext ?_)
  show 800 * x.1.val + x.2.val = x.2.val + 800 * x.1.val
  omega

/-- A sequence built by adding one term at a time is the sequence of partial sums. -/
theorem running_sum {M : Type*} [AddCommMonoid M] (r T : ℕ → M) (h0 : r 0 = 0 + T 0)
    (hs : ∀ n, r (n + 1) = r n + T (n + 1)) (n : ℕ) : r n = ∑ t ∈ Finset.range (n + 1), T t := by
  induction n with
  | zero => rw [h0, zero_add, Finset.sum_range_one]
  | succ n ih => rw [hs, ih, Finset.sum_range_succ _ (n + 1)]

end Cert.Pfn
-- ==== Proof.StatsValue.lean ====
/-
  The first region's two result rows as sums over all pillars and points.

  At the ideal values each tile adds, for every unit u, the sum over its 800 pillars and their 32 points of
  the linear layer's output (and of its square). Addition of extended reals is associative and commutative,
  so the running sum after the last tile is the sum over all 40000 pillars: the 50 tiles of 800 rows are the
  40000 rows.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic
import proofs.«164892_j446676599108_2_alg».proof.Proof.StatsArray
import proofs.«164892_j446676599108_2_alg».proof.Proof.BlockReads
import proofs.«164892_j446676599108_2_alg».proof.Proof.KernelSumTail
import proofs.«164892_j446676599108_2_alg».proof.Proof.KernelX
import proofs.«164892_j446676599108_2_alg».proof.Proof.TileSums
set_option maxRecDepth 16384

noncomputable section

namespace Cert.Pfn.Stats

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

open Cert.Pfn.Blocks Cert.Pfn.KernelFeat
open scoped BigOperators

section Regions
variable (V : (c : Dev nD) → (b : Ref sig .tc) → Buf (Elt Ideal) ((c : Thread nD τ).loc b))

/-- The linear layer's output at pillar `p`, from the arrays the first region finds. -/
def XV (c : Dev nD) (p : Fin 40000) (n : Fin 32) (u : Fin 64) : EReal :=
  pillarX (fun k ch => V c main_arg0 (ix3 p k ch)) (V c main_v0 (ix2 p 0)) (V c main_arg2 (ix2 p 3)) (V c main_arg2 (ix2 p 2))
    (fun k v => V c main_arg3 (ix2 k v)) n u

/-- The tile's linear-layer output, row q*32+n, is the whole array's at pillar 800 t + q, point n. -/
theorem lin0_tile (c : Dev nD) (t : Fin cfg0.N) (q : Fin 800) (n : Fin 32) (u : Fin 64) :
    lin0 (F := Ideal) (iblk0 V c 0 t) (iblk0 V c 1 t) (iblk0 V c 2 t) (iblk0 V c 3 t) (ix2 ⟨q.val * 32 + n.val, by omega⟩ u)
      = XV V c (row0 t q) n u := by
  refine (lin0_apply (iblk0 V c 0 t) (iblk0 V c 1 t) (iblk0 V c 2 t) (iblk0 V c 3 t) q n u).trans ?_
  simp only [XV, iblk0_feat V c t, iblk0_cnt V c t, iblk0_coor V c t, iblk0_w V c t]

/-- Tile `t`'s contribution to unit `u`'s sum, and to its sum of squares (zero beyond the grid). -/
def tile1 (c : Dev nD) (u : Fin 64) (t : ℕ) : EReal :=
  if h : t < cfg0.N then ∑ q : Fin 800, ∑ n : Fin 32, XV V c (row0 ⟨t, h⟩ q) n u else 0
def tile2 (c : Dev nD) (u : Fin 64) (t : ℕ) : EReal :=
  if h : t < cfg0.N then ∑ q : Fin 800, ∑ n : Fin 32, XV V c (row0 ⟨t, h⟩ q) n u * XV V c (row0 ⟨t, h⟩ q) n u else 0

/-- One step of the sum block, read at unit `u`. -/
theorem accSum_apply (c : Dev nD) (t : ℕ) (h : t < cfg0.N) (acc : Vec Ideal S1x64 .f32) (u : Fin 64) :
    accSum (F := Ideal) (iblk0 V c 0 ⟨t, h⟩) (iblk0 V c 1 ⟨t, h⟩) (iblk0 V c 2 ⟨t, h⟩) (iblk0 V c 3 ⟨t, h⟩) acc (ix2 0 u)
      = acc (ix2 0 u) + tile1 V c u t := by
  refine (sum_tail_apply _ _ _ _ _ _ acc u).trans ?_
  rw [tile1, dif_pos h]
  refine congrArg _ (Finset.sum_congr rfl fun q _ => Finset.sum_congr rfl fun n _ => ?_)
  exact lin0_tile V c ⟨t, h⟩ q n u

/-- One step of the square-sum block, read at unit `u`. -/
theorem accSq_apply (c : Dev nD) (t : ℕ) (h : t < cfg0.N) (acc : Vec Ideal S1x64 .f32) (u : Fin 64) :
    accSq (F := Ideal) (iblk0 V c 0 ⟨t, h⟩) (iblk0 V c 1 ⟨t, h⟩) (iblk0 V c 2 ⟨t, h⟩) (iblk0 V c 3 ⟨t, h⟩) acc (ix2 0 u)
      = acc (ix2 0 u) + tile2 V c u t := by
  refine (sumsq_tail_apply _ _ _ _ _ _ acc u).trans ?_
  rw [tile2, dif_pos h]
  refine congrArg _ (Finset.sum_congr rfl fun q _ => Finset.sum_congr rfl fun n _ => ?_)
  rw [show k0_pay10 (F := Ideal) (iblk0 V c 0 ⟨t, h⟩) (k0_pay2 (iblk0 V c 1 ⟨t, h⟩)) (k0_pay7 (iblk0 V c 0 ⟨t, h⟩) (k0_pay3 (iblk0 V c 1 ⟨t, h⟩)) (k0_pay4 (iblk0 V c 0 ⟨t, h⟩)) (k0_pay5 (iblk0 V c 0 ⟨t, h⟩)) (k0_pay6 (iblk0 V c 0 ⟨t, h⟩))) (k0_pay8 (iblk0 V c 2 ⟨t, h⟩)) (k0_pay9 (iblk0 V c 2 ⟨t, h⟩)) (iblk0 V c 3 ⟨t, h⟩) (ix2 ⟨q.val * 32 + n.val, by omega⟩ u) = XV V c (row0 ⟨t, h⟩ q) n u from lin0_tile V c ⟨t, h⟩ q n u]

/-- The running pair after point `n`, at unit `u`: the tiles' contributions so far. -/
theorem running_apply (c : Dev nD) (u : Fin 64) : ∀ (n : ℕ) (h : n < cfg0.N),
    (running V c n h).1 (ix2 0 u) = ∑ t ∈ Finset.range (n + 1), tile1 V c u t
    ∧ (running V c n h).2 (ix2 0 u) = ∑ t ∈ Finset.range (n + 1), tile2 V c u t
  | 0, h => by
    constructor
    · show accSum _ _ _ _ k0_pay12 (ix2 0 u) = _
      rw [accSum_apply V c 0 h, zero12_apply, zero_add, Finset.sum_range_one]
    · show accSq _ _ _ _ k0_pay13 (ix2 0 u) = _
      rw [accSq_apply V c 0 h, zero13_apply, zero_add, Finset.sum_range_one]
  | n + 1, h => by
    obtain ⟨h1, h2⟩ := running_apply c u n (Nat.lt_of_succ_lt h)
    constructor
    · show accSum _ _ _ _ (running V c n _).1 (ix2 0 u) = _
      rw [accSum_apply V c (n + 1) h, h1, Finset.sum_range_succ _ (n + 1)]
    · show accSq _ _ _ _ (running V c n _).2 (ix2 0 u) = _
      rw [accSq_apply V c (n + 1) h, h2, Finset.sum_range_succ _ (n + 1)]

/-- The sum array after the region, at unit `u`: the sum over all pillars and points. -/
theorem final4_apply (c : Dev nD) (u : Fin 64) :
    (dat0 V c).arrAt 4 cfg0.N (ix2 0 u) = ∑ p : Fin 40000, ∑ n : Fin 32, XV V c p n u := by
  rw [final4, (running_apply V c u 49 tLast.isLt).1]
  refine sum_tiles (fun p => ∑ n : Fin 32, XV V c p n u) (tile1 V c u) fun t ht => ?_
  have h : t < cfg0.N := by rw [show cfg0.N = 50 from N_0]; exact ht
  rw [tile1, dif_pos h]
  rfl

/-- The square-sum array after the region, at unit `u`. -/
theorem final5_apply (c : Dev nD) (u : Fin 64) :
    (dat0 V c).arrAt 5 cfg0.N (ix2 0 u) = ∑ p : Fin 40000, ∑ n : Fin 32, XV V c p n u * XV V c p n u := by
  rw [final5, (running_apply V c u 49 tLast.isLt).2]
  refine sum_tiles (fun p => ∑ n : Fin 32, XV V c p n u * XV V c p n u) (tile2 V c u) fun t ht => ?_
  have h : t < cfg0.N := by rw [show cfg0.N = 50 from N_0]; exact ht
  rw [tile2, dif_pos h]
  rfl

end Regions

end Cert.Pfn.Stats

end
-- ==== Proof.FinalArray.lean ====
/-
  From the second region's blocks to its result array.

  Grid point t writes back rows 800 t .. 800 t + 799 of the result, all 64 columns, and every point writes
  back. So if what each point leaves in the output block is, entry by entry, one whole-array function G read
  at the block's rows, then after the region the array is G: the 50 blocks tile the 40000 rows.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic
import proofs.«164892_j446676599108_2_alg».proof.Proof.BlockReads
set_option maxRecDepth 16384

noncomputable section

namespace Cert.Pfn.Final

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

open Cert.Pfn.Blocks

theorem hz2 : (![0, 0] : Fin 2 → Nat) = fun _ => 0 := funext fun a => by fin_cases a <;> rfl
theorem hz3 : (![0, 0, 0] : Fin 3 → Nat) = fun _ => 0 := funext fun a => by fin_cases a <;> rfl

/-- The linear layer's output on a tile, in the second kernel's arrangement [800, 32, 64]. -/
abbrev lin1 (x0 : Vec F S800x32x4 .f32) (x1 : Vec F S800x1 .i32) (x2 : Vec F S800x4 .i32) (x3 : Vec F S9x64 .f32) : FVec F S800x32x64 .f32 :=
  k1_pay10 x0 (k1_pay2 x1) (k1_pay7 x0 (k1_pay3 x1) (k1_pay4 x0) (k1_pay5 x0) (k1_pay6 x0)) (k1_pay8 x2) (k1_pay9 x2) x3

/-- What the body leaves in the output block: the largest activation over the 32 points, from the tile's blocks. -/
theorem out1_8_eq (x0 : Vec F S800x32x4 .f32) (x1 : Vec F S800x1 .i32) (x2 : Vec F S800x4 .i32) (x3 : Vec F S9x64 .f32) (x4 x5 x6 x7 : Vec F S1x64 .f32) :
    out1_8 x0 x1 x2 x3 x4 x5 x6 x7
      = k1_pay1 (k1_pay15 (lin1 x0 x1 x2 x3) (k1_pay11 x4) (k1_pay12 x5) (k1_pay13 x6) (k1_pay14 x7))
          (k1_pay16 (lin1 x0 x1 x2 x3) (k1_pay11 x4) (k1_pay12 x5) (k1_pay13 x6) (k1_pay14 x7)) := by
  unfold out1_8
  rw [View.canon_unit_zero hz2]
  simp only [View.ld_unit_zero (S := S800x32x4) hz3, View.ld_unit_zero (S := S800x1) hz2, View.ld_unit_zero (S := S800x4) hz2,
    View.ld_unit_zero (S := S9x64) hz2, View.ld_unit_zero (S := S1x64) hz2]

section Regions
variable (V : (c : Dev nD) → (b : Ref sig .tc) → Buf (Elt F) ((c : Thread nD τ).loc b))

/-- What point `t` writes back is block `t` of `G`, when the body's block agrees with `G` row by row. -/
theorem flushed8_eq (G : S40000x64.Idx → Elt F .f32) (c : Dev nD)
    (hG : ∀ (t : Fin cfg1.N) (q : Fin 800) (u : Fin 64),
      out1_8 (iblk1 V c 0 t) (iblk1 V c 1 t) (iblk1 V c 2 t) (iblk1 V c 3 t) (iblk1 V c 4 t) (iblk1 V c 5 t) (iblk1 V c 6 t) (iblk1 V c 7 t) (ix2 q u)
        = G (ix2 (row1 t q) u))
    (t : Fin cfg1.N) : (dat1 V c).flushed 8 t = ((cfg1.win 8).blk t).view.read (Elt F) G := by
  show (cfg1.win 8).cut (grid1.coords t) ((dat1 V c).after 8 t) = _
  rw [after1_8]
  funext j
  obtain ⟨q, u, rfl⟩ : ∃ (q : Fin 800) (u : Fin 64), j = ix2 q u := ⟨j 0, j 1, eq_ix2 j⟩
  show out1_8 _ _ _ _ _ _ _ _ (ix2 q u) = G (((cfg1.win 8).blk t).view.emb (ix2 q u))
  rw [hG t q u]
  refine congrArg G ?_
  obtain ⟨-, -, -, -, -, -, -, -, -, -, -, -, -, -, -, -, -, e0, e1⟩ := idx1 t
  funext a; apply Fin.ext
  match a with
  | ⟨0, _⟩ => show 800 * t.val + q.val = win1_8.index t (0 : Fin 2) * 800 + 1 * q.val; omega
  | ⟨1, _⟩ => show u.val = win1_8.index t (1 : Fin 2) * 64 + 1 * u.val; omega

/-- An index of the result is in point `t`'s block iff each coordinate is in the block's range on its axis. -/
theorem mem_blk8 (t : Fin cfg1.N) (i : S40000x64.Idx) :
    i ∈ ((cfg1.win 8).blk t).view.set ↔ ∀ a : Fin 2, win1_8.index t a * S800x64.size a ≤ (i a).val ∧ (i a).val < win1_8.index t a * S800x64.size a + S800x64.size a := by
  show i ∈ ((View.whole main_v10).slice (win1_8.rect t)).set ↔ _
  rw [View.set_slice_whole, Rect.mem_set_unit]
  exact Iff.rfl

/-- The result array after the region is `G`: row r lies in the block of point r / 800. -/
theorem final8 (G : S40000x64.Idx → Elt F .f32) (c : Dev nD)
    (hG : ∀ (t : Fin cfg1.N) (q : Fin 800) (u : Fin 64),
      out1_8 (iblk1 V c 0 t) (iblk1 V c 1 t) (iblk1 V c 2 t) (iblk1 V c 3 t) (iblk1 V c 4 t) (iblk1 V c 5 t) (iblk1 V c 6 t) (iblk1 V c 7 t) (ix2 q u)
        = G (ix2 (row1 t q) u)) :
    (dat1 V c).arrAt 8 cfg1.N = G :=
  (dat1 V c).arrAt_eq_of_cover 8 G (fun t _ => flushed8_eq V G c hG t) fun i => by
    have hi0 : (i 0).val < 40000 := (i 0).isLt
    have hi1 : (i 1).val < 64 := (i 1).isLt
    have hN : cfg1.N = 50 := N_1
    refine ⟨⟨(i 0).val / 800, by rw [hN]; omega⟩, flush1_8 _, ?_⟩
    rw [mem_blk8]
    obtain ⟨-, -, -, -, -, -, -, -, -, -, -, -, -, -, -, -, -, e0, e1⟩ := idx1 (⟨(i 0).val / 800, by rw [hN]; omega⟩ : Fin cfg1.N)
    intro a
    match a with
    | ⟨0, _⟩ => show win1_8.index _ (0 : Fin 2) * 800 ≤ (i 0).val ∧ (i 0).val < win1_8.index _ (0 : Fin 2) * 800 + 800
                rw [e0]; dsimp only; omega
    | ⟨1, _⟩ => show win1_8.index _ (1 : Fin 2) * 64 ≤ (i 1).val ∧ (i 1).val < win1_8.index _ (1 : Fin 2) * 64 + 64
                rw [e1]; omega

end Regions

end Cert.Pfn.Final

end
-- ==== Proof.KernelMaxTail.lean ====
/-
  The tail of the second pass, read at one output position.

  After the linear layer the second pass normalises every entry of the [800, 32, 64] block with the unit's mean and
  variance, scales and shifts it, takes the positive part, and keeps for every pillar and unit the largest value over
  the pillar's 32 points. The largest value is computed point by point: the block is cut at point k, the cut is viewed
  as an [800, 64] array, and the running maximum is joined with it, for k = 0, 1, ..., 31 in that order.

  Read at pillar q and unit u this is the join of the 32 activations of the pillar's points, which is the supremum of
  the activation over the finite set of points: a join of finitely many extended reals does not depend on the order
  or on the bracketing.
-/
import proofs.«164892_j446676599108_2_alg».proof.Proof.Spec
import proofs.«164892_j446676599108_2_alg».proof.Proof.Gen.KernelIdeal.Skeleton
import Idealize.ShloMosaic.Lib.ValueIdx
import Idealize.ShloMosaic.Lib.Pipeline.Value
import Idealize.ShloMosaic.PureOps.Ideal.Laws

open scoped BigOperators

namespace Cert.Pfn.KernelFeat

open Cert.KernelIdeal Cert.KernelIdeal.Gen Idealize.ShloMosaic Idealize.ShloMosaic.ValueIdx

namespace MaxTail

/-! ## Layout operations on rank-2 and rank-3 arrays, read at coordinates -/

section Layout
variable {α : Type}

/-- A [1, 1, c] array broadcast to [a, b, c] ignores the two leading coordinates. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A [1, c] row viewed as [1, 1, c] keeps its entries. -/
theorem shapeCast_1c_11c_apply {c : ℕ} (x : (⟨2, ![1, c]⟩ : Shape).Idx → α)
    (h : (⟨2, ![1, c]⟩ : Shape).ShapeCasts ⟨3, ![1, 1, c]⟩) (r : Fin c) :
    shapeCast ⟨3, ![1, 1, c]⟩ x h (ix3 (0 : Fin 1) (0 : Fin 1) r) = x (ix2 (0 : Fin 1) r) :=
  shapeCast_apply x h _ _ (by
    rw [Shape.rowMajor_val_three, Shape.rowMajor_val_two]
    show 0 * c + r.val = (0 * 1 + 0) * c + r.val
    rfl)

/-- Point k of an [a, b, c] array, cut out as an [a, 1, c] slab and viewed as an [a, c] array, reads at (p, r) the
    array at (p, k, r). -/
theorem point_apply {a b c : ℕ} (k : ℕ) (X : (⟨3, ![a, b, c]⟩ : Shape).Idx → α)
    (hs : (⟨3, ![a, b, c]⟩ : Shape).Slices ![0, k, 0] ⟨3, ![a, 1, c]⟩)
    (hc : (⟨3, ![a, 1, c]⟩ : Shape).ShapeCasts ⟨2, ![a, c]⟩) (p : Fin a) (r : Fin c) (kk : Fin b) (hk : kk.val = k) :
    shapeCast ⟨2, ![a, c]⟩ (extractStridedSlice ⟨3, ![a, 1, c]⟩ ![0, k, 0] X hs) hc (ix2 p r) = X (ix3 p kk r) := by
  refine (shapeCast_apply _ hc (ix2 p r) (ix3 p (0 : Fin 1) r) ?_).trans ?_
  · rw [Shape.rowMajor_val_three, Shape.rowMajor_val_two]
    show (p.val * 1 + 0) * c + r.val = p.val * c + r.val
    rw [Nat.mul_one, Nat.add_zero]
  · refine extractStridedSlice_apply _ X hs (ix3 p (0 : Fin 1) r) (ix3 p kk r) fun ax => ?_
    match ax with
    | ⟨0, _⟩ => exact (Nat.zero_add _).symm
    | ⟨1, _⟩ => exact hk
    | ⟨2, _⟩ => exact (Nat.zero_add _).symm

end Layout

/-! ## The normalised, scaled, shifted positive part at one entry -/

/-- The reciprocal square root of a vector, read at an index. -/
theorem rsqrt_apply {s : Shape} {φ : FTy} (a : FVec Ideal s φ) (i : s.Idx) : rsqrt a i = Ideal.rsqrt (a i) := rfl

/-- A [1, 64] block passed through the identity cast and viewed as [1, 1, 64], at unit u. -/
theorem pay11_apply (v : Vec Ideal S1x64 .f32) (u : Fin 64) :
    k1_pay11 (F := Ideal) v (ix3 (0 : Fin 1) (0 : Fin 1) u) = v (ix2 (0 : Fin 1) u) := by
  unfold k1_pay11
  exact (shapeCast_1c_11c_apply _ _ u).trans (congrFun (shapeCast_self v _) _)

theorem pay12_apply (v : Vec Ideal S1x64 .f32) (u : Fin 64) :
    k1_pay12 (F := Ideal) v (ix3 (0 : Fin 1) (0 : Fin 1) u) = v (ix2 (0 : Fin 1) u) := by
  unfold k1_pay12
  exact (shapeCast_1c_11c_apply _ _ u).trans (congrFun (shapeCast_self v _) _)

theorem pay13_apply (v : Vec Ideal S1x64 .f32) (u : Fin 64) :
    k1_pay13 (F := Ideal) v (ix3 (0 : Fin 1) (0 : Fin 1) u) = v (ix2 (0 : Fin 1) u) := by
  unfold k1_pay13
  exact (shapeCast_1c_11c_apply _ _ u).trans (congrFun (shapeCast_self v _) _)

theorem pay14_eq (v : Vec Ideal S1x64 .f32) : k1_pay14 (F := Ideal) v = v := by
  unfold k1_pay14
  exact shapeCast_self v _

/-- The second pass's activation block at pillar q, point n, unit u: the activation of the linear layer's entry there,
    with the unit's mean, variance, scale and shift read from the four [1, 64] blocks. -/
theorem pay15_apply (v145 : FVec Ideal S800x32x64 .f32) (v146 v149 v152 v155 : Vec Ideal S1x64 .f32)
    (q : Fin 800) (n : Fin 32) (u : Fin 64) :
    k1_pay15 (F := Ideal) v145 (k1_pay11 v146) (k1_pay12 v149) (k1_pay13 v152) (k1_pay14 v155) (ix3 q n u)
      = Cert.Pfn.act (v146 (ix2 (0 : Fin 1) u)) (v149 (ix2 (0 : Fin 1) u)) (v152 (ix2 (0 : Fin 1) u))
          (v155 (ix2 (0 : Fin 1) u)) (v145 (ix3 q n u)) := by
  unfold k1_pay15
  simp only [maximumf_apply, addf_apply, mulf_apply, subf_apply, rsqrt_apply, broadcast_apply,
    broadcastTo_11c_abc_apply, shapeCast_1c_11c_apply, pay11_apply, pay12_apply, pay13_apply, pay14_eq]
  show max _ (Ideal.ofBits .f32 0x00000000#32) = _
  rw [Ideal.ofBits_zero_f32]
  rfl

/-! ## The running maximum over the 32 points -/

/-- A one-point cut at offset k of an array with b points has k below b. -/
theorem point_lt {a b c k : ℕ} (hs : (⟨3, ![a, b, c]⟩ : Shape).Slices ![0, k, 0] ⟨3, ![a, 1, c]⟩) : k < b := by
  obtain ⟨_, h⟩ := hs
  have h1 : k + 1 ≤ b := h (1 : Fin 3)
  omega

/-- The point read with the point's coordinate built from the cut's offset. -/
theorem point_read {α : Type} {a b c k : ℕ} (X : (⟨3, ![a, b, c]⟩ : Shape).Idx → α)
    (hs : (⟨3, ![a, b, c]⟩ : Shape).Slices ![0, k, 0] ⟨3, ![a, 1, c]⟩)
    (hc : (⟨3, ![a, 1, c]⟩ : Shape).ShapeCasts ⟨2, ![a, c]⟩) (p : Fin a) (r : Fin c) :
    shapeCast ⟨2, ![a, c]⟩ (extractStridedSlice ⟨3, ![a, 1, c]⟩ ![0, k, 0] X hs) hc (ix2 p r)
      = X (ix3 p ⟨k, point_lt hs⟩ r) :=
  point_apply k X hs hc p r ⟨k, point_lt hs⟩ rfl

/-- The join of the values at points 0, 1, ..., 14, bracketed from the left as the program computes it. -/
noncomputable def head15 (g : Fin 32 → EReal) : EReal :=
  ((((((((((((((g 0) ⊔ g 1) ⊔ g 2) ⊔ g 3) ⊔ g 4) ⊔ g 5) ⊔ g 6) ⊔ g 7) ⊔ g 8) ⊔ g 9) ⊔ g 10) ⊔ g 11) ⊔ g 12) ⊔ g 13) ⊔ g 14

/-- A running value joined with the values at points 15, 16, ..., 31, bracketed from the left. -/
noncomputable def tail17 (s : EReal) (g : Fin 32 → EReal) : EReal :=
  (((((((((((((((((s) ⊔ g 15) ⊔ g 16) ⊔ g 17) ⊔ g 18) ⊔ g 19) ⊔ g 20) ⊔ g 21) ⊔ g 22) ⊔ g 23) ⊔ g 24) ⊔ g 25) ⊔ g 26) ⊔ g 27) ⊔ g 28) ⊔ g 29) ⊔ g 30) ⊔ g 31

/-- The supremum over the 32 points is the left-bracketed join of the 32 values: joins of extended reals are
    associative and commutative. -/
theorem sup_fin32 (g : Fin 32 → EReal) : Finset.univ.sup g = tail17 (head15 g) g := by
  have h : (Finset.univ : Finset (Fin 32)) = {0, 1, 2, 3, 4, 5, 6, 7, 8, 9, 10, 11, 12, 13, 14, 15, 16, 17, 18, 19, 20, 21, 22, 23, 24, 25, 26, 27, 28, 29, 30, 31} := by decide
  rw [h]
  simp only [Finset.sup_insert, Finset.sup_singleton]
  unfold tail17 head15
  ac_rfl

/-- The first fifteen points' running maximum of the activation block, at pillar q and unit u. -/
theorem pay16_apply (v145 : FVec Ideal S800x32x64 .f32) (v148 v151 v154 : FVec Ideal S1x1x64 .f32)
    (v156 : FVec Ideal S1x64 .f32) (q : Fin 800) (u : Fin 64) :
    k1_pay16 (F := Ideal) v145 v148 v151 v154 v156 (ix2 q u)
      = head15 fun n => k1_pay15 (F := Ideal) v145 v148 v151 v154 v156 (ix3 q n u) := by
  unfold k1_pay16 head15
  generalize k1_pay15 (F := Ideal) v145 v148 v151 v154 v156 = R
  simp only [maximumf_apply, point_read]
  rfl

/-- The last seventeen points joined onto a running maximum, at pillar q and unit u. -/
theorem pay1_apply (R : FVec Ideal S800x32x64 .f32) (v214 : FVec Ideal S800x64 .f32) (q : Fin 800) (u : Fin 64) :
    k1_pay1 (F := Ideal) R v214 (ix2 q u) = tail17 (v214 (ix2 q u)) fun n => R (ix3 q n u) := by
  unfold k1_pay1 tail17
  simp only [maximumf_apply, point_read]
  rfl

end MaxTail

open MaxTail in
/-- THE SECOND PASS'S TAIL at pillar q and unit u: the largest activation over the pillar's 32 points. -/
theorem max_tail_apply (v145 : FVec Ideal S800x32x64 .f32) (v146 v149 v152 v155 : Vec Ideal S1x64 .f32)
    (q : Fin 800) (u : Fin 64) :
    k1_pay1 (F := Ideal) (k1_pay15 v145 (k1_pay11 v146) (k1_pay12 v149) (k1_pay13 v152) (k1_pay14 v155))
        (k1_pay16 v145 (k1_pay11 v146) (k1_pay12 v149) (k1_pay13 v152) (k1_pay14 v155)) (ix2 q u)
      = Finset.univ.sup fun n : Fin 32 => Cert.Pfn.act (v146 (ix2 0 u)) (v149 (ix2 0 u)) (v152 (ix2 0 u))
          (v155 (ix2 0 u)) (v145 (ix3 q n u)) := by
  refine (pay1_apply _ _ q u).trans ?_
  rw [pay16_apply]
  refine (sup_fin32 _).symm.trans ?_
  exact Finset.sup_congr rfl fun n _ => pay15_apply v145 v146 v149 v152 v155 q n u

end Cert.Pfn.KernelFeat
-- ==== Proof.KernelValue.lean ====
/-
  The idealized kernel's result array is the specification's.

  The first region leaves, for every unit, the sum and the sum of squares of the linear layer's output over
  all 40000 x 32 rows; the host turns them into the mean and (mean of squares - squared mean); the second
  region recomputes the linear layer tile by tile, normalises with those two rows and the scale and shift
  rows, takes the positive part and the largest value over each pillar's 32 points. Entry by entry that is
  `outK` of the argument arrays.
-/
import proofs.«164892_j446676599108_2_alg».proof.Proof.Gen.KernelIdeal.Frame
import proofs.«164892_j446676599108_2_alg».proof.Proof.Spec
import Idealize.ShloMosaic.Lib.Pipeline.Value
import Idealize.ShloMosaic.Lib.StableHlo.Run
import Idealize.ShloMosaic.Lib.ValueIdx
import Idealize.ShloMosaic.Lib.Tactic
import proofs.«164892_j446676599108_2_alg».proof.Proof.KernelRun
import proofs.«164892_j446676599108_2_alg».proof.Proof.Boundary
import proofs.«164892_j446676599108_2_alg».proof.Proof.StatsValue
import proofs.«164892_j446676599108_2_alg».proof.Proof.FinalArray
import proofs.«164892_j446676599108_2_alg».proof.Proof.KernelMaxTail
import Idealize.ShloMosaic.Lib.ValueLayout
set_option maxRecDepth 16384

noncomputable section

namespace Cert.Pfn.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

open Cert.Pfn.Blocks Cert.Pfn.KernelFeat Cert.Pfn.Boundary Cert.Pfn.Stats Cert.Pfn.Final
open scoped BigOperators

/-- The argument arrays as launched, on core `c`. -/
abbrev argA (c : Dev nD) := m ((c : Thread nD τ).loc main_arg0)
abbrev argN (c : Dev nD) := m ((c : Thread nD τ).loc main_arg1)
abbrev argC (c : Dev nD) := m ((c : Thread nD τ).loc main_arg2)
abbrev argW (c : Dev nD) := m ((c : Thread nD τ).loc main_arg3)
abbrev argG (c : Dev nD) := m ((c : Thread nD τ).loc main_arg4)
abbrev argB (c : Dev nD) := m ((c : Thread nD τ).loc main_arg5)

/-- The linear layer's output as a function of the launched arrays. -/
abbrev Xm (c : Dev nD) : Fin 40000 → Fin 32 → Fin 64 → EReal := X (argA m c) (argN m c) (argC m c) (argW m c)

/-- A vector viewed as a column reads, at row p, its entry p. -/
theorem col_apply {α : Type} (x : S40000.Idx → α) (p : Fin 40000) :
    shapeCast S40000x1 x shapeCasts_S40000_S40000x1 (ix2 p 0) = x (ix1 p) :=
  shapeCast_apply x shapeCasts_S40000_S40000x1 _ _ (by
    rw [Shape.rowMajor_val_two, Shape.rowMajor_val_one]
    show p.val = p.val * 1 + 0
    omega)

/-- A vector viewed as a row reads, at column u, its entry u. -/
theorem row_apply {α : Type} (x : S64.Idx → α) (u : Fin 64) :
    shapeCast S1x64 x shapeCasts_S64_S1x64 (ix2 0 u) = x (ix1 u) :=
  shapeCast_a_1a_apply x shapeCasts_S64_S1x64 0 u

/-! ## The first region's arrays are the launched arguments -/

theorem XV_V1 (c : Dev nD) (p : Fin 40000) (n : Fin 32) (u : Fin 64) : XV (V1 m ρ) c p n u = Xm m c p n u := by
  unfold XV
  rw [V1_arg0 m ρ c, V1_arg2 m ρ c, V1_arg3 m ρ c,
    show V1 m ρ c main_v0 (ix2 p 0) = argN m c (ix1 p) from (congrFun (V1_v0 m ρ c) (ix2 p 0)).trans (col_apply _ p)]
  rfl

/-- The number of rows as the host broadcasts it, at any unit. -/
theorem countRow_apply (j : S1x64.Idx) : countRow (F := Ideal) j = cCount := rfl

/-- The mean row the second region reads. -/
theorem mean_apply (c : Dev nD) (u : Fin 64) : V3 m ρ c main_v5 (ix2 0 u) = mean (Xm m c) u := by
  rw [congrFun (V3_v5 m ρ c) (ix2 0 u)]
  show Ideal.div ((dat0 (V1 m ρ) c).arrAt 4 cfg0.N (ix2 0 u)) (countRow (F := Ideal) (ix2 0 u)) = _
  rw [final4_apply, countRow_apply]
  simp only [XV_V1 m ρ c]
  rfl

/-- The variance row the second region reads. -/
theorem var_apply (c : Dev nD) (u : Fin 64) : V3 m ρ c main_v9 (ix2 0 u) = varK (Xm m c) u := by
  rw [congrFun (V3_v9 m ρ c) (ix2 0 u)]
  show Ideal.div ((dat0 (V1 m ρ) c).arrAt 5 cfg0.N (ix2 0 u)) (countRow (F := Ideal) (ix2 0 u))
      - Ideal.div ((dat0 (V1 m ρ) c).arrAt 4 cfg0.N (ix2 0 u)) (countRow (F := Ideal) (ix2 0 u))
        * Ideal.div ((dat0 (V1 m ρ) c).arrAt 4 cfg0.N (ix2 0 u)) (countRow (F := Ideal) (ix2 0 u)) = _
  rw [final4_apply, final5_apply, countRow_apply]
  simp only [XV_V1 m ρ c]
  rfl

theorem scale_apply (c : Dev nD) (u : Fin 64) : V3 m ρ c main_v1 (ix2 0 u) = argG m c (ix1 u) :=
  (congrFun (V3_v1 m ρ c) (ix2 0 u)).trans (row_apply _ u)

theorem shift_apply (c : Dev nD) (u : Fin 64) : V3 m ρ c main_v2 (ix2 0 u) = argB m c (ix1 u) :=
  (congrFun (V3_v2 m ρ c) (ix2 0 u)).trans (row_apply _ u)

/-! ## The second region's blocks -/

/-- The tile's linear-layer output at (q, n, u) is the whole array's at pillar 800 t + q. -/
theorem lin1_tile (c : Dev nD) (t : Fin cfg1.N) (q : Fin 800) (n : Fin 32) (u : Fin 64) :
    lin1 (F := Ideal) (iblk1 (V3 m ρ) c 0 t) (iblk1 (V3 m ρ) c 1 t) (iblk1 (V3 m ρ) c 2 t) (iblk1 (V3 m ρ) c 3 t) (ix3 q n u)
      = Xm m c (row1 t q) n u := by
  refine (lin1_apply (iblk1 (V3 m ρ) c 0 t) (iblk1 (V3 m ρ) c 1 t) (iblk1 (V3 m ρ) c 2 t) (iblk1 (V3 m ρ) c 3 t) q n u).trans ?_
  simp only [iblk1_feat (V3 m ρ) c t, iblk1_cnt (V3 m ρ) c t, iblk1_coor (V3 m ρ) c t, iblk1_w (V3 m ρ) c t]
  rw [V3_arg0 m ρ c, V3_arg2 m ρ c, V3_arg3 m ρ c,
    show V3 m ρ c main_v0 (ix2 (row1 t q) 0) = argN m c (ix1 (row1 t q)) from
      (congrFun (V3_v0 m ρ c) (ix2 (row1 t q) 0)).trans (col_apply _ (row1 t q))]
  rfl

/-- What the body leaves at (q, u) of point `t`'s output block is the specification at row 800 t + q. -/
theorem block_eq (c : Dev nD) (t : Fin cfg1.N) (q : Fin 800) (u : Fin 64) :
    out1_8 (F := Ideal) (iblk1 (V3 m ρ) c 0 t) (iblk1 (V3 m ρ) c 1 t) (iblk1 (V3 m ρ) c 2 t) (iblk1 (V3 m ρ) c 3 t)
        (iblk1 (V3 m ρ) c 4 t) (iblk1 (V3 m ρ) c 5 t) (iblk1 (V3 m ρ) c 6 t) (iblk1 (V3 m ρ) c 7 t) (ix2 q u)
      = outK (argA m c) (argN m c) (argC m c) (argW m c) (argG m c) (argB m c) (ix2 (row1 t q) u) := by
  rw [out1_8_eq]
  refine (max_tail_apply (lin1 (iblk1 (V3 m ρ) c 0 t) (iblk1 (V3 m ρ) c 1 t) (iblk1 (V3 m ρ) c 2 t) (iblk1 (V3 m ρ) c 3 t))
    (iblk1 (V3 m ρ) c 4 t) (iblk1 (V3 m ρ) c 5 t) (iblk1 (V3 m ρ) c 6 t) (iblk1 (V3 m ρ) c 7 t) q u).trans ?_
  rw [iblk1_mean (V3 m ρ) c t u, iblk1_var (V3 m ρ) c t u, iblk1_scale (V3 m ρ) c t u, iblk1_shift (V3 m ρ) c t u,
    mean_apply, var_apply, scale_apply, shift_apply]
  show _ = Finset.univ.sup fun n : Fin 32 => act (mean (Xm m c) u) (varK (Xm m c) u) (argG m c (ix1 u)) (argB m c (ix1 u)) (Xm m c (row1 t q) n u)
  exact Finset.sup_congr rfl fun n _ => by rw [lin1_tile]

/-- The result array after the run. -/
theorem result_eq (c : Dev nD) :
    W4 m ρ c (Proc.devRef .tc main_v10) = outK (argA m c) (argN m c) (argC m c) (argW m c) (argG m c) (argB m c) :=
  (W4_arr m ρ c 8).trans (final8 (V3 m ρ) _ c (block_eq m ρ c))

/-- THE KERNEL'S RUN: every weakly fair execution terminates without a fault, the result array ends at the
    specification of the launched arguments, and the arguments are unchanged. -/
theorem run : θ_run defs (onTc (τ := τ) (main (F := Ideal))) ⟨m, fun _ => 0, ρ⟩ (fun r => ∀ c : Dev nD,
      r.2.mem ((c.tc : Thread nD τ).loc main_v10) = outK (argA m c) (argN m c) (argC m c) (argW m c) (argG m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.Pfn.KRun.run_value m ρ)

end Cert.Pfn.KValue

end
-- ==== Proof.RefLinear.lean ====
/-
  The reference's linear layer, read at an index.

  The reference computes, per pillar p and point n, nine channels: the four raw ones; x, y, z less the
  pillar's mean point (the sum of the channel over the pillar's 32 points, divided by the count word read as
  a signed integer); x and y less the grid centre of the pillar's cell (the coordinate word times the cell
  size plus the offset of the first centre). It multiplies each channel by the mask of the point (1 while
  the point's number is below the count, compared as signed words, else 0) and contracts the nine masked
  channels against the 9 x 64 weights.

  This module follows that computation one stage at a time and shows that the contraction's value at
  (p, n, u) is the specification's `X`:  X p n u = ∑ c : Fin 9, (raw channel c · mask) · W c u.
  The sum over the points starts from the zero word, which is the real 0; the three other float words are
  never evaluated, both sides carry the same ones. The two joins along the channel axis are read piece by
  piece: channels 0..3, 4..6 and 7..8 of the nine, channels 0 and 1 of the centre pair.
-/
import proofs.«164892_j446676599108_2_alg».proof.Proof.Spec
import proofs.«164892_j446676599108_2_alg».proof.Proof.Gen.ReferenceIdeal.Read

noncomputable section

open scoped BigOperators

namespace Cert.Pfn.Ref

open Cert.ReferenceIdeal Cert.ReferenceIdeal.Gen Cert.ReferenceIdeal.Read
open Idealize.ShloMosaic Idealize.ShloMosaic.ValueIdx

abbrev A0 := (⟨S40000x32x4, .f32⟩ : BufTy).Contents (Elt Ideal)
abbrev A1 := (⟨S40000, .i32⟩ : BufTy).Contents (Elt Ideal)
abbrev A2 := (⟨S40000x4, .i32⟩ : BufTy).Contents (Elt Ideal)
abbrev A3 := (⟨S9x64, .f32⟩ : BufTy).Contents (Elt Ideal)

/-- A channel below 3 as a channel below 4. -/
abbrev up (c : Fin 3) : Fin 4 := ⟨c.val, by omega⟩

/-- The sum over a pillar's 32 points of one of the first three channels. -/
theorem v3_at (x0 : A0) (p : Fin 40000) (c : Fin 3) :
    val_main_v3 (F := Ideal) x0 (ix2 p c) = ∑ k : Fin 32, x0 (ix3 p k (up c)) := by
  rw [val_main_v3_apply, val_main_cst_apply, Ideal.ofBits_def, Ideal.ofBits_zero_f32, zero_add]
  refine Finset.sum_congr rfl fun k _ => ?_
  rw [val_main_v2_apply]
  exact congrArg x0 (funext fun a => Fin.ext (by match a with | ⟨0, _⟩ => rfl | ⟨1, _⟩ => rfl | ⟨2, _⟩ => rfl))

/-- The pillar's mean point: the sum over the points divided by the count as a float. -/
theorem v6_at (x0 : A0) (x1 : A1) (p : Fin 40000) (c : Fin 3) :
    val_main_v6 (F := Ideal) x0 x1 (ix3 p 0 c)
      = Ideal.div (∑ k : Fin 32, x0 (ix3 p k (up c))) (ofInt (x1 (ix1 p))) := by
  rw [val_main_v6_apply, Ideal.hostDivf_def, val_main_v4_apply, val_main_v5_apply, val_main_v1_apply,
    val_main_v0_apply]
  refine congrArg₂ Ideal.div ((congrArg (val_main_v3 (F := Ideal) x0) ?_).trans (v3_at x0 p c)) ?_
  · exact funext fun a => Fin.ext (by match a with | ⟨0, _⟩ => rfl | ⟨1, _⟩ => rfl)
  · exact congrArg (fun j => ofInt (x1 j)) (funext fun a => Fin.ext (by match a with | ⟨0, _⟩ => rfl))

/-- The offset of one of the first three channels from the pillar's mean point. -/
theorem v9_at (x0 : A0) (x1 : A1) (p : Fin 40000) (n : Fin 32) (c : Fin 3) :
    val_main_v9 (F := Ideal) x0 x1 (ix3 p n c)
      = x0 (ix3 p n (up c)) - Ideal.div (∑ k : Fin 32, x0 (ix3 p k (up c))) (ofInt (x1 (ix1 p))) := by
  rw [val_main_v9_apply, Ideal.subf_def, val_main_v7_apply, val_main_v8_apply]
  refine congrArg₂ (· - ·) (congrArg x0 ?_) ((congrArg (val_main_v6 (F := Ideal) x0 x1) ?_).trans (v6_at x0 x1 p c))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The offset of the x channel from the grid centre of the pillar's cell (column word of the coordinates). -/
theorem v21_at (x0 : A0) (x2 : A2) (p : Fin 40000) (n : Fin 32) :
    val_main_v21 (F := Ideal) x0 x2 (ix2 p n)
      = x0 (ix3 p n 0) - (ofInt (x2 (ix2 p 3)) * cStep + cOffX) := by
  rw [val_main_v21_apply, Ideal.subf_def, val_main_v11_apply, val_main_v10_apply, val_main_v20_apply,
    val_main_v19_apply, Ideal.addf_def, val_main_v17_apply, Ideal.mulf_def, val_main_v15_apply,
    val_main_v14_apply, val_main_v13_apply, val_main_v12_apply, val_main_v16_apply, val_main_cst_0_apply,
    val_main_v18_apply, val_main_cst_1_apply, Ideal.ofBits_def, Ideal.ofBits_def]
  have hn := n.isLt
  have hp := p.isLt
  refine congrArg₂ (· - ·) (congrArg x0 ?_)
    (congrArg (fun j => ofInt (x2 j) * cStep + cOffX) ?_)
  · exact funext fun a => Fin.ext (by
      match a with
      | ⟨0, _⟩ => show (p.val * 32 + n.val) / 32 = p.val; omega
      | ⟨1, _⟩ => show (p.val * 32 + n.val) / 1 % 32 = n.val; omega
      | ⟨2, _⟩ => rfl)
  · exact funext fun a => Fin.ext (by
      match a with
      | ⟨0, _⟩ => show p.val / 1 = p.val; omega
      | ⟨1, _⟩ => rfl)

/-- The offset of the y channel from the grid centre of the pillar's cell (row word of the coordinates). -/
theorem v33_at (x0 : A0) (x2 : A2) (p : Fin 40000) (n : Fin 32) :
    val_main_v33 (F := Ideal) x0 x2 (ix2 p n)
      = x0 (ix3 p n 1) - (ofInt (x2 (ix2 p 2)) * cStep + cOffY) := by
  rw [val_main_v33_apply, Ideal.subf_def, val_main_v23_apply, val_main_v22_apply, val_main_v32_apply,
    val_main_v31_apply, Ideal.addf_def, val_main_v29_apply, Ideal.mulf_def, val_main_v27_apply,
    val_main_v26_apply, val_main_v25_apply, val_main_v24_apply, val_main_v28_apply, val_main_cst_2_apply,
    val_main_v30_apply, val_main_cst_3_apply, Ideal.ofBits_def, Ideal.ofBits_def]
  have hn := n.isLt
  have hp := p.isLt
  refine congrArg₂ (· - ·) (congrArg x0 ?_)
    (congrArg (fun j => ofInt (x2 j) * cStep + cOffY) ?_)
  · exact funext fun a => Fin.ext (by
      match a with
      | ⟨0, _⟩ => show (p.val * 32 + n.val) / 32 = p.val; omega
      | ⟨1, _⟩ => show (p.val * 32 + n.val) / 1 % 32 = n.val; omega
      | ⟨2, _⟩ => rfl)
  · exact funext fun a => Fin.ext (by
      match a with
      | ⟨0, _⟩ => show p.val / 1 = p.val; omega
      | ⟨1, _⟩ => rfl)

/-- The two centre offsets joined along the channel axis: channel 0 is the x offset. -/
theorem v36_at0 (x0 : A0) (x2 : A2) (p : Fin 40000) (n : Fin 32) :
    val_main_v36 (F := Ideal) x0 x2 (ix3 p n 0)
      = x0 (ix3 p n 0) - (ofInt (x2 (ix2 p 3)) * cStep + cOffX) := by
  unfold val_main_v36
  refine (concatenate_pair_apply_left (t := S40000x32x2) (s₁ := S40000x32x1) (s₂ := S40000x32x1) 2
    (val_main_v34 (F := Ideal) x0 x2) (val_main_v35 (F := Ideal) x0 x2)
    concatenates_S40000x32x1_S40000x32x1_S40000x32x2_d2 (ix3 p n 0) rfl (ix3 p n 0)
    (fun b => by match b with | ⟨0, _⟩ => rfl | ⟨1, _⟩ => rfl | ⟨2, _⟩ => rfl)).trans ?_
  rw [val_main_v34_apply]
  exact (congrArg (val_main_v21 (F := Ideal) x0 x2)
    (funext fun a => Fin.ext (by match a with | ⟨0, _⟩ => rfl | ⟨1, _⟩ => rfl))).trans (v21_at x0 x2 p n)

/-- Channel 1 of the joined pair is the y offset. -/
theorem v36_at1 (x0 : A0) (x2 : A2) (p : Fin 40000) (n : Fin 32) :
    val_main_v36 (F := Ideal) x0 x2 (ix3 p n 1)
      = x0 (ix3 p n 1) - (ofInt (x2 (ix2 p 2)) * cStep + cOffY) := by
  unfold val_main_v36
  refine (concatenate_pair_apply_right (t := S40000x32x2) (s₁ := S40000x32x1) (s₂ := S40000x32x1) 2
    (val_main_v34 (F := Ideal) x0 x2) (val_main_v35 (F := Ideal) x0 x2)
    concatenates_S40000x32x1_S40000x32x1_S40000x32x2_d2 (ix3 p n 1) rfl rfl (ix3 p n 0)
    (fun b hb => by
      match b, hb with
      | ⟨0, _⟩, _ => rfl
      | ⟨1, _⟩, _ => rfl
      | ⟨2, _⟩, hb => exact absurd rfl hb) rfl).trans ?_
  rw [val_main_v35_apply]
  exact (congrArg (val_main_v33 (F := Ideal) x0 x2)
    (funext fun a => Fin.ext (by match a with | ⟨0, _⟩ => rfl | ⟨1, _⟩ => rfl))).trans (v33_at x0 x2 p n)

/-- The three pieces of the 9-channel array, in order along the channel axis. -/
abbrev pieces (x0 : A0) (x1 : A1) (x2 : A2) : List ((s : Shape) × (s.Idx → EReal)) :=
  [⟨S40000x32x4, x0⟩, ⟨S40000x32x3, val_main_v9 (F := Ideal) x0 x1⟩, ⟨S40000x32x2, val_main_v36 (F := Ideal) x0 x2⟩]

/-- Channels 0..3 of the decorated point are the raw channels. -/
theorem v37_lo (x0 : A0) (x1 : A1) (x2 : A2) (p : Fin 40000) (n : Fin 32) (c : Fin 9) (h : c.val < 4) :
    val_main_v37 (F := Ideal) x0 x1 x2 (ix3 p n c) = x0 (ix3 p n ⟨c.val, h⟩) := by
  unfold val_main_v37
  exact concatenate_apply_piece (t := S40000x32x9) 2 (pieces x0 x1 x2)
    concatenates_S40000x32x4_S40000x32x3_S40000x32x2_S40000x32x9_d2 (ix3 p n c)
    0 (show (0 : Nat) < 3 by omega) S40000x32x4 x0 rfl rfl 0 rfl (ix3 p n ⟨c.val, h⟩)
    (fun b hb => by
      match b, hb with
      | ⟨0, _⟩, _ => rfl
      | ⟨1, _⟩, _ => rfl
      | ⟨2, _⟩, hb => exact absurd rfl hb)
    (by show 0 + c.val = c.val; omega)

/-- Channels 4..6 are the offsets from the pillar's mean point. -/
theorem v37_mid (x0 : A0) (x1 : A1) (x2 : A2) (p : Fin 40000) (n : Fin 32) (c : Fin 9)
    (h4 : 4 ≤ c.val) (h7 : c.val < 7) :
    val_main_v37 (F := Ideal) x0 x1 x2 (ix3 p n c)
      = val_main_v9 (F := Ideal) x0 x1 (ix3 p n (⟨c.val - 4, by omega⟩ : Fin 3)) := by
  unfold val_main_v37
  exact concatenate_apply_piece (t := S40000x32x9) 2 (pieces x0 x1 x2)
    concatenates_S40000x32x4_S40000x32x3_S40000x32x2_S40000x32x9_d2 (ix3 p n c)
    1 (show (1 : Nat) < 3 by omega) S40000x32x3 (val_main_v9 (F := Ideal) x0 x1) rfl rfl 4 rfl
    (ix3 p n (⟨c.val - 4, by omega⟩ : Fin 3))
    (fun b hb => by
      match b, hb with
      | ⟨0, _⟩, _ => rfl
      | ⟨1, _⟩, _ => rfl
      | ⟨2, _⟩, hb => exact absurd rfl hb)
    (by show 4 + (c.val - 4) = c.val; omega)

/-- Channels 7 and 8 are the offsets from the grid centre. -/
theorem v37_hi (x0 : A0) (x1 : A1) (x2 : A2) (p : Fin 40000) (n : Fin 32) (c : Fin 9) (h7 : 7 ≤ c.val) :
    val_main_v37 (F := Ideal) x0 x1 x2 (ix3 p n c)
      = val_main_v36 (F := Ideal) x0 x2 (ix3 p n (⟨c.val - 7, by omega⟩ : Fin 2)) := by
  unfold val_main_v37
  exact concatenate_apply_piece (t := S40000x32x9) 2 (pieces x0 x1 x2)
    concatenates_S40000x32x4_S40000x32x3_S40000x32x2_S40000x32x9_d2 (ix3 p n c)
    2 (show (2 : Nat) < 3 by omega) S40000x32x2 (val_main_v36 (F := Ideal) x0 x2) rfl rfl 7 rfl
    (ix3 p n (⟨c.val - 7, by omega⟩ : Fin 2))
    (fun b hb => by
      match b, hb with
      | ⟨0, _⟩, _ => rfl
      | ⟨1, _⟩, _ => rfl
      | ⟨2, _⟩, hb => exact absurd rfl hb)
    (by show 7 + (c.val - 7) = c.val; omega)

/-- The 9 decorated channels of a point, before masking. -/
theorem v37_at (x0 : A0) (x1 : A1) (x2 : A2) (p : Fin 40000) (n : Fin 32) (c : Fin 9) :
    val_main_v37 (F := Ideal) x0 x1 x2 (ix3 p n c)
      = raw (fun k d => x0 (ix3 p k d)) (x1 (ix1 p)) (x2 (ix2 p 3)) (x2 (ix2 p 2)) n c := by
  unfold raw
  by_cases h4 : c.val < 4
  · rw [dif_pos h4]
    exact v37_lo x0 x1 x2 p n c h4
  · rw [dif_neg h4]
    by_cases h7 : c.val < 7
    · rw [dif_pos h7]
      exact (v37_mid x0 x1 x2 p n c (by omega) h7).trans (v9_at x0 x1 p n _)
    · rw [dif_neg h7]
      by_cases h : c.val = 7
      · rw [if_pos h]
        obtain rfl : c = 7 := Fin.ext h
        exact (v37_hi x0 x1 x2 p n 7 (by decide)).trans (v36_at0 x0 x2 p n)
      · rw [if_neg h]
        obtain rfl : c = 8 := Fin.ext (by have := c.isLt; show c.val = 8; omega)
        exact (v37_hi x0 x1 x2 p n 8 (by decide)).trans (v36_at1 x0 x2 p n)

/-- The mask of a point: 1 while the point's number is below the pillar's count, else 0. -/
theorem v46_at (x1 : A1) (p : Fin 40000) (n : Fin 32) (c : Fin 9) :
    val_main_v46 (F := Ideal) x1 (ix3 p n c) = maskv (x1 (ix1 p)) n := by
  rw [val_main_v46_apply, val_main_v45_apply, val_main_v44_apply, val_main_v43_apply, val_main_v41_apply,
    val_main_v39_apply, val_main_v38_apply, val_main_v42_apply, val_main_v40_apply]
  exact congrArg (fun j => maskv (x1 j) n) (funext fun a => Fin.ext (by match a with | ⟨0, _⟩ => rfl))

/-- The masked channels. -/
theorem v47_at (x0 : A0) (x1 : A1) (x2 : A2) (p : Fin 40000) (n : Fin 32) (c : Fin 9) :
    val_main_v47 (F := Ideal) x0 x1 x2 (ix3 p n c)
      = feat (fun k d => x0 (ix3 p k d)) (x1 (ix1 p)) (x2 (ix2 p 3)) (x2 (ix2 p 2)) n c := by
  rw [val_main_v47_apply, Ideal.mulf_def, v37_at, v46_at]
  rfl

/-- The linear layer of the reference, read at pillar p, point n, unit u. -/
theorem v48_apply (x0 : (⟨S40000x32x4, .f32⟩ : BufTy).Contents (Elt Ideal))
    (x1 : (⟨S40000, .i32⟩ : BufTy).Contents (Elt Ideal)) (x2 : (⟨S40000x4, .i32⟩ : BufTy).Contents (Elt Ideal))
    (x3 : (⟨S9x64, .f32⟩ : BufTy).Contents (Elt Ideal)) (p : Fin 40000) (n : Fin 32) (u : Fin 64) :
    val_main_v48 (F := Ideal) x0 x1 x2 x3 (ix3 p n u) = Cert.Pfn.X x0 x1 x2 x3 p n u := by
  rw [val_main_v48_apply]
  unfold X pillarX
  refine Finset.sum_congr rfl fun c _ => ?_
  refine congrArg₂ (· * ·)
    ((congrArg (val_main_v47 (F := Ideal) x0 x1 x2) ?_).trans (v47_at x0 x1 x2 p n c)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end Cert.Pfn.Ref

end
-- ==== Proof.RefTail.lean ====
/-
  The tail of the reference program, from the linear layer's output to the result: the mean and the variance of every
  unit over all pillars and points, the normalised, scaled and shifted value, its positive part, and the largest value
  over a pillar's points. Each stage is read at an index given by coordinates, over ANY family `Xf` that the linear
  layer's output agrees with, and the result is the specification's `outRX Xf`.

  Two facts carry the reading. A float sum over the two leading axes of an [a, b, c] array, at unit `u`, is the
  initial value plus the double sum over the two leading coordinates. The fold of `max` from the bottom element over a
  finite index type is the supremum over it.
-/
import proofs.«164892_j446676599108_2_alg».proof.Proof.Spec
import proofs.«164892_j446676599108_2_alg».proof.Proof.Gen.ReferenceIdeal.Read
import proofs.«164892_j446676599108_2_alg».proof.Proof.LibColumnReads
import Idealize.ShloMosaic.Lib.IdealHost

noncomputable section

open scoped BigOperators

namespace Cert.Pfn.Ref

open Cert.ReferenceIdeal Cert.ReferenceIdeal.Gen Cert.ReferenceIdeal.Read Idealize.ShloMosaic Idealize.ShloMosaic.ValueIdx

/-! ## A sum over the two leading axes -/

/-- Dropping the two leading axes of an `[a, b, c]` index leaves its last coordinate. -/
theorem drop_lead2_eq_iff {a b c : ℕ} (h : (⟨3, ![a, b, c]⟩ : Shape).ReducesTo [0, 1] (⟨1, ![c]⟩ : Shape))
    (i : (⟨3, ![a, b, c]⟩ : Shape).Idx) (u : Fin c) : h.drop i = ix1 u ↔ i 2 = u := by
  have h0 : (h.drop i 0 : ℕ) = (i 2 : ℕ) := rfl
  constructor
  · intro e
    apply Fin.ext
    rw [← h0, e]
    rfl
  · intro e
    rw [eq_ix1 (h.drop i)]
    exact congrArg ix1 (Fin.ext (h0.trans (congrArg Fin.val e)))

/-- The indices of an `[a, b, c]` array whose last coordinate is `u`, summed, are the two leading coordinates, summed. -/
theorem sum_filter_drop_lead2 {M : Type*} [AddCommMonoid M] {a b c : ℕ}
    (h : (⟨3, ![a, b, c]⟩ : Shape).ReducesTo [0, 1] (⟨1, ![c]⟩ : Shape)) (x : (⟨3, ![a, b, c]⟩ : Shape).Idx → M)
    (u : Fin c) :
    ∑ i ∈ Finset.univ.filter (fun i => h.drop i = ix1 u), x i = ∑ p : Fin a, ∑ n : Fin b, x (ix3 p n u) := by
  rw [← Fintype.sum_prod_type' (fun (p : Fin a) (n : Fin b) => x (ix3 p n u))]
  refine Finset.sum_nbij' (fun i => (i 0, i 1)) (fun pn => ix3 pn.1 pn.2 u) ?_ ?_ ?_ ?_ ?_
  · intro i _; exact Finset.mem_univ _
  · intro pn _; exact Finset.mem_filter.2 ⟨Finset.mem_univ _, (drop_lead2_eq_iff h _ u).2 rfl⟩
  · intro i hi
    have e : i 2 = u := (drop_lead2_eq_iff h i u).1 (Finset.mem_filter.1 hi).2
    rw [← e]; exact (eq_ix3 i).symm
  · intro pn _; rfl
  · intro i hi
    have e : i 2 = u := (drop_lead2_eq_iff h i u).1 (Finset.mem_filter.1 hi).2
    exact congrArg x ((eq_ix3 i).trans (congrArg (ix3 (i 0 : Fin a) (i 1 : Fin b)) e))

/-- The host's float sum over the two leading axes of an `[a, b, c]` array, at unit `u`: the initial value plus the
    double sum over the two leading coordinates. -/
theorem hostSumLead2_apply {φ : FTy} {a b c : ℕ} {w : Shape} (x : FVec Ideal ⟨3, ![a, b, c]⟩ φ) (init : FVec Ideal w φ)
    (h : (⟨3, ![a, b, c]⟩ : Shape).ReducesTo [0, 1] (⟨1, ![c]⟩ : Shape)) (hw : 0 < w.numel) (u : Fin c) :
    Host.reduceAdd x init h hw (ix1 u) = init (Shape.Idx.first hw) + ∑ p : Fin a, ∑ n : Fin b, x (ix3 p n u) := by
  rw [hostReduceAdd_apply]
  unfold Ideal.hostReduceAdd
  exact congrArg (fun t => init (Shape.Idx.first hw) + t) (sum_filter_drop_lead2 h x u)

/-! ## The stages, read at an index given by coordinates -/

section Stages

variable (x0 : (⟨S40000x32x4, .f32⟩ : BufTy).Contents (Elt Ideal)) (x1 : (⟨S40000, .i32⟩ : BufTy).Contents (Elt Ideal))
  (x2 : (⟨S40000x4, .i32⟩ : BufTy).Contents (Elt Ideal)) (x3 : (⟨S9x64, .f32⟩ : BufTy).Contents (Elt Ideal))
  (x4 x5 : (⟨S64, .f32⟩ : BufTy).Contents (Elt Ideal)) (Xf : Fin 40000 → Fin 32 → Fin 64 → EReal)

/-- The sum of unit `u` over all pillars and points: the initial word is zero. -/
theorem v49_apply (hX : ∀ p n u, val_main_v48 (F := Ideal) x0 x1 x2 x3 (ix3 p n u) = Xf p n u) (u : Fin 64) :
    val_main_v49 (F := Ideal) x0 x1 x2 x3 (ix1 u) = sum1 Xf u := by
  unfold val_main_v49
  refine (hostSumLead2_apply (val_main_v48 (F := Ideal) x0 x1 x2 x3) (val_main_cst_4 (F := Ideal))
    reducesTo_S40000x32x64_S64_d0_1 h_S_ u).trans ?_
  rw [val_main_cst_4_apply]
  show Ideal.ofBits .f32 0x00000000#32 + _ = _
  rw [Ideal.ofBits_zero_f32, zero_add]
  exact Finset.sum_congr rfl fun p _ => Finset.sum_congr rfl fun n _ => hX p n u

/-- The mean of unit `u`: the sum divided by the number of rows. -/
theorem v51_apply (hX : ∀ p n u, val_main_v48 (F := Ideal) x0 x1 x2 x3 (ix3 p n u) = Xf p n u) (u : Fin 64) :
    val_main_v51 (F := Ideal) x0 x1 x2 x3 (ix1 u) = mean Xf u := by
  rw [val_main_v51_apply, val_main_v50_apply, val_main_cst_5_apply, v49_apply x0 x1 x2 x3 Xf hX u]
  rfl

/-- The mean, copied to every pillar and point (the copy that the deviations for the variance subtract). -/
theorem v53_apply (hX : ∀ p n u, val_main_v48 (F := Ideal) x0 x1 x2 x3 (ix3 p n u) = Xf p n u)
    (p : Fin 40000) (n : Fin 32) (u : Fin 64) :
    val_main_v53 (F := Ideal) x0 x1 x2 x3 (ix3 p n u) = mean Xf u := by
  have e : idx_main_v52 (idx_main_v53 (ix3 p n u)) = ix1 u := by funext a; match a with | ⟨0, _⟩ => rfl
  rw [val_main_v53_apply, val_main_v52_apply, e]
  exact v51_apply x0 x1 x2 x3 Xf hX u

/-- The mean, copied to every pillar and point (the copy that the normalisation subtracts). -/
theorem v60_apply (hX : ∀ p n u, val_main_v48 (F := Ideal) x0 x1 x2 x3 (ix3 p n u) = Xf p n u)
    (p : Fin 40000) (n : Fin 32) (u : Fin 64) :
    val_main_v60 (F := Ideal) x0 x1 x2 x3 (ix3 p n u) = mean Xf u := by
  have e : idx_main_v59 (idx_main_v60 (ix3 p n u)) = ix1 u := by funext a; match a with | ⟨0, _⟩ => rfl
  rw [val_main_v60_apply, val_main_v59_apply, e]
  exact v51_apply x0 x1 x2 x3 Xf hX u

/-- The squared deviation from the mean. -/
theorem v55_apply (hX : ∀ p n u, val_main_v48 (F := Ideal) x0 x1 x2 x3 (ix3 p n u) = Xf p n u)
    (p : Fin 40000) (n : Fin 32) (u : Fin 64) :
    val_main_v55 (F := Ideal) x0 x1 x2 x3 (ix3 p n u) = (Xf p n u - mean Xf u) * (Xf p n u - mean Xf u) := by
  rw [val_main_v55_apply, val_main_v54_apply, v53_apply x0 x1 x2 x3 Xf hX p n u, hX p n u]
  rfl

/-- The variance of unit `u`: the mean of the squared deviations. -/
theorem v58_apply (hX : ∀ p n u, val_main_v48 (F := Ideal) x0 x1 x2 x3 (ix3 p n u) = Xf p n u) (u : Fin 64) :
    val_main_v58 (F := Ideal) x0 x1 x2 x3 (ix1 u) = varR Xf u := by
  have h56 : val_main_v56 (F := Ideal) x0 x1 x2 x3 (ix1 u)
      = ∑ p : Fin 40000, ∑ n : Fin 32, (Xf p n u - mean Xf u) * (Xf p n u - mean Xf u) := by
    unfold val_main_v56
    refine (hostSumLead2_apply (val_main_v55 (F := Ideal) x0 x1 x2 x3) (val_main_cst_6 (F := Ideal))
      reducesTo_S40000x32x64_S64_d0_1 h_S_ u).trans ?_
    rw [val_main_cst_6_apply]
    show Ideal.ofBits .f32 0x00000000#32 + _ = _
    rw [Ideal.ofBits_zero_f32, zero_add]
    exact Finset.sum_congr rfl fun p _ => Finset.sum_congr rfl fun n _ => v55_apply x0 x1 x2 x3 Xf hX p n u
  rw [val_main_v58_apply, val_main_v57_apply, val_main_cst_7_apply, h56]
  rfl

/-- The reciprocal square root of the variance plus the small constant. -/
theorem v64_apply (hX : ∀ p n u, val_main_v48 (F := Ideal) x0 x1 x2 x3 (ix3 p n u) = Xf p n u) (u : Fin 64) :
    val_main_v64 (F := Ideal) x0 x1 x2 x3 (ix1 u) = Ideal.rsqrt (varR Xf u + cEps) := by
  rw [val_main_v64_apply, val_main_v63_apply, val_main_v62_apply, val_main_cst_8_apply,
    v58_apply x0 x1 x2 x3 Xf hX u]
  rfl

/-- The normalised, scaled and shifted value, and its positive part. -/
theorem v74_apply (hX : ∀ p n u, val_main_v48 (F := Ideal) x0 x1 x2 x3 (ix3 p n u) = Xf p n u)
    (p : Fin 40000) (n : Fin 32) (u : Fin 64) :
    val_main_v74 (F := Ideal) x0 x1 x2 x3 x4 x5 (ix3 p n u)
      = act (mean Xf u) (varR Xf u) (x4 (ix1 u)) (x5 (ix1 u)) (Xf p n u) := by
  have e66 : idx_main_v65 (idx_main_v66 (ix3 p n u)) = ix1 u := by funext a; match a with | ⟨0, _⟩ => rfl
  have e69 : idx_main_v68 (idx_main_v69 (ix3 p n u)) = ix1 u := by funext a; match a with | ⟨0, _⟩ => rfl
  have e72 : idx_main_v71 (idx_main_v72 (ix3 p n u)) = ix1 u := by funext a; match a with | ⟨0, _⟩ => rfl
  rw [val_main_v74_apply, val_main_call0_v0_apply, val_main_call0_cst_apply, val_main_v73_apply,
    val_main_v72_apply, val_main_v71_apply, e72, val_main_v70_apply, val_main_v69_apply, val_main_v68_apply, e69,
    val_main_v67_apply, val_main_v66_apply, val_main_v65_apply, e66, v64_apply x0 x1 x2 x3 Xf hX u,
    val_main_v61_apply, v60_apply x0 x1 x2 x3 Xf hX p n u, hX p n u]
  show max ((Xf p n u - mean Xf u) * Ideal.rsqrt (varR Xf u + cEps) * x4 (ix1 u) + x5 (ix1 u))
    (Ideal.ofBits .f32 0x00000000#32) = _
  rw [Ideal.ofBits_zero_f32]
  rfl

end Stages

/-! ## The largest value over a pillar's points -/

/-- The word of minus infinity is the bottom element of the extended reals. -/
theorem ofBits_neg_inf_f32 : Ideal.ofBits .f32 0xFF800000#32 = ⊥ := by simp [Ideal.ofBits, Ideal.ieee]

/-- The fold of `max` from the bottom element over a finite set is the supremum over it. -/
theorem fold_max_bot_eq_sup {ι : Type*} (s : Finset ι) (f : ι → EReal) : s.fold max ⊥ f = s.sup f := rfl

/-- The shape fact for dropping the middle axis of the activations' shape, in the form that names the source position
    with a point's coordinate put back on that axis. -/
theorem reduces_mid : S40000x32x64.Reduces [1] S40000x64 := by decide

/-- The whole tail: over any family `Xf` that the linear layer's output agrees with, the reference's result is the
    specification's, with the variance as the mean of squared deviations. -/
theorem tail_eq (x0 : (⟨S40000x32x4, .f32⟩ : BufTy).Contents (Elt Ideal)) (x1 : (⟨S40000, .i32⟩ : BufTy).Contents (Elt Ideal))
    (x2 : (⟨S40000x4, .i32⟩ : BufTy).Contents (Elt Ideal)) (x3 : (⟨S9x64, .f32⟩ : BufTy).Contents (Elt Ideal))
    (x4 x5 : (⟨S64, .f32⟩ : BufTy).Contents (Elt Ideal)) (Xf : Fin 40000 → Fin 32 → Fin 64 → EReal)
    (hX : ∀ p n u, val_main_v48 (F := Ideal) x0 x1 x2 x3 (ix3 p n u) = Xf p n u) :
    val_main_v75 (F := Ideal) x0 x1 x2 x3 x4 x5 = Cert.Pfn.outRX Xf x4 x5 := by
  funext i
  obtain ⟨p, u, rfl⟩ : ∃ (p : Fin 40000) (u : Fin 64), i = ix2 p u := ⟨i 0, i 1, eq_ix2 i⟩
  unfold val_main_v75
  refine (Cert.LibColumnReads.hostMidMax_apply (val_main_v74 (F := Ideal) x0 x1 x2 x3 x4 x5)
    (val_main_cst_9 (F := Ideal)) reducesTo_S40000x32x64_S40000x64_d1 reduces_mid h_S_ p u).trans ?_
  rw [val_main_cst_9_apply]
  show Finset.univ.fold max (Ideal.ofBits .f32 0xFF800000#32) _ = _
  rw [ofBits_neg_inf_f32, fold_max_bot_eq_sup]
  show _ = Finset.univ.sup fun n : Fin 32 => act (mean Xf u) (varR Xf u) (x4 (ix1 u)) (x5 (ix1 u)) (Xf p n u)
  exact congrArg (Finset.sup Finset.univ) (funext fun n => v74_apply x0 x1 x2 x3 x4 x5 Xf hX p n u)

end Cert.Pfn.Ref

end
-- ==== Proof.RefValue.lean ====
/-
  The reference's result is the specification's.

  The jnp reference builds the masked 9-channel features of all 40000 pillars at once, applies the linear
  layer, takes each unit's mean and mean of squared deviations over all 40000 x 32 rows, normalises, scales,
  shifts, takes the positive part and the largest value over each pillar's 32 points: `outR` of its arguments.
-/
import proofs.«164892_j446676599108_2_alg».proof.Proof.Spec
import proofs.«164892_j446676599108_2_alg».proof.Proof.RefLinear
import proofs.«164892_j446676599108_2_alg».proof.Proof.RefTail

noncomputable section

namespace Cert.Pfn.Ref

open Cert.ReferenceIdeal Cert.ReferenceIdeal.Read Idealize.ShloMosaic

/-- The reference's last stage, as a function of its six arguments, is `outR`: the linear layer's stage is
    `X` entry by entry, and everything after it is `outRX` of any family the linear layer agrees with. -/
theorem ref_eq (x0 : (⟨S40000x32x4, .f32⟩ : BufTy).Contents (Elt Ideal)) (x1 : (⟨S40000, .i32⟩ : BufTy).Contents (Elt Ideal))
    (x2 : (⟨S40000x4, .i32⟩ : BufTy).Contents (Elt Ideal)) (x3 : (⟨S9x64, .f32⟩ : BufTy).Contents (Elt Ideal))
    (x4 x5 : (⟨S64, .f32⟩ : BufTy).Contents (Elt Ideal)) :
    val_main_v75 (F := Ideal) x0 x1 x2 x3 x4 x5 = Cert.Pfn.outR x0 x1 x2 x3 x4 x5 :=
  tail_eq x0 x1 x2 x3 x4 x5 (Cert.Pfn.X x0 x1 x2 x3) (v48_apply x0 x1 x2 x3)

end Cert.Pfn.Ref

end
-- ==== Proof.LibVarLaw.lean ====
/-
  The variance law over the extended reals.

  For finitely many REAL numbers x_i and n their count, the mean of the squared deviations from the mean,
  (∑ (x_i − (∑ x)/n)²)/n, is the mean of the squares minus the square of the mean, (∑ x_i²)/n − ((∑ x)/n)². Over the extended
  reals, with the ideal quotient, the same holds when every entry is a real number and the divisor is a real that is not
  zero (at an infinite entry the two sides differ: one is +∞, the other −∞). This is the step between a batch
  normalization that takes its variance textbook-wise and one that accumulates sums and sums of squares.
-/
import Idealize.ShloMosaic.PureOps.Ideal

noncomputable section

namespace Cert.Lib.VarLaw

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: with `n` the number of terms, the mean of the squared deviations from the mean is the mean of the
    squares minus the square of the mean. -/
theorem var_real {ι : Type*} [Fintype ι] (f : ι → ℝ) (n : ℝ) (hn : n ≠ 0) (hcard : (Fintype.card ι : ℝ) = n) :
    (∑ i, (f i - (∑ k, f k) * (1 / n)) * (f i - (∑ k, f k) * (1 / n))) * (1 / n)
      = (∑ i, f i * f i) * (1 / n) - (∑ i, f i) * (1 / n) * ((∑ i, f i) * (1 / n)) := by
  have key : ∀ m : ℝ, ∑ i, (f i - m) * (f i - m)
      = (∑ i, f i * f i) - 2 * m * (∑ i, f i) + (Fintype.card ι : ℝ) * (m * m) := by
    intro m
    have e : ∀ i, (f i - m) * (f i - m) = f i * f i - 2 * m * f i + m * m := fun i => by ring
    simp only [e, Finset.sum_add_distrib, Finset.sum_sub_distrib, ← Finset.mul_sum, Finset.sum_const, Finset.card_univ,
      nsmul_eq_mul]
    ring
  rw [key, hcard]
  field_simp
  ring

/-- The same over the extended reals, for real entries and a real divisor that is not zero, with the ideal quotient. -/
theorem var_law {ι : Type*} [Fintype ι] (x : ι → EReal) (hx : ∀ i, ∃ r : ℝ, x i = (r : EReal)) (n : ℝ) (hn : n ≠ 0)
    (hcard : (Fintype.card ι : ℝ) = n) :
    Ideal.div (∑ i, (x i - Ideal.div (∑ k, x k) (n : EReal)) * (x i - Ideal.div (∑ k, x k) (n : EReal))) (n : EReal)
      = Ideal.div (∑ i, x i * x i) (n : EReal) - Ideal.div (∑ i, x i) (n : EReal) * Ideal.div (∑ i, x i) (n : EReal) := by
  choose f hf using hx
  obtain rfl : x = fun i => (f i : EReal) := funext hf
  simp only [Ideal.div_coe hn, ← coe_sum, ← EReal.coe_mul, ← EReal.coe_sub]
  exact congrArg _ (var_real f n hn hcard)

end Cert.Lib.VarLaw

end
-- ==== Proof.VarianceLaw.lean ====
/-
  The linear layer's outputs are real numbers, and on real entries the two ways of writing the variance agree.

  An extended real is "real" when it is the image of a real number. Reals are closed under sums, differences,
  products and finite sums. The float words of the program denote reals. A masked channel is a real: the mask is 0 or
  1; where it is 0 the channel is x * 0 = 0 whatever x is (also at the infinities, which is where a division by a zero
  count lands); where it is 1 the point's index is below the count read signed, so the count is at least 1, the
  division by it is a product with a real reciprocal, and every channel is a real combination of real entries.

  The count word is the real 1280000 = 40000 * 32, the number of entries of one unit, so for a unit whose entries are
  all real the mean of squares minus the squared mean is the mean of squared deviations.
-/
import proofs.«164892_j446676599108_2_alg».proof.Proof.Spec
import proofs.«164892_j446676599108_2_alg».proof.Proof.LibVarLaw

noncomputable section

open scoped BigOperators

namespace Cert.Pfn

open Idealize.ShloMosaic Idealize.ShloMosaic.ValueIdx

/-- An extended real that is (the image of) a real number. -/
def IsReal (x : EReal) : Prop := ∃ r : ℝ, x = (r : EReal)

namespace IsReal

theorem coe (r : ℝ) : IsReal (r : EReal) := ⟨r, rfl⟩

theorem zero : IsReal 0 := ⟨0, rfl⟩

/-- Neither infinity: a real. -/
theorem of_ne {x : EReal} (h : x ≠ ⊤ ∧ x ≠ ⊥) : IsReal x := ⟨x.toReal, (EReal.coe_toReal h.1 h.2).symm⟩

theorem add {x y : EReal} (hx : IsReal x) (hy : IsReal y) : IsReal (x + y) := by
  obtain ⟨a, rfl⟩ := hx
  obtain ⟨b, rfl⟩ := hy
  exact ⟨a + b, (EReal.coe_add a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- The quotient of a real by a real that is not zero is a real. -/
theorem div {x : EReal} (hx : IsReal x) {y : ℝ} (hy : y ≠ 0) : IsReal (Ideal.div x (y : EReal)) := by
  rw [Ideal.div_coe hy]
  exact mul hx (coe _)

end IsReal

/-! ### The float words -/

/-- The count word is the real 1280000. -/
theorem cCount_eq : cCount = ((1280000 : ℝ) : EReal) := by
  unfold cCount
  simp [Ideal.ofBits, Ideal.ieee, -EReal.coe_mul]; norm_num

/-- The word of +infinity denotes the top element. -/
theorem inf_eq : Ideal.ofBits .f32 0x7F800000#32 = ⊤ := by
  simp [Ideal.ofBits, Ideal.ieee]

theorem cStep_real : IsReal cStep := by
  unfold cStep
  simp [Ideal.ofBits, Ideal.ieee, -EReal.coe_mul]
  exact ⟨_, rfl⟩

theorem cOffX_real : IsReal cOffX := by
  unfold cOffX
  simp [Ideal.ofBits, Ideal.ieee, -EReal.coe_mul]
  exact ⟨_, rfl⟩

theorem cOffY_real : IsReal cOffY := by
  unfold cOffY
  simp [Ideal.ofBits, Ideal.ieee, -EReal.coe_mul]
  exact ⟨_, rfl⟩

/-! ### The mask -/

/-- The mask is 0, or it is 1 and the count word is positive read signed (a point's index is at least 0). -/
theorem maskv_cases (nv : BitVec 32) (n : Fin 32) : maskv nv n = 0 ∨ (maskv nv n = 1 ∧ 0 < nv.toInt) := by
  unfold maskv IntOp.cmpi
  cases h : (BitVec.ofNat 32 n.val).slt nv with
  | false => left; simp
  | true =>
    right
    refine ⟨by simp, ?_⟩
    have h1 := BitVec.slt_iff_toInt_lt.1 h
    have h2 : (BitVec.ofNat 32 n.val).toInt = (n.val : Int) := by
      rw [BitVec.toInt_eq_toNat_cond, BitVec.toNat_ofNat]
      have := n.isLt
      omega
    omega

/-! ### The channels -/

section Channels

variable (f : Fin 32 → Fin 4 → EReal) (nv cx cy : BitVec 32)

theorem ofInt_real (b : BitVec 32) : IsReal (ofInt b) := ⟨_, rfl⟩

/-- With a positive count, every decorated channel of real entries is a real. -/
theorem raw_real (hf : ∀ k c, IsReal (f k c)) (hnv : 0 < nv.toInt) (n : Fin 32) (c : Fin 9) :
    IsReal (raw f nv cx cy n c) := by
  unfold raw
  split_ifs with h1 h2 h3
  · exact hf _ _
  · refine (hf _ _).sub ?_
    have hne : ((nv.toInt : ℝ)) ≠ 0 := by
      have : (0 : ℝ) < (nv.toInt : ℝ) := by exact_mod_cast hnv
      exact this.ne'
    exact IsReal.div (IsReal.sum _ _ fun k _ => hf k _) hne
  · exact (hf _ _).sub (((ofInt_real cx).mul cStep_real).add cOffX_real)
  · exact (hf _ _).sub (((ofInt_real cy).mul cStep_real).add cOffY_real)

/-- Every masked channel of real entries is a real, whatever the count word. -/
theorem feat_real (hf : ∀ k c, IsReal (f k c)) (n : Fin 32) (c : Fin 9) : IsReal (feat f nv cx cy n c) := by
  unfold feat
  rcases maskv_cases nv n with h | ⟨h, hnv⟩
  · rw [h, mul_zero]; exact IsReal.zero
  · rw [h, mul_one]; exact raw_real f nv cx cy hf hnv n c

/-- The linear layer on real entries and real weights gives reals. -/
theorem pillarX_real (W : Fin 9 → Fin 64 → EReal) (hf : ∀ k c, IsReal (f k c)) (hW : ∀ c v, IsReal (W c v))
    (n : Fin 32) (u : Fin 64) : IsReal (pillarX f nv cx cy W n u) := by
  unfold pillarX
  exact IsReal.sum _ _ fun c _ => (feat_real f nv cx cy hf n c).mul (hW c u)

end Channels

/-- With no infinite entry in the points and the weights, every output of the linear layer is a real. -/
theorem X_real (A : SFeat.Idx → EReal) (nv : SCnt.Idx → BitVec 32) (co : SCoor.Idx → BitVec 32) (W : SW.Idx → EReal)
    (hA : ∀ i, A i ≠ ⊤ ∧ A i ≠ ⊥) (hW : ∀ i, W i ≠ ⊤ ∧ W i ≠ ⊥) (p : Fin 40000) (n : Fin 32) (u : Fin 64) :
    ∃ r : ℝ, X A nv co W p n u = (r : EReal) :=
  pillarX_real _ _ _ _ _ (fun _ _ => IsReal.of_ne (hA _)) (fun _ _ => IsReal.of_ne (hW _)) n u

/-! ### The two variances -/

/-- The number of entries of one unit is the count word. -/
theorem card_entries : (Fintype.card (Fin 40000 × Fin 32) : ℝ) = 1280000 := by
  rw [Fintype.card_prod, Fintype.card_fin, Fintype.card_fin]; norm_num

/-- On a unit whose entries are all real, mean of squares minus squared mean is the mean of squared deviations. -/
theorem varK_eq_varR (Xf : Fin 40000 → Fin 32 → Fin 64 → EReal) (u : Fin 64)
    (h : ∀ p n, ∃ r : ℝ, Xf p n u = (r : EReal)) : varK Xf u = varR Xf u := by
  have law := Cert.Lib.VarLaw.var_law (fun i : Fin 40000 × Fin 32 => Xf i.1 i.2 u) (fun i => h i.1 i.2)
    (1280000 : ℝ) (by norm_num) card_entries
  unfold varK varR mean sum1 sum2
  rw [cCount_eq]
  simp only [Fintype.sum_prod_type] at law
  exact law.symm

/-- So the two results over such a family agree. -/
theorem outKX_eq_outRX (Xf : Fin 40000 → Fin 32 → Fin 64 → EReal) (γ β : SU.Idx → EReal)
    (h : ∀ p n u, ∃ r : ℝ, Xf p n u = (r : EReal)) : outKX Xf γ β = outRX Xf γ β := by
  have e : varK Xf = varR Xf := funext fun u => varK_eq_varR Xf u fun p n => h p n u
  unfold outKX outRX
  rw [e]

end Cert.Pfn

end
-- ==== Proof.FiniteInputs.lean ====
/-
  What the precondition says, and what it gives.

  The precondition is the conjunction of four "all entries satisfy |x| < +infinity", over the points, the weights and
  the two vectors of the normalisation. Read at the extended reals, |x| = max x (-x) is below the top element exactly
  when x is neither infinity. So under the precondition no entry of the points or of the weights is infinite; then
  every output of the linear layer is a real, and on real entries the two ways of writing the variance agree, so the
  two whole-array results agree.
-/
import proofs.«164892_j446676599108_2_alg».proof.Proof.Spec
import proofs.«164892_j446676599108_2_alg».proof.Proof.VarianceLaw
import proofs.«164892_j446676599108_2_alg».proof.Proof.Gen.Pre_finite_inputs
import Idealize.ShloMosaic.Lib.ReduceAll

noncomputable section

namespace Cert.Pfn

open Idealize.ShloMosaic Idealize.ShloMosaic.ValueIdx
open Cert.Pre_finite_inputs

/-- The shape of a single word has one index. -/
instance : Subsingleton S_.Idx := ⟨fun a b => funext fun d => d.elim0⟩

/-- An extended real whose absolute value compares below +infinity is neither infinity. -/
theorem ne_of_abs_lt (x : EReal)
    (h : Ideal.cmp .olt (max x (-x)) (Ideal.ofBits .f32 0x7F800000#32) = 1#1) : x ≠ ⊤ ∧ x ≠ ⊥ := by
  rw [inf_eq] at h
  have h' : BitVec.ofBool (decide (max x (-x) < ⊤)) = 1#1 := h
  have hlt : max x (-x) < ⊤ := by
    cases hd : decide (max x (-x) < ⊤) with
    | true => exact of_decide_eq_true hd
    | false => rw [hd] at h'; exact absurd h' (by decide)
  constructor
  · rintro rfl
    simp at hlt
  · rintro rfl
    simp at hlt

/-- Under the precondition no point entry and no weight is infinite. -/
theorem real_of_pre [Cert.Pre_finite_inputs.Facts]
    (A : FVec Ideal S40000x32x4 .f32) (nv : IVec S40000 32) (co : IVec S40000x4 32) (W : FVec Ideal S9x64 .f32)
    (γ β : FVec Ideal S64 .f32)
    (h : Cert.Pre_finite_inputs.fn (F := Ideal) A nv co W γ β = fun _ => 1#1) :
    (∀ i, A i ≠ ⊤ ∧ A i ≠ ⊥) ∧ (∀ i, W i ≠ ⊤ ∧ W i ≠ ⊥) := by
  have e := congrFun h ix0
  dsimp only [Cert.Pre_finite_inputs.fn, Cert.Pre_finite_inputs.fn_part1, andi] at e
  obtain ⟨⟨⟨hA, hW⟩, -⟩, -⟩ : ((_ ∧ _) ∧ _) ∧ _ := by
    have e1 := IntOp.andi_eq_one.1 e
    have e2 := IntOp.andi_eq_one.1 e1.1
    have e3 := IntOp.andi_eq_one.1 e2.1
    exact ⟨⟨e3, e2.2⟩, e1.2⟩
  refine ⟨fun i => ?_, fun i => ?_⟩
  · exact ne_of_abs_lt (A i) (Host.reduce_andi_all _ _ _ _ _ hA i)
  · exact ne_of_abs_lt (W i) (Host.reduce_andi_all _ _ _ _ _ hW i)

/-- Under the precondition the two whole-array results agree. -/
theorem outK_eq_outR [Cert.Pre_finite_inputs.Facts]
    (A : FVec Ideal S40000x32x4 .f32) (nv : IVec S40000 32) (co : IVec S40000x4 32) (W : FVec Ideal S9x64 .f32)
    (γ β : FVec Ideal S64 .f32)
    (h : Cert.Pre_finite_inputs.fn (F := Ideal) A nv co W γ β = fun _ => 1#1) :
    outK A nv co W γ β = outR A nv co W γ β := by
  obtain ⟨hA, hW⟩ := real_of_pre A nv co W γ β h
  exact outKX_eq_outRX _ γ β fun p n u => X_real A nv co W hA hW p n u

end Cert.Pfn

end
-- ==== Proof.lean ====
/-
  A pillar feature network, as a two-pass tiled kernel and as one jnp expression, compute the same array
  over the extended reals.

  Both programs decorate each pillar's 32 points to 9 channels, mask the points beyond the pillar's count,
  apply a 9 -> 64 linear map, normalise every unit with its mean and variance over all 40000 x 32 rows, scale,
  shift, take the positive part, and keep the largest value over each pillar's points. They differ in two
  ways. The kernel works tile by tile (800 pillars), accumulating each unit's sum and sum of squares over
  the 50 tiles in a first pass and recomputing the linear layer in a second; sums and maxima over the
  extended reals do not depend on how they are bracketed, so this changes nothing. And the kernel's variance
  is the mean of squares minus the squared mean where the reference's is the mean of squared deviations.
  These agree when every entry of the linear layer's output is a real number, which the precondition gives:
  features and weights are finite, counts and coordinates are integers, and the one division that can be by
  zero (a pillar's mean point, for a count of zero) is multiplied by a mask that is then zero at every
  point, and zero times anything is zero over the extended reals.

  The three frame claims are the generated frames (the reference's is its generated run with the result
  dropped); the idealization rewrote nothing; the value claim joins the kernel's run, re-posted at the
  specification `outK`, to the reference's generated run, read at `outR`, by `outK = outR` under the precondition.
-/
import proofs.«164892_j446676599108_2_alg».proof.Defs
import proofs.«164892_j446676599108_2_alg».proof.Proof.Gen.Kernel
import proofs.«164892_j446676599108_2_alg».proof.Proof.Gen.Kernel.Frame
import proofs.«164892_j446676599108_2_alg».proof.Proof.Gen.KernelIdeal
import proofs.«164892_j446676599108_2_alg».proof.Proof.Gen.KernelIdeal.Frame
import proofs.«164892_j446676599108_2_alg».proof.Proof.Gen.ReferenceIdeal
import proofs.«164892_j446676599108_2_alg».proof.Proof.Gen.ReferenceIdeal.Run
import proofs.«164892_j446676599108_2_alg».proof.Proof.Gen.ReferenceIdeal.Read
import proofs.«164892_j446676599108_2_alg».proof.Proof.Gen.Pre_finite_inputs
import proofs.«164892_j446676599108_2_alg».proof.Proof.KernelValue
import proofs.«164892_j446676599108_2_alg».proof.Proof.RefValue
import proofs.«164892_j446676599108_2_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments, the kernel ends at `outK` and the reference at `outR` of the same
    arrays, and under the precondition these are one array. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.Pfn.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, Cert.Pfn.Ref.ref_eq, (hagree c).1, (hagree c).2.1, (hagree c).2.2.1,
    (hagree c).2.2.2.1, (hagree c).2.2.2.2.1, (hagree c).2.2.2.2.2]
  exact (@Cert.Pfn.outK_eq_outR Cert.Pre_finite_inputs.Gen.facts _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
